-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S8192 : Shape := ⟨1, ![8192]⟩
abbrev S128x32 : Shape := ⟨2, ![128, 32]⟩
abbrev S32 : Shape := ⟨1, ![32]⟩
abbrev S32x32 : Shape := ⟨2, ![32, 32]⟩
abbrev S64x32 : Shape := ⟨2, ![64, 32]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S64x32 : S_.BroadcastsInDim S64x32 (![] : Fin 0 → Fin S64x32.rank)
  reducesTo_S64x32_S_d0_1 : S64x32.ReducesTo [0, 1] S_

variable [Facts]

def fn_part5 {F : FTy → Type} [FloatOps F] (main_arg1 : FVec F S8192x8192 .f32) (main_v83 : IVec S_ 1) (main_v84 : FVec F S8192x8192 .f32) : IVec S_ 1 :=
  let main_v85 : IVec S8192x8192 1 := cmpf .oeq main_arg1 main_v84
  let main_cst_33 : FVec F S_ .f32 := constant S_ .f32 0x3F800000#32
  let main_v86 : FVec F S8192x8192 .f32 := broadcastInDim S8192x8192 ![] bcast_S_S8192x8192 main_cst_33
  let main_v87 : IVec S8192x8192 1 := cmpf .oeq main_arg1 main_v86
  let main_v88 : IVec S8192x8192 1 := ori main_v85 main_v87
  let main_c_34 : IVec S_ 1 := constantI S_ 1 1#1
  let main_v89 : IVec S_ 1 := (fun x v => Host.reduce IntOp.andi x v reducesTo_S8192x8192_S_d0_1 h_S_) main_v88 main_c_34
  let main_v90 : IVec S_ 1 := andi main_v83 main_v89
  main_v90

def fn_part4 {F : FTy → Type} [FloatOps F] (main_arg1 : FVec F S8192x8192 .f32) (main_arg14 : FVec F S32 .f32) (main_arg15 : FVec F S32x32 .f32) (main_arg16 : FVec F S32 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x32 .f32 := Host.absf main_arg15
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_cst_32 : FVec F S_ .f32 := constant S_ .f32 0x00000000#32
  let main_v84 : FVec F S8192x8192 .f32 := broadcastInDim S8192x8192 ![] bcast_S_S8192x8192 main_cst_32
  fn_part5 (F := F) main_arg1 main_v83 main_v84

def fn_part3 {F : FTy → Type} [FloatOps F] (main_arg1 : FVec F S8192x8192 .f32) (main_arg11 : FVec F S64x32 .f32) (main_arg12 : FVec F S32 .f32) (main_arg13 : FVec F S32x32 .f32) (main_arg14 : FVec F S32 .f32) (main_arg15 : FVec F S32x32 .f32) (main_arg16 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S64x32 .f32 := Host.absf main_arg11
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg13
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg1 main_arg14 main_arg15 main_arg16 main_v63 main_v67

def fn_part2 {F : FTy → Type} [FloatOps F] (main_arg1 : FVec F S8192x8192 .f32) (main_arg7 : FVec F S32x32 .f32) (main_arg8 : FVec F S32 .f32) (main_arg9 : FVec F S32x32 .f32) (main_arg10 : FVec F S32 .f32) (main_arg11 : FVec F S64x32 .f32) (main_arg12 : FVec F S32 .f32) (main_arg13 : FVec F S32x32 .f32) (main_arg14 : FVec F S32 .f32) (main_arg15 : FVec F S32x32 .f32) (main_arg16 : FVec F S32 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg1 main_arg11 main_arg12 main_arg13 main_arg14 main_arg15 main_arg16 main_v48 main_v49 main_v50

def fn_part1 {F : FTy → Type} [FloatOps F] (main_arg1 : FVec F S8192x8192 .f32) (main_arg4 : FVec F S32 .f32) (main_arg5 : FVec F S32x32 .f32) (main_arg6 : FVec F S32 .f32) (main_arg7 : FVec F S32x32 .f32) (main_arg8 : FVec F S32 .f32) (main_arg9 : FVec F S32x32 .f32) (main_arg10 : FVec F S32 .f32) (main_arg11 : FVec F S64x32 .f32) (main_arg12 : FVec F S32 .f32) (main_arg13 : FVec F S32x32 .f32) (main_arg14 : FVec F S32 .f32) (main_arg15 : FVec F S32x32 .f32) (main_arg16 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg7 main_arg8 main_arg9 main_arg10 main_arg11 main_arg12 main_arg13 main_arg14 main_arg15 main_arg16 main_v33

def fn {F : FTy → Type} [FloatOps F] (main_arg0 : FVec F S8192x128 .f32) (main_arg1 : FVec F S8192x8192 .f32) (main_arg2 : FVec F S8192 .f32) (main_arg3 : FVec F S128x32 .f32) (main_arg4 : FVec F S32 .f32) (main_arg5 : FVec F S32x32 .f32) (main_arg6 : FVec F S32 .f32) (main_arg7 : FVec F S32x32 .f32) (main_arg8 : FVec F S32 .f32) (main_arg9 : FVec F S32x32 .f32) (main_arg10 : FVec F S32 .f32) (main_arg11 : FVec F S64x32 .f32) (main_arg12 : FVec F S32 .f32) (main_arg13 : FVec F S32x32 .f32) (main_arg14 : FVec F S32 .f32) (main_arg15 : FVec F S32x32 .f32) (main_arg16 : FVec F S32 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg1 main_arg4 main_arg5 main_arg6 main_arg7 main_arg8 main_arg9 main_arg10 main_arg11 main_arg12 main_arg13 main_arg14 main_arg15 main_arg16 main_v13 main_v16
-- ==== Kernel.lean ====
abbrev S8192x128 : Shape := ⟨2, ![8192, 128]⟩
abbrev S8192x8192 : Shape := ⟨2, ![8192, 8192]⟩
abbrev S8192 : Shape := ⟨1, ![8192]⟩
abbrev S128x32 : Shape := ⟨2, ![128, 32]⟩
abbrev S32 : Shape := ⟨1, ![32]⟩
abbrev S32x32 : Shape := ⟨2, ![32, 32]⟩
abbrev S64x32 : Shape := ⟨2, ![64, 32]⟩
abbrev S8192x32 : Shape := ⟨2, ![8192, 32]⟩
abbrev S1024x128 : Shape := ⟨2, ![1024, 128]⟩
abbrev S1024x32 : Shape := ⟨2, ![1024, 32]⟩
abbrev S1x32 : Shape := ⟨2, ![1, 32]⟩
abbrev S1x8192 : Shape := ⟨2, ![1, 8192]⟩
abbrev S512x4096 : Shape := ⟨2, ![512, 4096]⟩
abbrev S1x4096 : Shape := ⟨2, ![1, 4096]⟩
abbrev S4096 : Shape := ⟨1, ![4096]⟩
abbrev S8192x1 : Shape := ⟨2, ![8192, 1]⟩
abbrev S256x4096 : Shape := ⟨2, ![256, 4096]⟩
abbrev S256x32 : Shape := ⟨2, ![256, 32]⟩
abbrev S4096x32 : Shape := ⟨2, ![4096, 32]⟩
abbrev S1024x1 : Shape := ⟨2, ![1024, 1]⟩
abbrev S1024 : Shape := ⟨1, ![1024]⟩

abbrev nBuf : Space → Nat
  | .hbm => 29
  | .vmem => 43
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S64x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x32, .f32⟩
  | .hbm, ⟨16, _⟩ => ⟨S32, .f32⟩
  | .hbm, ⟨17, _⟩ => ⟨S8192x32, .f32⟩
  | .hbm, ⟨18, _⟩ => ⟨S8192x32, .f32⟩
  | .hbm, ⟨19, _⟩ => ⟨S1x8192, .f32⟩
  | .hbm, ⟨20, _⟩ => ⟨S8192, .f32⟩
  | .hbm, ⟨21, _⟩ => ⟨S8192x1, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x1, .f32⟩
  | .hbm, ⟨26, _⟩ => ⟨S32x32, .f32⟩
  | .hbm, ⟨27, _⟩ => ⟨S32x32, .f32⟩
  | .hbm, ⟨28, _⟩ => ⟨S8192x32, .f32⟩
  | .local _ .vmem, ⟨0, _⟩ => ⟨S1024x128, .f32⟩
  | .local _ .vmem, ⟨1, _⟩ => ⟨S1024x128, .f32⟩
  | .local _ .vmem, ⟨2, _⟩ => ⟨S128x32, .f32⟩
  | .local _ .vmem, ⟨3, _⟩ => ⟨S32, .f32⟩
  | .local _ .vmem, ⟨4, _⟩ => ⟨S32x32, .f32⟩
  | .local _ .vmem, ⟨5, _⟩ => ⟨S32, .f32⟩
  | .local _ .vmem, ⟨6, _⟩ => ⟨S32x32, .f32⟩
  | .local _ .vmem, ⟨7, _⟩ => ⟨S1024x32, .f32⟩
  | .local _ .vmem, ⟨8, _⟩ => ⟨S1024x32, .f32⟩
  | .local _ .vmem, ⟨9, _⟩ => ⟨S1024x32, .f32⟩
  | .local _ .vmem, ⟨10, _⟩ => ⟨S1024x32, .f32⟩
  | .local _ .vmem, ⟨11, _⟩ => ⟨S512x4096, .f32⟩
  | .local _ .vmem, ⟨12, _⟩ => ⟨S512x4096, .f32⟩
  | .local _ .vmem, ⟨13, _⟩ => ⟨S1x4096, .f32⟩
  | .local _ .vmem, ⟨14, _⟩ => ⟨S1x4096, .f32⟩
  | .local _ .vmem, ⟨15, _⟩ => ⟨S256x4096, .f32⟩
  | .local _ .vmem, ⟨16, _⟩ => ⟨S256x4096, .f32⟩
  | .local _ .vmem, ⟨17, _⟩ => ⟨S256x32, .f32⟩
  | .local _ .vmem, ⟨18, _⟩ => ⟨S256x32, .f32⟩
  | .local _ .vmem, ⟨19, _⟩ => ⟨S4096x32, .f32⟩
  | .local _ .vmem, ⟨20, _⟩ => ⟨S4096x32, .f32⟩
  | .local _ .vmem, ⟨21, _⟩ => ⟨S1024x32, .f32⟩
  | .local _ .vmem, ⟨22, _⟩ => ⟨S1024x32, .f32⟩
  | .local _ .vmem, ⟨23, _⟩ => ⟨S1024x32, .f32⟩
  | .local _ .vmem, ⟨24, _⟩ => ⟨S1024x32, .f32⟩
  | .local _ .vmem, ⟨25, _⟩ => ⟨S1024x1, .f32⟩
  | .local _ .vmem, ⟨26, _⟩ => ⟨S1024x1, .f32⟩
  | .local _ .vmem, ⟨27, _⟩ => ⟨S1024x32, .f32⟩
  | .local _ .vmem, ⟨28, _⟩ => ⟨S1024x32, .f32⟩
  | .local _ .vmem, ⟨29, _⟩ => ⟨S32, .f32⟩
  | .local _ .vmem, ⟨30, _⟩ => ⟨S32x32, .f32⟩
  | .local _ .vmem, ⟨31, _⟩ => ⟨S32, .f32⟩
  | .local _ .vmem, ⟨32, _⟩ => ⟨S32x32, .f32⟩
  | .local _ .vmem, ⟨33, _⟩ => ⟨S32x32, .f32⟩
  | .local _ .vmem, ⟨34, _⟩ => ⟨S32, .f32⟩
  | .local _ .vmem, ⟨35, _⟩ => ⟨S32x32, .f32⟩
  | .local _ .vmem, ⟨36, _⟩ => ⟨S32, .f32⟩
  | .local _ .vmem, ⟨37, _⟩ => ⟨S32x32, .f32⟩
  | .local _ .vmem, ⟨38, _⟩ => ⟨S32, .f32⟩
  | .local _ .vmem, ⟨39, _⟩ => ⟨S1024x1, .f32⟩
  | .local _ .vmem, ⟨40, _⟩ => ⟨S1024x1, .f32⟩
  | .local _ .vmem, ⟨41, _⟩ => ⟨S1024x32, .f32⟩
  | .local _ .vmem, ⟨42, _⟩ => ⟨S1024x32, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg9_0 : Ref sig .tc := ⟨.vmem, 34, rfl⟩
abbrev cc3_stg10_0 : Ref sig .tc := ⟨.vmem, 35, rfl⟩
abbrev cc3_stg11_0 : Ref sig .tc := ⟨.vmem, 36, rfl⟩
abbrev cc3_stg12_0 : Ref sig .tc := ⟨.vmem, 37, rfl⟩
abbrev cc3_stg13_0 : Ref sig .tc := ⟨.vmem, 38, rfl⟩
abbrev cc3_stg14_0 : Ref sig .tc := ⟨.vmem, 39, rfl⟩
abbrev cc3_stg14_1 : Ref sig .tc := ⟨.vmem, 40, rfl⟩
abbrev cc3_stg15_0 : Ref sig .tc := ⟨.vmem, 41, rfl⟩
abbrev cc3_stg15_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem9_0 : DmaSem sig := 34
abbrev cc3_sem10_0 : DmaSem sig := 35
abbrev cc3_sem11_0 : DmaSem sig := 36
abbrev cc3_sem12_0 : DmaSem sig := 37
abbrev cc3_sem13_0 : DmaSem sig := 38
abbrev cc3_sem14_0 : DmaSem sig := 39
abbrev cc3_sem14_1 : DmaSem sig := 40
abbrev cc3_sem15_0 : DmaSem sig := 41
abbrev cc3_sem15_1 : DmaSem sig := 42

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![2, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S32x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S32x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S32 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S32x32 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S32 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S32x32 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S32 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S1024x1 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S1024x32 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

class Facts₀ : Prop where
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  inb_S1024x32_S1024x32_0_0 : ∀ a, (![0, 0] : Fin 2 → Nat) a + S1024x32.size a ≤ S1024x32.size a
  h_S1024x32 : 0 < S1024x32.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  shapeCasts_S4096_S1x4096 : S4096.ShapeCasts S1x4096
  shapeCasts_S1x8192_S8192 : S1x8192.ShapeCasts S8192
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  inb_S4096x32_S4096x32_0_0 : ∀ a, (![0, 0] : Fin 2 → Nat) a + S4096x32.size a ≤ S4096x32.size a
  h_S4096x32 : 0 < S4096x32.numel
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S4096x32_S4096x32 : S4096x32.ShapeCasts S4096x32
  slices_S64x32_S32x32_0_0 : S64x32.Slices ![0, 0] S32x32
  slices_S64x32_S32x32_32_0 : S64x32.Slices ![32, 0] S32x32
  shapeCasts_S1024x32_S1024x32 : S1024x32.ShapeCasts S1024x32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x32 : S1024x1.Broadcasts S1024x32
  shapeCasts_S32x32_S32x32 : S32x32.ShapeCasts S32x32
  reduces_S1024x32_S1024 : S1024x32.Reduces [1] S1024
  shapeCasts_S1024_S1024x1 : S1024.ShapeCasts S1024x1
  dot_S1024x128_S128x32_S1024x32_1_0_0_1_n_n_wf : DotDims.WF S1024x128 S128x32 S1024x32 [1] [0] [0] [1] [] []
  dot_S1024x32_S32x32_S1024x32_1_0_0_1_n_n_wf : DotDims.WF S1024x32 S32x32 S1024x32 [1] [0] [0] [1] [] []
  dot_S256x4096_S256x32_S4096x32_0_0_1_1_n_n_wf : DotDims.WF S256x4096 S256x32 S4096x32 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S8192x32.size a
  hwx0_6 : ∀ i : grid0.Coords, EltTy.bits .f32 = 32 ∨ (Rect.block (s := S8192x32) S1024x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x32.size a ≤ S8192x32.size a
  hwx0_7 : ∀ i : grid0.Coords, EltTy.bits .f32 = 32 ∨ (Rect.block (s := S8192x32) S1024x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x8192.size a
  hwx1_0 : ∀ i : grid1.Coords, EltTy.bits .f32 = 32 ∨ (Rect.block (s := S8192x8192) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x8192.size a
  hwx1_1 : ∀ i : grid1.Coords, EltTy.bits .f32 = 32 ∨ (Rect.block (s := S1x8192) S1x4096.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x8192.size a
  hwx2_0 : ∀ i : grid2.Coords, EltTy.bits .f32 = 32 ∨ (Rect.block (s := S8192x8192) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x32.size a ≤ S8192x32.size a
  hwx2_1 : ∀ i : grid2.Coords, EltTy.bits .f32 = 32 ∨ (Rect.block (s := S8192x32) S256x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x32.size a ≤ S8192x32.size a
  hwx2_2 : ∀ i : grid2.Coords, EltTy.bits .f32 = 32 ∨ (Rect.block (s := S8192x32) S4096x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x32.size a ≤ S8192x32.size a
  hwx3_0 : ∀ i : grid3.Coords, EltTy.bits .f32 = 32 ∨ (Rect.block (s := S8192x32) S1024x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x32.size a ≤ S8192x32.size a
  hwx3_1 : ∀ i : grid3.Coords, EltTy.bits .f32 = 32 ∨ (Rect.block (s := S8192x32) S1024x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x32.size a ≤ S8192x32.size a
  hwx3_3 : ∀ i : grid3.Coords, EltTy.bits .f32 = 32 ∨ (Rect.block (s := S8192x32) S1024x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32.size a ≤ S32.size a
  hwx3_4 : ∀ i : grid3.Coords, EltTy.bits .f32 = 32 ∨ (Rect.block (s := S32) S32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x32.size a ≤ S32x32.size a
  hwx3_5 : ∀ i : grid3.Coords, EltTy.bits .f32 = 32 ∨ (Rect.block (s := S32x32) S32x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S32.size a ≤ S32.size a
  hwx3_6 : ∀ i : grid3.Coords, EltTy.bits .f32 = 32 ∨ (Rect.block (s := S32) S32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S32x32.size a ≤ S32x32.size a
  hwx3_7 : ∀ i : grid3.Coords, EltTy.bits .f32 = 32 ∨ (Rect.block (s := S32x32) S32x32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S32x32.size a ≤ S32x32.size a
  hwx3_8 : ∀ i : grid3.Coords, EltTy.bits .f32 = 32 ∨ (Rect.block (s := S32x32) S32x32.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S32.size a ≤ S32.size a
  hwx3_9 : ∀ i : grid3.Coords, EltTy.bits .f32 = 32 ∨ (Rect.block (s := S32) S32.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S32x32.size a ≤ S32x32.size a
  hwx3_10 : ∀ i : grid3.Coords, EltTy.bits .f32 = 32 ∨ (Rect.block (s := S32x32) S32x32.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S32.size a ≤ S32.size a
  hwx3_11 : ∀ i : grid3.Coords, EltTy.bits .f32 = 32 ∨ (Rect.block (s := S32) S32.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S32x32.size a ≤ S32x32.size a
  hwx3_12 : ∀ i : grid3.Coords, EltTy.bits .f32 = 32 ∨ (Rect.block (s := S32x32) S32x32.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S32.size a ≤ S32.size a
  hwx3_13 : ∀ i : grid3.Coords, EltTy.bits .f32 = 32 ∨ (Rect.block (s := S32) S32.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S1024x1.size a ≤ S8192x1.size a
  hwx3_14 : ∀ i : grid3.Coords, EltTy.bits .f32 = 32 ∨ (Rect.block (s := S8192x1) S1024x1.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S1024x32.size a ≤ S8192x32.size a
  hwx3_15 : ∀ i : grid3.Coords, EltTy.bits .f32 = 32 ∨ (Rect.block (s := S8192x32) S1024x32.size (cc3_transform_15 i) (hinb3_15 i)).WholeWords (EltTy.packing .f32)

variable [Facts₀]

def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S256x4096_S256x32_S4096x32_0_0_1_1_n_n : DotDims S256x4096 S256x32 S4096x32 where
  lhsContracting := [0]
  rhsContracting := [0]
  lhsNonContracting := [1]
  rhsNonContracting := [1]
  lhsBatch := []
  rhsBatch := []
  wf := dot_S256x4096_S256x32_S4096x32_0_0_1_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1024x32.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1024x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg1) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S256x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S4096x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v6) S1024x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1024x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0_0) S1024x32.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S32x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg10) S32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v8) S32x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v9) S32x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg12) S32.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg13) S32x32.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg14) S32.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg15) S32x32.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_arg16) S32.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v7) S1024x1.size cc3_transform_14 reads3_14 false false 2 stage3_14 sem3_14
    hrank3 hreads3_14 hinb3_14 nbuf3_14 (Memref.isWhole_whole _) hwx3_14 hstage3_14

abbrev win3_15 : Pipeline.Window sig grid3 :=
  Pipeline.Window.ofSpec (Memref.whole main_v10) S1024x32.size cc3_transform_15 reads3_15 true false 2 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S8192 : Shape := ⟨1, ![8192]⟩
abbrev S128x32 : Shape := ⟨2, ![128, 32]⟩
abbrev S32 : Shape := ⟨1, ![32]⟩
abbrev S32x32 : Shape := ⟨2, ![32, 32]⟩
abbrev S64x32 : Shape := ⟨2, ![64, 32]⟩
abbrev S8192x32 : Shape := ⟨2, ![8192, 32]⟩
abbrev S1x32 : Shape := ⟨2, ![1, 32]⟩
abbrev S_ : Shape := ⟨0, ![]⟩
abbrev S8192x1 : Shape := ⟨2, ![8192, 1]⟩
abbrev S8192x64 : Shape := ⟨2, ![8192, 64]⟩

abbrev nBuf : Space → Nat
  | .hbm => 107
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S64x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x32, .f32⟩
  | .hbm, ⟨16, _⟩ => ⟨S32, .f32⟩
  | .hbm, ⟨17, _⟩ => ⟨S8192x32, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S_, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S_, .f32⟩
  | .hbm, ⟨29, _⟩ => ⟨S8192x32, .f32⟩
  | .hbm, ⟨30, _⟩ => ⟨S8192x32, .f32⟩
  | .hbm, ⟨31, _⟩ => ⟨S8192x8192, .i32⟩
  | .hbm, ⟨32, _⟩ => ⟨S8192x8192, .i32⟩
  | .hbm, ⟨33, _⟩ => ⟨S_, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .i1⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x32, .f32⟩
  | .hbm, ⟨50, _⟩ => ⟨S8192x1, .f32⟩
  | .hbm, ⟨51, _⟩ => ⟨S8192x8192, .f32⟩
  | .hbm, ⟨52, _⟩ => ⟨S8192x1, .f32⟩
  | .hbm, ⟨53, _⟩ => ⟨S8192x32, .f32⟩
  | .hbm, ⟨54, _⟩ => ⟨S8192x32, .f32⟩
  | .hbm, ⟨55, _⟩ => ⟨S8192x32, .f32⟩
  | .hbm, ⟨56, _⟩ => ⟨S8192x32, .f32⟩
  | .hbm, ⟨57, _⟩ => ⟨S8192x32, .f32⟩
  | .hbm, ⟨58, _⟩ => ⟨S1x32, .f32⟩
  | .hbm, ⟨59, _⟩ => ⟨S8192x32, .f32⟩
  | .hbm, ⟨60, _⟩ => ⟨S8192x32, .f32⟩
  | .hbm, ⟨61, _⟩ => ⟨S_, .f32⟩
  | .hbm, ⟨62, _⟩ => ⟨S8192x32, .f32⟩
  | .hbm, ⟨63, _⟩ => ⟨S8192x32, .f32⟩
  | .hbm, ⟨64, _⟩ => ⟨S8192x32, .f32⟩
  | .hbm, ⟨65, _⟩ => ⟨S1x32, .f32⟩
  | .hbm, ⟨66, _⟩ => ⟨S8192x32, .f32⟩
  | .hbm, ⟨67, _⟩ => ⟨S8192x32, .f32⟩
  | .hbm, ⟨68, _⟩ => ⟨S_, .f32⟩
  | .hbm, ⟨69, _⟩ => ⟨S8192x32, .f32⟩
  | .hbm, ⟨70, _⟩ => ⟨S8192x32, .f32⟩
  | .hbm, ⟨71, _⟩ => ⟨S8192x64, .f32⟩
  | .hbm, ⟨72, _⟩ => ⟨S8192x32, .f32⟩
  | .hbm, ⟨73, _⟩ => ⟨S1x32, .f32⟩
  | .hbm, ⟨74, _⟩ => ⟨S8192x32, .f32⟩
  | .hbm, ⟨75, _⟩ => ⟨S8192x32, .f32⟩
  | .hbm, ⟨76, _⟩ => ⟨S_, .f32⟩
  | .hbm, ⟨77, _⟩ => ⟨S8192x32, .f32⟩
  | .hbm, ⟨78, _⟩ => ⟨S8192x32, .f32⟩
  | .hbm, ⟨79, _⟩ => ⟨S8192x32, .f32⟩
  | .hbm, ⟨80, _⟩ => ⟨S1x32, .f32⟩
  | .hbm, ⟨81, _⟩ => ⟨S8192x32, .f32⟩
  | .hbm, ⟨82, _⟩ => ⟨S8192x32, .f32⟩
  | .hbm, ⟨83, _⟩ => ⟨S_, .f32⟩
  | .hbm, ⟨84, _⟩ => ⟨S8192x32, .f32⟩
  | .hbm, ⟨85, _⟩ => ⟨S8192x32, .f32⟩
  | .hbm, ⟨86, _⟩ => ⟨S8192x32, .f32⟩
  | .hbm, ⟨87, _⟩ => ⟨S1x32, .f32⟩
  | .hbm, ⟨88, _⟩ => ⟨S8192x32, .f32⟩
  | .hbm, ⟨89, _⟩ => ⟨S8192x32, .f32⟩
  | .hbm, ⟨90, _⟩ => ⟨S8192x1, .f32⟩
  | .hbm, ⟨91, _⟩ => ⟨S8192x32, .f32⟩
  | .hbm, ⟨92, _⟩ => ⟨S8192x32, .f32⟩
  | .hbm, ⟨93, _⟩ => ⟨S_, .f32⟩
  | .hbm, ⟨94, _⟩ => ⟨S8192, .f32⟩
  | .hbm, ⟨95, _⟩ => ⟨S_, .f32⟩
  | .hbm, ⟨96, _⟩ => ⟨S8192, .f32⟩
  | .hbm, ⟨97, _⟩ => ⟨S8192, .f32⟩
  | .hbm, ⟨98, _⟩ => ⟨S8192x1, .f32⟩
  | .hbm, ⟨99, _⟩ => ⟨S8192x32, .f32⟩
  | .hbm, ⟨100, _⟩ => ⟨S8192x32, .f32⟩
  | .hbm, ⟨101, _⟩ => ⟨S8192x32, .f32⟩
  | .hbm, ⟨102, _⟩ => ⟨S_, .f32⟩
  | .hbm, ⟨103, _⟩ => ⟨S8192, .f32⟩
  | .hbm, ⟨104, _⟩ => ⟨S8192x1, .f32⟩
  | .hbm, ⟨105, _⟩ => ⟨S8192x32, .f32⟩
  | .hbm, ⟨106, _⟩ => ⟨S8192x32, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_cst_0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_1 : Ref sig .tc := ⟨.hbm, 45, rfl⟩
abbrev main_call2_v0 : Ref sig .tc := ⟨.hbm, 46, rfl⟩
abbrev main_call2_v1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call3_cst : Ref sig .tc := ⟨.hbm, 61, rfl⟩
abbrev main_call3_v0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call4_cst : Ref sig .tc := ⟨.hbm, 68, rfl⟩
abbrev main_call4_v0 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call5_cst : Ref sig .tc := ⟨.hbm, 76, rfl⟩
abbrev main_call5_v0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call6_cst : Ref sig .tc := ⟨.hbm, 83, rfl⟩
abbrev main_call6_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_2 : Ref sig .tc := ⟨.hbm, 93, rfl⟩
abbrev main_v58 : Ref sig .tc := ⟨.hbm, 94, rfl⟩
abbrev main_cst_3 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_4 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S_S8192x8192 : S_.BroadcastsInDim S8192x8192 (![] : Fin 0 → Fin S8192x8192.rank)
  reducesTo_S8192x8192_S8192_d0 : S8192x8192.ReducesTo [0] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  transposes_S8192x8192_S8192x8192_1_0 : S8192x8192.Transposes [1, 0] S8192x8192
  bcast_S8192x1_S8192x32_0_1 : S8192x1.BroadcastsInDim S8192x32 (![0, 1] : Fin 2 → Fin S8192x32.rank)
  concatenates_S8192x32_S8192x32_S8192x64_d1 : Shape.Concatenates [S8192x32, S8192x32] S8192x64 1
  reducesTo_S8192x32_S8192_d1 : S8192x32.ReducesTo [1] S8192
  dot_S8192x128_S128x32_S8192x32_1_0_0_1_n_n_wf : DotDims.WF S8192x128 S128x32 S8192x32 [1] [0] [0] [1] [] []
  dot_S8192x32_S32x32_S8192x32_1_0_0_1_n_n_wf : DotDims.WF S8192x32 S32x32 S8192x32 [1] [0] [0] [1] [] []
  dot_S8192x8192_S8192x32_S8192x32_1_0_0_1_n_n_wf : DotDims.WF S8192x8192 S8192x32 S8192x32 [1] [0] [0] [1] [] []
  dot_S8192x64_S64x32_S8192x32_1_0_0_1_n_n_wf : DotDims.WF S8192x64 S64x32 S8192x32 [1] [0] [0] [1] [] []

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf

class Facts : Prop extends Facts₀ where

variable [Facts]
-- ==== Proof.RunValue.lean ====
/-
  The idealized kernel program's run with its result kept: every weakly fair execution of @main terminates, nothing
  faults, the argument arrays end as launched, and the result array ends at the contents the last region leaves in it —
  the fold of the six segments (four regions among two stretches of host operations) from the launch memory.
-/
import proofs.«159406_j42434276884964_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the six segments from the launch memory; the last thread state holds every unscoped buffer at the last
    boundary's contents, and the final state is read against it: the result array there, each argument back at its
    launch contents. -/
theorem run_value : θ_run defs (onTc (τ := τ) (main (F := F))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v10 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.KernelIdeal.RunV

end
-- ==== Proof.Chain.lean ====
/-
  The buffers the last region reads, traced back through the program.

  @main is six segments: the encoder region, the degree region, a stretch of four host operations (the degree row reshaped to
  a vector, broadcast to a column and to a matrix, and multiplied into the encoder's second output), the aggregate region, a
  stretch of three host operations (the mask as a column, the two halves of the first policy matrix), and the policy region.
  A buffer no later segment writes keeps its contents; an input window's array is left as it was entered; an output window's
  array ends at what the region's write-backs leave. Read back in this way, every operand of the last region is a function of
  the argument arrays.
-/
import proofs.«159406_j42434276884964_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg) (c : Dev nD)

/-- A buffer that no operation of a host stretch writes is left alone by the stretch. -/
macro "skip_host" : tactic => `(tactic|
  exact StableHlo.after_of_forall_not_mem _ _ (List.forall_iff_forall_mem.mp (by
    simp only [hostOps2, hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments the last region reads through its windows: as launched -/

theorem V5_arg8 : V5 m ρ c main_arg8 = m ((c : Thread nD τ).loc main_arg8) :=
  (((W6_arr m ρ c 4).trans (((dat3 (V5 m ρ) c).arrAt_in 4 rfl _).trans (A_eq3 (V5 m ρ) c 4))).symm).trans (W6_main_arg8 m ρ c)
theorem V5_arg9 : V5 m ρ c main_arg9 = m ((c : Thread nD τ).loc main_arg9) :=
  (((W6_arr m ρ c 5).trans (((dat3 (V5 m ρ) c).arrAt_in 5 rfl _).trans (A_eq3 (V5 m ρ) c 5))).symm).trans (W6_main_arg9 m ρ c)
theorem V5_arg10 : V5 m ρ c main_arg10 = m ((c : Thread nD τ).loc main_arg10) :=
  (((W6_arr m ρ c 6).trans (((dat3 (V5 m ρ) c).arrAt_in 6 rfl _).trans (A_eq3 (V5 m ρ) c 6))).symm).trans (W6_main_arg10 m ρ c)
theorem V5_arg12 : V5 m ρ c main_arg12 = m ((c : Thread nD τ).loc main_arg12) :=
  (((W6_arr m ρ c 9).trans (((dat3 (V5 m ρ) c).arrAt_in 9 rfl _).trans (A_eq3 (V5 m ρ) c 9))).symm).trans (W6_main_arg12 m ρ c)
theorem V5_arg13 : V5 m ρ c main_arg13 = m ((c : Thread nD τ).loc main_arg13) :=
  (((W6_arr m ρ c 10).trans (((dat3 (V5 m ρ) c).arrAt_in 10 rfl _).trans (A_eq3 (V5 m ρ) c 10))).symm).trans (W6_main_arg13 m ρ c)
theorem V5_arg14 : V5 m ρ c main_arg14 = m ((c : Thread nD τ).loc main_arg14) :=
  (((W6_arr m ρ c 11).trans (((dat3 (V5 m ρ) c).arrAt_in 11 rfl _).trans (A_eq3 (V5 m ρ) c 11))).symm).trans (W6_main_arg14 m ρ c)
theorem V5_arg15 : V5 m ρ c main_arg15 = m ((c : Thread nD τ).loc main_arg15) :=
  (((W6_arr m ρ c 12).trans (((dat3 (V5 m ρ) c).arrAt_in 12 rfl _).trans (A_eq3 (V5 m ρ) c 12))).symm).trans (W6_main_arg15 m ρ c)
theorem V5_arg16 : V5 m ρ c main_arg16 = m ((c : Thread nD τ).loc main_arg16) :=
  (((W6_arr m ρ c 13).trans (((dat3 (V5 m ρ) c).arrAt_in 13 rfl _).trans (A_eq3 (V5 m ρ) c 13))).symm).trans (W6_main_arg16 m ρ c)

/-! ## The arguments read by host operations of the last stretch, and the adjacency matrix at the earlier regions -/

theorem W4_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by skip_host
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem W4_arg11 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by skip_host
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem V1_arg1 : V1 m ρ c main_arg1 = m ((c : Thread nD τ).loc main_arg1) :=
  (W1_of_ne m ρ c main_arg1 (by decide)).trans rfl

theorem V3_arg1 : V3 m ρ c main_arg1 = m ((c : Thread nD τ).loc main_arg1) :=
  calc W3 m ρ c (Proc.devRef .tc main_arg1)
    _ = W2 m ρ c (Proc.devRef .tc main_arg1) := by skip_host
    _ = W1 m ρ c (Proc.devRef .tc main_arg1) := (W2_arr m ρ c 0).trans (((dat1 (V1 m ρ) c).arrAt_in 0 rfl _).trans (A_eq1 (V1 m ρ) c 0))
    _ = m ((c : Thread nD τ).loc main_arg1) := V1_arg1 m ρ c

/-! ## The regions' outputs where later segments read them -/

/-- The encoder's first output reaches the last region untouched. -/
theorem V5_v0_0 : V5 m ρ c main_v0_0 = (dat0 (V0 m ρ) c).arrAt 6 cfg0.N :=
  calc W5 m ρ c (Proc.devRef .tc main_v0_0)
    _ = W4 m ρ c (Proc.devRef .tc main_v0_0) := by skip_host
    _ = W3 m ρ c (Proc.devRef .tc main_v0_0) := W4_of_ne m ρ c main_v0_0 (by decide)
    _ = W2 m ρ c (Proc.devRef .tc main_v0_0) := by skip_host
    _ = W1 m ρ c (Proc.devRef .tc main_v0_0) := W2_of_ne m ρ c main_v0_0 (by decide)
    _ = (dat0 (V0 m ρ) c).arrAt 6 cfg0.N := W1_arr m ρ c 6

/-- The encoder's second output as the first host stretch finds it. -/
theorem W2_v0_1 : W2 m ρ c (Proc.devRef .tc main_v0_1) = (dat0 (V0 m ρ) c).arrAt 7 cfg0.N :=
  (W2_of_ne m ρ c main_v0_1 (by decide)).trans (W1_arr m ρ c 7)

/-- The degree region's output as the first host stretch finds it. -/
theorem W2_v1 : W2 m ρ c (Proc.devRef .tc main_v1) = (dat1 (V1 m ρ) c).arrAt 1 cfg1.N := W2_arr m ρ c 1

/-- The scale column reaches the last region as the first stretch wrote it. -/
theorem V5_v3 : V5 m ρ c main_v3 = V3 m ρ c main_v3 :=
  calc W5 m ρ c (Proc.devRef .tc main_v3)
    _ = W4 m ρ c (Proc.devRef .tc main_v3) := by skip_host
    _ = W3 m ρ c (Proc.devRef .tc main_v3) := W4_of_ne m ρ c main_v3 (by decide)

/-- The scaled features reach the last region as the first stretch wrote them (the aggregate region only reads them). -/
theorem V5_v5 : V5 m ρ c main_v5 = V3 m ρ c main_v5 :=
  calc W5 m ρ c (Proc.devRef .tc main_v5)
    _ = W4 m ρ c (Proc.devRef .tc main_v5) := by skip_host
    _ = W3 m ρ c (Proc.devRef .tc main_v5) := (W4_arr m ρ c 1).trans (((dat2 (V3 m ρ) c).arrAt_in 1 rfl _).trans (A_eq2 (V3 m ρ) c 1))

/-- The aggregate reaches the last region as its region left it. -/
theorem V5_v6 : V5 m ρ c main_v6 = (dat2 (V3 m ρ) c).arrAt 2 cfg2.N :=
  calc W5 m ρ c (Proc.devRef .tc main_v6)
    _ = W4 m ρ c (Proc.devRef .tc main_v6) := by skip_host
    _ = (dat2 (V3 m ρ) c).arrAt 2 cfg2.N := W4_arr m ρ c 2

/-- The result array after the last region. -/
theorem W6_v10 : W6 m ρ c (Proc.devRef .tc main_v10) = (dat3 (V5 m ρ) c).arrAt 15 cfg3.N := W6_arr m ρ c 15

end Cert.KernelIdeal.Chain

end
-- ==== Proof.HostVals.lean ====
/-
  What the two stretches of host operations between the regions write, read entry by entry.

  First stretch: the degree region's row [1, 8192] is reshaped to a vector, the vector broadcast to a column [8192, 1], the
  column to a matrix [8192, 32], and the matrix multiplied entry by entry into the encoder's second output. So entry (n, 0) of
  the column is entry (0, n) of the row, and entry (n, j) of the product is that times entry (n, j) of the encoder's output.
  Second stretch: the mask vector broadcast to a column, and rows 0–31 and 32–63 of the first policy matrix sliced out.
-/
import proofs.«159406_j42434276884964_2_alg».proof.Proof.Chain

set_option maxRecDepth 16384

noncomputable section

namespace Cert.KernelIdeal.Chain

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- Entry (n, 0) of a vector broadcast to a column is the vector's entry n. -/
theorem col_apply {α : Type} (x : S8192.Idx → α) (n : Fin 8192) :
    broadcastInDim S8192x1 ![0] bcast_S8192_S8192x1_0 x (ix2 n (0 : Fin 1)) = x (ix1 n) :=
  broadcastInDim_apply _ bcast_S8192_S8192x1_0 x (ix2 n (0 : Fin 1)) (ix1 n) (fun a => match a with
    | ⟨0, _⟩ => by show n.val = if (8192 : Nat) = 1 then 0 else n.val; rw [if_neg (by decide)])

/-- Entry (n, j) of a column broadcast along the second axis is the column's entry (n, 0). -/
theorem colmat_apply {α : Type} (x : S8192x1.Idx → α) (n : Fin 8192) (j : Fin 32) :
    broadcastInDim S8192x32 ![0, 1] bcast_S8192x1_S8192x32_0_1 x (ix2 n j) = x (ix2 n (0 : Fin 1)) :=
  broadcastInDim_apply _ bcast_S8192x1_S8192x32_0_1 x (ix2 n j) (ix2 n (0 : Fin 1)) (fun a => match a with
    | ⟨0, _⟩ => by show n.val = if (8192 : Nat) = 1 then 0 else n.val; rw [if_neg (by decide)]
    | ⟨1, _⟩ => by show 0 = if (1 : Nat) = 1 then 0 else j.val; rw [if_pos rfl])

/-- Entry n of a [1, 8192] row reshaped to a vector is the row's entry (0, n). -/
theorem row_apply {α : Type} (x : S1x8192.Idx → α) (n : Fin 8192) :
    shapeCast S8192 x shapeCasts_S1x8192_S8192 (ix1 n) = x (ix2 (0 : Fin 1) n) :=
  shapeCast_apply x shapeCasts_S1x8192_S8192 (ix1 n) (ix2 (0 : Fin 1) n) (by
    rw [Shape.rowMajor_val_two, Shape.rowMajor_val_one]
    show 0 * 8192 + n.val = n.val
    omega)

/-! ## The first stretch -/

/-- The scale column is the degree row turned on its side. -/
theorem V3_v3_apply (n : Fin 8192) :
    (V3 m ρ c main_v3 : S8192x1.Idx → EReal) (ix2 n (0 : Fin 1))
      = (W2 m ρ c (Proc.devRef .tc main_v1) : S1x8192.Idx → EReal) (ix2 (0 : Fin 1) n) := by
  have e : (W3 m ρ c (Proc.devRef .tc main_v3) : S8192x1.Idx → EReal)
      = broadcastInDim S8192x1 ![0] bcast_S8192_S8192x1_0
          (shapeCast S8192 (W2 m ρ c (Proc.devRef .tc main_v1) : S1x8192.Idx → EReal) shapeCasts_S1x8192_S8192) := by
    show StableHlo.after hostOps2 (W2 m ρ c) (Proc.devRef .tc main_v3) = _
    after_results <;> rfl
  show (W3 m ρ c (Proc.devRef .tc main_v3) : S8192x1.Idx → EReal) (ix2 n (0 : Fin 1)) = _
  rw [e, col_apply, row_apply]

/-- The scaled features: the degree row's entry (0, n) — given as `d n` — times the encoder's second output at (n, j) —
    given as `xw n j`. -/
theorem V3_v5_apply (d : Fin 8192 → EReal) (xw : Fin 8192 → Fin 32 → EReal)
    (hd : ∀ n, (W2 m ρ c (Proc.devRef .tc main_v1) : S1x8192.Idx → EReal) (ix2 (0 : Fin 1) n) = d n)
    (hxw : ∀ n j, (W2 m ρ c (Proc.devRef .tc main_v0_1) : S8192x32.Idx → EReal) (ix2 n j) = xw n j)
    (n : Fin 8192) (j : Fin 32) :
    (V3 m ρ c main_v5 : S8192x32.Idx → EReal) (ix2 n j) = d n * xw n j := by
  have e : (W3 m ρ c (Proc.devRef .tc main_v5) : S8192x32.Idx → EReal)
      = mulf (F := Ideal) (φ := .f32) (broadcastInDim S8192x32 ![0, 1] bcast_S8192x1_S8192x32_0_1 (broadcastInDim S8192x1 ![0] bcast_S8192_S8192x1_0
          (shapeCast S8192 (W2 m ρ c (Proc.devRef .tc main_v1) : S1x8192.Idx → EReal) shapeCasts_S1x8192_S8192)))
          (W2 m ρ c (Proc.devRef .tc main_v0_1) : S8192x32.Idx → EReal) := by
    show StableHlo.after hostOps2 (W2 m ρ c) (Proc.devRef .tc main_v5) = _
    after_results <;> rfl
  show (W3 m ρ c (Proc.devRef .tc main_v5) : S8192x32.Idx → EReal) (ix2 n j) = _
  rw [e, mulf_apply, colmat_apply, col_apply, row_apply, hd, hxw]

/-! ## The second stretch -/

/-- The mask column's entry (n, 0) is the mask's entry n. -/
theorem V5_v7_apply (n : Fin 8192) :
    (V5 m ρ c main_v7 : S8192x1.Idx → EReal) (ix2 n (0 : Fin 1)) = (m ((c : Thread nD τ).loc main_arg2) : S8192.Idx → EReal) (ix1 n) := by
  have e : (W5 m ρ c (Proc.devRef .tc main_v7) : S8192x1.Idx → EReal)
      = broadcastInDim S8192x1 ![0] bcast_S8192_S8192x1_0 (W4 m ρ c (Proc.devRef .tc main_arg2) : S8192.Idx → EReal) := by
    show StableHlo.after hostOps3 (W4 m ρ c) (Proc.devRef .tc main_v7) = _
    after_results <;> rfl
  show (W5 m ρ c (Proc.devRef .tc main_v7) : S8192x1.Idx → EReal) (ix2 n (0 : Fin 1)) = _
  rw [e, col_apply, W4_arg2]

/-- The first half of the first policy matrix: rows 0–31. -/
theorem V5_v8_apply (k j : Fin 32) :
    (V5 m ρ c main_v8 : S32x32.Idx → EReal) (ix2 k j)
      = (m ((c : Thread nD τ).loc main_arg11) : S64x32.Idx → EReal) (ix2 (Fin.castAdd 32 k : Fin (32 + 32)) j) := by
  have e : (W5 m ρ c (Proc.devRef .tc main_v8) : S32x32.Idx → EReal)
      = extractStridedSlice S32x32 ![0, 0] (W4 m ρ c (Proc.devRef .tc main_arg11) : S64x32.Idx → EReal) slices_S64x32_S32x32_0_0 := by
    show StableHlo.after hostOps3 (W4 m ρ c) (Proc.devRef .tc main_v8) = _
    after_results <;> rfl
  show (W5 m ρ c (Proc.devRef .tc main_v8) : S32x32.Idx → EReal) (ix2 k j) = _
  rw [e, W4_arg11]
  exact extractStridedSlice_apply ![0, 0] _ slices_S64x32_S32x32_0_0 (ix2 k j) (ix2 (Fin.castAdd 32 k : Fin (32 + 32)) j) (fun a => match a with
    | ⟨0, _⟩ => by show k.val = 0 + k.val; omega
    | ⟨1, _⟩ => by show j.val = 0 + j.val; omega)

/-- The second half: rows 32–63. -/
theorem V5_v9_apply (k j : Fin 32) :
    (V5 m ρ c main_v9 : S32x32.Idx → EReal) (ix2 k j)
      = (m ((c : Thread nD τ).loc main_arg11) : S64x32.Idx → EReal) (ix2 (Fin.natAdd 32 k : Fin (32 + 32)) j) := by
  have e : (W5 m ρ c (Proc.devRef .tc main_v9) : S32x32.Idx → EReal)
      = extractStridedSlice S32x32 ![32, 0] (W4 m ρ c (Proc.devRef .tc main_arg11) : S64x32.Idx → EReal) slices_S64x32_S32x32_32_0 := by
    show StableHlo.after hostOps3 (W4 m ρ c) (Proc.devRef .tc main_v9) = _
    after_results <;> rfl
  show (W5 m ρ c (Proc.devRef .tc main_v9) : S32x32.Idx → EReal) (ix2 k j) = _
  rw [e, W4_arg11]
  exact extractStridedSlice_apply ![32, 0] _ slices_S64x32_S32x32_32_0 (ix2 k j) (ix2 (Fin.natAdd 32 k : Fin (32 + 32)) j) (fun a => match a with
    | ⟨0, _⟩ => by show 32 + k.val = 32 + k.val; rfl
    | ⟨1, _⟩ => by show j.val = 0 + j.val; omega)

end Cert.KernelIdeal.Chain

end
-- ==== Proof.Spec.lean ====
/-
  The mathematics of both programs, as functions on the extended reals over explicit coordinates.

  An array is a function on its index type; entry (n, k) of a matrix `x` is `x (ix2 n k)`, entry j of a vector `b` is `b (ix1 j)`.
  The network: an encoder of two dense layers with clipping at 0 (`encX`), its image under the graph weights (`encXW`),
  one graph convolution with symmetric degree normalisation, a policy of three dense layers on the convolution's output beside
  the encoder's, a mask on the logits and a softmax along each row.

  The two programs arrange the convolution differently. One takes the column sums of the adjacency matrix, adds 1, takes the
  inverse square root `d`, forms `Y = d · XW` row by row, aggregates `Z c = ∑ r, A r c · Y r` and uses `d c · (Z c + Y c)`.
  The other adds the identity matrix to the adjacency matrix first, takes column sums `deg`, sets `d = deg^(-1/2)` where
  `deg > 0` and `0` elsewhere, and uses `d c · ∑ r, (A r c + [r = c]) · d r · XW r`. For an adjacency matrix with
  nonnegative entries the two agree: every degree is at least 1, and `(a + 1) · y = a · y + y` holds on the extended reals
  when `a ≥ 0`.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals, as a function on the rank-2 index type of extents `a`, `b`. -/
abbrev Mat (a b : ℕ) : Type := (⟨2, ![a, b]⟩ : Shape).Idx → EReal
/-- A vector of extended reals. -/
abbrev Row (a : ℕ) : Type := (⟨1, ![a]⟩ : Shape).Idx → EReal

/-- The float literals the programs carry and never need evaluated: 1 and −∞ as their f32 words. -/
abbrev ONE : EReal := Ideal.ofBits .f32 0x3F800000#32
abbrev NEG : EReal := Ideal.ofBits .f32 0xFF800000#32

/-- A matrix product read at one entry: row `n` of `x` against column `j` of `w`. -/
def mm {N K J : ℕ} (x : Fin N → Fin K → EReal) (w : Mat K J) (n : Fin N) (j : Fin J) : EReal :=
  ∑ k : Fin K, x n k * w (ix2 k j)

/-- One dense layer: the product, plus the bias, clipped below at 0. -/
def layer {N K J : ℕ} (x : Fin N → Fin K → EReal) (w : Mat K J) (b : Row J) (n : Fin N) (j : Fin J) : EReal :=
  max (mm x w n j + b (ix1 j)) 0

/-- The encoder: two dense layers on the input features. -/
def encX (Xin : Mat 8192 128) (We1 : Mat 128 32) (be1 : Row 32) (We2 : Mat 32 32) (be2 : Row 32) : Fin 8192 → Fin 32 → EReal :=
  layer (layer (fun n f => Xin (ix2 n f)) We1 be1) We2 be2

/-- The encoder's output times the graph weights. -/
def encXW (Xin : Mat 8192 128) (We1 : Mat 128 32) (be1 : Row 32) (We2 : Mat 32 32) (be2 : Row 32) (Wg : Mat 32 32) :
    Fin 8192 → Fin 32 → EReal :=
  mm (encX Xin We1 be1 We2 be2) Wg

/-! ## The convolution, first arrangement -/

/-- Column `c`'s sum of the adjacency matrix, plus the literal 1 (the self loop). -/
def degK (A : Mat 8192 8192) (c : Fin 8192) : EReal := (∑ r : Fin 8192, A (ix2 r c)) + ONE
/-- Its inverse square root. -/
def dinvK (A : Mat 8192 8192) (c : Fin 8192) : EReal := Ideal.rsqrt (degK A c)
/-- The aggregate: `Z c j = ∑ r, A r c · Y r j`. -/
def gcnZ (A : Mat 8192 8192) (Y : Fin 8192 → Fin 32 → EReal) (c : Fin 8192) (j : Fin 32) : EReal :=
  ∑ r : Fin 8192, A (ix2 r c) * Y r j

/-! ## The convolution, second arrangement -/

/-- The identity matrix's entries. -/
def eye (r c : Fin 8192) : EReal := if r = c then 1 else 0
/-- Column sums of the adjacency matrix with the identity added. -/
def degR (A : Mat 8192 8192) (c : Fin 8192) : EReal := ∑ r : Fin 8192, (A (ix2 r c) + eye r c)
/-- The guarded inverse square root: 0 where the degree is not positive. -/
def dinvR (A : Mat 8192 8192) (c : Fin 8192) : EReal := if 0 < degR A c then Ideal.rsqrt (degR A c) else 0
/-- The aggregate over the matrix with the identity added. -/
def aggR (A : Mat 8192 8192) (Y : Fin 8192 → Fin 32 → EReal) (c : Fin 8192) (j : Fin 32) : EReal :=
  ∑ r : Fin 8192, (A (ix2 r c) + eye r c) * Y r j

/-! ## The policy and the softmax -/

/-- The convolution's output: scaled aggregate plus bias, clipped at 0. -/
def conv (d : Fin 8192 → EReal) (S : Fin 8192 → Fin 32 → EReal) (bg : Row 32) (n : Fin 8192) (j : Fin 32) : EReal :=
  max (d n * S n j + bg (ix1 j)) 0

/-- The policy's first layer before clipping, with the weight matrix in two halves: the convolution's features against the
    first, the encoder's against the second. -/
def pre1K (g x : Fin 8192 → Fin 32 → EReal) (Wa Wb : Mat 32 32) (b : Row 32) (n : Fin 8192) (j : Fin 32) : EReal :=
  (mm g Wa n j + mm x Wb n j) + b (ix1 j)

/-- The two feature blocks side by side. -/
def cat (g x : Fin 8192 → Fin 32 → EReal) (n : Fin 8192) (k : Fin 64) : EReal :=
  if h : k.val < 32 then g n ⟨k.val, h⟩ else x n ⟨k.val - 32, by omega⟩

/-- The same layer over the joined features and the whole weight matrix. -/
def pre1R (g x : Fin 8192 → Fin 32 → EReal) (W : Mat 64 32) (b : Row 32) (n : Fin 8192) (j : Fin 32) : EReal :=
  mm (cat g x) W n j + b (ix1 j)

/-- The masked logits from the first layer's pre-activation. -/
def logits (p : Fin 8192 → Fin 32 → EReal) (Wp2 : Mat 32 32) (bp2 : Row 32) (Wpi : Mat 32 32) (bpi : Row 32) (rl : Fin 8192 → EReal)
    (n : Fin 8192) (a : Fin 32) : EReal :=
  (mm (layer (fun n j => max (p n j) 0) Wp2 bp2) Wpi n a + bpi (ix1 a)) * rl n

/-- A row's maximum, folded from −∞. -/
def rowMax (l : Fin 32 → EReal) : EReal := (Finset.univ : Finset (Fin 32)).fold max NEG l

/-- The softmax of a row against a given shift `m`. -/
def softmaxAt (l : Fin 32 → EReal) (m : EReal) (a : Fin 32) : EReal :=
  Ideal.div (Ideal.exp (l a - m)) (∑ a' : Fin 32, Ideal.exp (l a' - m))

/-- The first program's last stage: from the aggregate `Z`, the scaled features `Y`, the scale `d` and the encoder's output
    `X` to the probabilities. -/
def policyK (Z Y : Fin 8192 → Fin 32 → EReal) (d : Fin 8192 → EReal) (X : Fin 8192 → Fin 32 → EReal)
    (bg : Row 32) (Wgd : Mat 32 32) (bgd : Row 32) (Wa Wb : Mat 32 32) (bp1 : Row 32) (Wp2 : Mat 32 32) (bp2 : Row 32)
    (Wpi : Mat 32 32) (bpi : Row 32) (rl : Fin 8192 → EReal) (n : Fin 8192) (a : Fin 32) : EReal :=
  let l := logits (pre1K (layer (conv d (fun n j => Z n j + Y n j) bg) Wgd bgd) X Wa Wb bp1) Wp2 bp2 Wpi bpi rl n
  softmaxAt l (rowMax l) a

/-- The first program, whole. -/
def outK (Xin : Mat 8192 128) (A : Mat 8192 8192) (rl : Row 8192) (We1 : Mat 128 32) (be1 : Row 32) (We2 : Mat 32 32)
    (be2 : Row 32) (Wg : Mat 32 32) (bg : Row 32) (Wgd : Mat 32 32) (bgd : Row 32) (Wa Wb : Mat 32 32) (bp1 : Row 32)
    (Wp2 : Mat 32 32) (bp2 : Row 32) (Wpi : Mat 32 32) (bpi : Row 32) : Fin 8192 → Fin 32 → EReal :=
  let X := encX Xin We1 be1 We2 be2
  let Y : Fin 8192 → Fin 32 → EReal := fun n j => dinvK A n * encXW Xin We1 be1 We2 be2 Wg n j
  policyK (gcnZ A Y) Y (dinvK A) X bg Wgd bgd Wa Wb bp1 Wp2 bp2 Wpi bpi (fun n => rl (ix1 n))

/-- The second program, whole: the guarded scale, the aggregate over the matrix with the identity added, the joined features
    against the whole first-layer matrix, and a shift that is the maximum of −∞ and the row's maximum. -/
def outR (Xin : Mat 8192 128) (A : Mat 8192 8192) (rl : Row 8192) (We1 : Mat 128 32) (be1 : Row 32) (We2 : Mat 32 32)
    (be2 : Row 32) (Wg : Mat 32 32) (bg : Row 32) (Wgd : Mat 32 32) (bgd : Row 32) (Wp1 : Mat 64 32) (bp1 : Row 32)
    (Wp2 : Mat 32 32) (bp2 : Row 32) (Wpi : Mat 32 32) (bpi : Row 32) (n : Fin 8192) (a : Fin 32) : EReal :=
  let X := encX Xin We1 be1 We2 be2
  let Y : Fin 8192 → Fin 32 → EReal := fun n j => dinvR A n * encXW Xin We1 be1 We2 be2 Wg n j
  let l := logits (pre1R (layer (conv (dinvR A) (aggR A Y) bg) Wgd bgd) X Wp1 bp1) Wp2 bp2 Wpi bpi (fun n => rl (ix1 n)) n
  softmaxAt l (max NEG (rowMax l)) a

end Cert.Spec

end
-- ==== Proof.R0Pay.lean ====
/-
  The encoder body's two stored values, read at one entry of a row block.

  The body is handed a block of 1024 rows of the input features and the whole weight and bias arrays. Its first stored
  value is two dense layers of that block: a matrix product, read as the plain sum over the contracted axis, plus the
  column's bias, clipped below at 0; then the same again with the second weights. Its second stored value is the first
  one times the graph weights. On the extended reals a change of float format is the identity and a product accumulated
  into the zero array is the bare sum, so each stored entry is the specification's `layer` / `mm` of the block's rows.
-/
import proofs.«159406_j42434276884964_2_alg».proof.Proof.Gen.KernelIdeal.Skeleton
import proofs.«159406_j42434276884964_2_alg».proof.Proof.Spec
import Idealize.ShloMosaic.PureOps.Ideal.Laws
import Idealize.ShloMosaic.Lib.ValueIdx
import Idealize.ShloMosaic.Lib.ValueLayout

noncomputable section

open scoped BigOperators
open Idealize.ShloMosaic Idealize.ShloMosaic.ValueIdx
open Cert.KernelIdeal Cert.KernelIdeal.Gen

namespace Cert.R0

/-! ## The two products at an entry

For a product with one contracted axis the operands' positions at output entry i and contracted position k are
(i 0, k) on the left and (k, i 1) on the right. -/

theorem lhs128_0 (i : S1024x32.Idx) (k : dot_S1024x128_S128x32_S1024x32_1_0_0_1_n_n.contr.Idx) : (dot_S1024x128_S128x32_S1024x32_1_0_0_1_n_n.lhsIdx i k 0).val = (i 0).val := by
  unfold DotDims.lhsIdx
  rw [dif_neg (show ¬(0 : Fin S1024x128.rank) ∈ dot_S1024x128_S128x32_S1024x32_1_0_0_1_n_n.lhsBatch by decide),
    dif_pos (show (0 : Fin S1024x128.rank) ∈ dot_S1024x128_S128x32_S1024x32_1_0_0_1_n_n.lhsNonContracting by decide)]
  rfl
theorem lhs128_1 (i : S1024x32.Idx) (k : dot_S1024x128_S128x32_S1024x32_1_0_0_1_n_n.contr.Idx) : (dot_S1024x128_S128x32_S1024x32_1_0_0_1_n_n.lhsIdx i k 1).val = (k ⟨0, by decide⟩).val :=
  dot_S1024x128_S128x32_S1024x32_1_0_0_1_n_n.lhsIdx_val_of_single rfl i k
theorem rhs128_0 (i : S1024x32.Idx) (k : dot_S1024x128_S128x32_S1024x32_1_0_0_1_n_n.contr.Idx) : (dot_S1024x128_S128x32_S1024x32_1_0_0_1_n_n.rhsIdx i k 0).val = (k ⟨0, by decide⟩).val :=
  dot_S1024x128_S128x32_S1024x32_1_0_0_1_n_n.rhsIdx_val_of_single rfl i k
theorem rhs128_1 (i : S1024x32.Idx) (k : dot_S1024x128_S128x32_S1024x32_1_0_0_1_n_n.contr.Idx) : (dot_S1024x128_S128x32_S1024x32_1_0_0_1_n_n.rhsIdx i k 1).val = (i 1).val := by
  unfold DotDims.rhsIdx
  rw [dif_neg (show ¬(1 : Fin S128x32.rank) ∈ dot_S1024x128_S128x32_S1024x32_1_0_0_1_n_n.rhsBatch by decide),
    dif_pos (show (1 : Fin S128x32.rank) ∈ dot_S1024x128_S128x32_S1024x32_1_0_0_1_n_n.rhsNonContracting by decide)]
  rfl

theorem lhs32_0 (i : S1024x32.Idx) (k : dot_S1024x32_S32x32_S1024x32_1_0_0_1_n_n.contr.Idx) : (dot_S1024x32_S32x32_S1024x32_1_0_0_1_n_n.lhsIdx i k 0).val = (i 0).val := by
  unfold DotDims.lhsIdx
  rw [dif_neg (show ¬(0 : Fin S1024x32.rank) ∈ dot_S1024x32_S32x32_S1024x32_1_0_0_1_n_n.lhsBatch by decide),
    dif_pos (show (0 : Fin S1024x32.rank) ∈ dot_S1024x32_S32x32_S1024x32_1_0_0_1_n_n.lhsNonContracting by decide)]
  rfl
theorem lhs32_1 (i : S1024x32.Idx) (k : dot_S1024x32_S32x32_S1024x32_1_0_0_1_n_n.contr.Idx) : (dot_S1024x32_S32x32_S1024x32_1_0_0_1_n_n.lhsIdx i k 1).val = (k ⟨0, by decide⟩).val :=
  dot_S1024x32_S32x32_S1024x32_1_0_0_1_n_n.lhsIdx_val_of_single rfl i k
theorem rhs32_0 (i : S1024x32.Idx) (k : dot_S1024x32_S32x32_S1024x32_1_0_0_1_n_n.contr.Idx) : (dot_S1024x32_S32x32_S1024x32_1_0_0_1_n_n.rhsIdx i k 0).val = (k ⟨0, by decide⟩).val :=
  dot_S1024x32_S32x32_S1024x32_1_0_0_1_n_n.rhsIdx_val_of_single rfl i k
theorem rhs32_1 (i : S1024x32.Idx) (k : dot_S1024x32_S32x32_S1024x32_1_0_0_1_n_n.contr.Idx) : (dot_S1024x32_S32x32_S1024x32_1_0_0_1_n_n.rhsIdx i k 1).val = (i 1).val := by
  unfold DotDims.rhsIdx
  rw [dif_neg (show ¬(1 : Fin S32x32.rank) ∈ dot_S1024x32_S32x32_S1024x32_1_0_0_1_n_n.rhsBatch by decide),
    dif_pos (show (1 : Fin S32x32.rank) ∈ dot_S1024x32_S32x32_S1024x32_1_0_0_1_n_n.rhsNonContracting by decide)]
  rfl

/-- A [1024,128] block times a [128,32] matrix, accumulated into zero, at entry (p, q): the sum over the 128 contracted
    positions of the row's entry times the column's. -/
theorem matmul128_apply (l : FVec Ideal S1024x128 .bf16) (r : FVec Ideal S128x32 .bf16) (p : Fin 1024) (q : Fin 32) :
    matmul dot_S1024x128_S128x32_S1024x32_1_0_0_1_n_n none l r (constant (F := Ideal) S1024x32 .f32 0x00000000#32) (ix2 p q)
      = ∑ k : Fin 128, l (ix2 p k) * r (ix2 k q) := by
  show FloatOps.matmul dot_S1024x128_S128x32_S1024x32_1_0_0_1_n_n none l r (constant (F := Ideal) S1024x32 .f32 0x00000000#32) (ix2 p q) = _
  rw [Ideal.matmul_constant_zero_apply, ← Equiv.sum_comp (contrEquiv1 dot_S1024x128_S128x32_S1024x32_1_0_0_1_n_n 128 rfl rfl).symm]
  refine Finset.sum_congr rfl fun k _ => ?_
  have hk := contrEquiv1_symm_val dot_S1024x128_S128x32_S1024x32_1_0_0_1_n_n 128 rfl rfl k
  have el : dot_S1024x128_S128x32_S1024x32_1_0_0_1_n_n.lhsIdx (ix2 p q) ((contrEquiv1 dot_S1024x128_S128x32_S1024x32_1_0_0_1_n_n 128 rfl rfl).symm k) = ix2 p k :=
    funext fun a => Fin.ext (by
      match a with
      | ⟨0, _⟩ => exact lhs128_0 _ _
      | ⟨1, _⟩ => exact (lhs128_1 _ _).trans hk)
  have er : dot_S1024x128_S128x32_S1024x32_1_0_0_1_n_n.rhsIdx (ix2 p q) ((contrEquiv1 dot_S1024x128_S128x32_S1024x32_1_0_0_1_n_n 128 rfl rfl).symm k) = ix2 k q :=
    funext fun a => Fin.ext (by
      match a with
      | ⟨0, _⟩ => exact (rhs128_0 _ _).trans hk
      | ⟨1, _⟩ => exact rhs128_1 _ _)
  rw [el, er]

/-- A [1024,32] block times a [32,32] matrix, accumulated into zero, at entry (p, q): the sum over the 32 contracted
    positions. -/
theorem matmul32_apply (l : FVec Ideal S1024x32 .bf16) (r : FVec Ideal S32x32 .bf16) (p : Fin 1024) (q : Fin 32) :
    matmul dot_S1024x32_S32x32_S1024x32_1_0_0_1_n_n none l r (constant (F := Ideal) S1024x32 .f32 0x00000000#32) (ix2 p q)
      = ∑ k : Fin 32, l (ix2 p k) * r (ix2 k q) := by
  show FloatOps.matmul dot_S1024x32_S32x32_S1024x32_1_0_0_1_n_n none l r (constant (F := Ideal) S1024x32 .f32 0x00000000#32) (ix2 p q) = _
  rw [Ideal.matmul_constant_zero_apply, ← Equiv.sum_comp (contrEquiv1 dot_S1024x32_S32x32_S1024x32_1_0_0_1_n_n 32 rfl rfl).symm]
  refine Finset.sum_congr rfl fun k _ => ?_
  have hk := contrEquiv1_symm_val dot_S1024x32_S32x32_S1024x32_1_0_0_1_n_n 32 rfl rfl k
  have el : dot_S1024x32_S32x32_S1024x32_1_0_0_1_n_n.lhsIdx (ix2 p q) ((contrEquiv1 dot_S1024x32_S32x32_S1024x32_1_0_0_1_n_n 32 rfl rfl).symm k) = ix2 p k :=
    funext fun a => Fin.ext (by
      match a with
      | ⟨0, _⟩ => exact lhs32_0 _ _
      | ⟨1, _⟩ => exact (lhs32_1 _ _).trans hk)
  have er : dot_S1024x32_S32x32_S1024x32_1_0_0_1_n_n.rhsIdx (ix2 p q) ((contrEquiv1 dot_S1024x32_S32x32_S1024x32_1_0_0_1_n_n 32 rfl rfl).symm k) = ix2 k q :=
    funext fun a => Fin.ext (by
      match a with
      | ⟨0, _⟩ => exact (rhs32_0 _ _).trans hk
      | ⟨1, _⟩ => exact rhs32_1 _ _)
  rw [el, er]

/-! ## The bias row -/

/-- A vector of 32 entries, given a leading unit axis and repeated over the 1024 rows, reads at (p, q) its entry q. -/
theorem bias_apply {α : Type} (b : S32.Idx → α) (p : Fin 1024) (q : Fin 32) :
    broadcastTo S1024x32 (shapeCast S1x32 b shapeCasts_S32_S1x32) broadcasts_S1x32_S1024x32 (ix2 p q) = b (ix1 q) := by
  rw [broadcastTo_1b_ab_apply, shapeCast_a_1a_apply]

/-! ## The stored values -/

/-- The first stored value at row p, column q of the block: the two dense layers of the block's rows. -/
theorem pay1_apply (x0 : Vec Ideal S1024x128 .f32) (x1 : Vec Ideal S128x32 .f32) (x2 : Vec Ideal S32 .f32)
    (x3 : Vec Ideal S32x32 .f32) (x4 : Vec Ideal S32 .f32) (p : Fin 1024) (q : Fin 32) :
    k0_pay1 x0 x1 x2 x3 x4 (ix2 p q)
      = Cert.Spec.layer (Cert.Spec.layer (fun r f => x0 (ix2 r f)) x1 x2) x3 x4 p q := by
  unfold k0_pay1
  simp only [maximumf_apply, addf_apply, broadcast_apply, matmul32_apply, matmul128_apply, truncf_apply, bias_apply]
  unfold Cert.Spec.layer Cert.Spec.mm
  rw [show (Scalar.ofBits (F := Ideal) .f32 0x00000000#32 : EReal) = 0 from Ideal.ofBits_zero_f32]

/-- The second stored value at row p, column q: the first stored value's row against column q of the graph weights. -/
theorem pay2_apply (x0 : Vec Ideal S1024x128 .f32) (x1 : Vec Ideal S128x32 .f32) (x2 : Vec Ideal S32 .f32)
    (x3 : Vec Ideal S32x32 .f32) (x4 : Vec Ideal S32 .f32) (x5 : Vec Ideal S32x32 .f32) (p : Fin 1024) (q : Fin 32) :
    k0_pay2 x0 x1 x2 x3 x4 x5 (ix2 p q)
      = Cert.Spec.mm (Cert.Spec.layer (Cert.Spec.layer (fun r f => x0 (ix2 r f)) x1 x2) x3 x4) x5 p q := by
  unfold k0_pay2
  simp only [matmul32_apply, truncf_apply, pay1_apply]
  rfl

/-! ## A layer's row depends on the input's row only -/

/-- Entry (n, j) of a dense layer uses row n of its input and nothing else: two inputs, of any heights, that agree on a
    row give the same layer output on it. -/
theorem layer_row {N N' K J : ℕ} (x : Fin N → Fin K → EReal) (x' : Fin N' → Fin K → EReal)
    (w : Cert.Spec.Mat K J) (b : Cert.Spec.Row J) (n : Fin N) (n' : Fin N') (h : ∀ k, x n k = x' n' k) (j : Fin J) :
    Cert.Spec.layer x w b n j = Cert.Spec.layer x' w b n' j := by
  unfold Cert.Spec.layer Cert.Spec.mm
  simp only [h]

/-- The same for a bare product. -/
theorem mm_row {N N' K J : ℕ} (x : Fin N → Fin K → EReal) (x' : Fin N' → Fin K → EReal)
    (w : Cert.Spec.Mat K J) (n : Fin N) (n' : Fin N') (h : ∀ k, x n k = x' n' k) (j : Fin J) :
    Cert.Spec.mm x w n j = Cert.Spec.mm x' w n' j := by
  unfold Cert.Spec.mm
  simp only [h]

end Cert.R0

end
-- ==== Proof.R0.lean ====
/-
  The encoder region: from row blocks to the whole arrays.

  The grid has 8 points; point t is handed rows 1024 t … 1024 t + 1023 of the input features and the whole weight and
  bias arrays, and writes back rows 1024 t … 1024 t + 1023 of both outputs. A row of a dense layer depends on the same
  row of its input only, so what point t writes is block t of one function of the whole arrays: the encoder's output in
  the first window, its product with the graph weights in the second. The 8 blocks cover all 8192 rows (row r lies in the
  block of point r / 1024), hence after the last point each output array is that function everywhere.
-/
import proofs.«159406_j42434276884964_2_alg».proof.Proof.Gen.KernelIdeal.Frame
import proofs.«159406_j42434276884964_2_alg».proof.Proof.R0Pay
import Idealize.ShloMosaic.Lib.Pipeline.Value

noncomputable section

open scoped BigOperators
open Idealize.ShloMosaic Idealize.ShloMosaic.TcCoe Idealize.SL.Sem
open Idealize.ShloMosaic.Pipeline (Dat)
open Cert.KernelIdeal Cert.KernelIdeal.Gen Idealize.ShloMosaic.ValueIdx

namespace Cert.R0

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-! ## The two output arrays as functions of the whole input arrays -/

/-- The encoder's output, as an array over [8192, 32]. -/
def GX (c : Dev nD) : S8192x32.Idx → EReal := fun i =>
  Cert.Spec.encX (V c main_arg0) (V c main_arg3) (V c main_arg4) (V c main_arg5) (V c main_arg6)
    ⟨(i 0).val, idx2_lt0 i⟩ ⟨(i 1).val, idx2_lt1 i⟩

/-- The encoder's output times the graph weights, as an array over [8192, 32]. -/
def GXW (c : Dev nD) : S8192x32.Idx → EReal := fun i =>
  Cert.Spec.encXW (V c main_arg0) (V c main_arg3) (V c main_arg4) (V c main_arg5) (V c main_arg6) (V c main_arg7)
    ⟨(i 0).val, idx2_lt0 i⟩ ⟨(i 1).val, idx2_lt1 i⟩

/-- Two dense layers of a block whose row p is row `i 0` of the feature array, at column q = `i 1`, give the
    encoder's output at i. -/
theorem GX_of (c : Dev nD) (i : S8192x32.Idx) (x : Fin 1024 → Fin 128 → EReal) (p : Fin 1024) (q : Fin 32)
    (hx : ∀ f : Fin 128, x p f = V c main_arg0 (ix2 (⟨(i 0).val, idx2_lt0 i⟩ : Fin 8192) f)) (hq : (i 1).val = q.val) :
    Cert.Spec.layer (Cert.Spec.layer x (V c main_arg3) (V c main_arg4)) (V c main_arg5) (V c main_arg6) p q = GX V c i := by
  unfold GX Cert.Spec.encX
  rw [show (⟨(i 1).val, idx2_lt1 i⟩ : Fin 32) = q from Fin.ext hq]
  exact layer_row _ _ _ _ p _ (fun k => layer_row _ _ _ _ p _ hx k) q

/-- The same, followed by the product with the graph weights. -/
theorem GXW_of (c : Dev nD) (i : S8192x32.Idx) (x : Fin 1024 → Fin 128 → EReal) (p : Fin 1024) (q : Fin 32)
    (hx : ∀ f : Fin 128, x p f = V c main_arg0 (ix2 (⟨(i 0).val, idx2_lt0 i⟩ : Fin 8192) f)) (hq : (i 1).val = q.val) :
    Cert.Spec.mm (Cert.Spec.layer (Cert.Spec.layer x (V c main_arg3) (V c main_arg4)) (V c main_arg5) (V c main_arg6))
      (V c main_arg7) p q = GXW V c i := by
  unfold GXW Cert.Spec.encXW Cert.Spec.encX
  rw [show (⟨(i 1).val, idx2_lt1 i⟩ : Fin 32) = q from Fin.ext hq]
  exact mm_row _ _ _ p _ (fun k => layer_row _ _ _ _ p _ (fun k' => layer_row _ _ _ _ p _ hx k') k) q

/-! ## The windows' block positions, decided over the 8 points -/

/-- Point t's block of the features and of both outputs is row block t; every weight and bias window is its whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks -/

/-- The first layer's weight window holds the whole weight array at every point. -/
theorem iblk_We1 (c : Dev nD) (t : Fin cfg0.N) : (iblk0 (F := Ideal) V c 1 t : S128x32.Idx → EReal) = V c main_arg3 := by
  obtain ⟨e00, e01, e10, e11, e20, e30, e31, e40, e50, e51, e60, e61, e70, e71⟩ := idx_facts t
  refine funext fun (y : S128x32.Idx) => ?_
  show V c main_arg3 (((cfg0.win 1).blk t).view.emb y) = V c main_arg3 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 32 + 1 * (y 1).val = (y 1).val; omega

/-- The first layer's bias window holds the whole bias at every point. -/
theorem iblk_be1 (c : Dev nD) (t : Fin cfg0.N) : (iblk0 (F := Ideal) V c 2 t : S32.Idx → EReal) = V c main_arg4 := by
  obtain ⟨e00, e01, e10, e11, e20, e30, e31, e40, e50, e51, e60, e61, e70, e71⟩ := idx_facts t
  refine funext fun (y : S32.Idx) => ?_
  show V c main_arg4 (((cfg0.win 2).blk t).view.emb y) = V c main_arg4 y
  refine congrArg _ (funext fun a => Fin.ext ?_)
  match a with
  | ⟨0, _⟩ => show win0_2.index t (0 : Fin 1) * 32 + 1 * (y 0).val = (y 0).val; omega

/-- The second layer's weight window holds the whole weight array at every point. -/
theorem iblk_We2 (c : Dev nD) (t : Fin cfg0.N) : (iblk0 (F := Ideal) V c 3 t : S32x32.Idx → EReal) = V c main_arg5 := by
  obtain ⟨e00, e01, e10, e11, e20, e30, e31, e40, e50, e51, e60, e61, e70, e71⟩ := idx_facts t
  refine funext fun (y : S32x32.Idx) => ?_
  show V c main_arg5 (((cfg0.win 3).blk t).view.emb y) = V c main_arg5 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- The second layer's bias window holds the whole bias at every point. -/
theorem iblk_be2 (c : Dev nD) (t : Fin cfg0.N) : (iblk0 (F := Ideal) V c 4 t : S32.Idx → EReal) = V c main_arg6 := by
  obtain ⟨e00, e01, e10, e11, e20, e30, e31, e40, e50, e51, e60, e61, e70, e71⟩ := idx_facts t
  refine funext fun (y : S32.Idx) => ?_
  show V c main_arg6 (((cfg0.win 4).blk t).view.emb y) = V c main_arg6 y
  refine congrArg _ (funext fun a => Fin.ext ?_)
  match a with
  | ⟨0, _⟩ => show win0_4.index t (0 : Fin 1) * 32 + 1 * (y 0).val = (y 0).val; omega

/-- The graph weights' window holds the whole array at every point. -/
theorem iblk_Wg (c : Dev nD) (t : Fin cfg0.N) : (iblk0 (F := Ideal) V c 5 t : S32x32.Idx → EReal) = V c main_arg7 := by
  obtain ⟨e00, e01, e10, e11, e20, e30, e31, e40, e50, e51, e60, e61, e70, e71⟩ := idx_facts t
  refine funext fun (y : S32x32.Idx) => ?_
  show V c main_arg7 (((cfg0.win 5).blk t).view.emb y) = V c main_arg7 y
  refine congrArg _ (funext fun a => Fin.ext ?_)
  match a with
  | ⟨0, _⟩ => show win0_5.index t (0 : Fin 2) * 32 + 1 * (y 0).val = (y 0).val; omega
  | ⟨1, _⟩ => show win0_5.index t (1 : Fin 2) * 32 + 1 * (y 1).val = (y 1).val; omega

/-! ## Output window 6: the encoder's output -/

/-- An index of the array lies in point t's block of output window 6 iff each coordinate lies in the block's range. -/
theorem mem_blk6 (t : Fin cfg0.N) (i : S8192x32.Idx) :
    i ∈ ((cfg0.win 6).blk t).view.set ↔ ∀ a : Fin 2, win0_6.index t a * S1024x32.size a ≤ (i a).val
      ∧ (i a).val < win0_6.index t a * S1024x32.size a + S1024x32.size a := by
  show i ∈ ((View.whole main_v0_0).slice (win0_6.rect t)).set ↔ _
  rw [View.set_slice_whole, Rect.mem_set_unit]
  exact Iff.rfl

/-- Every row of the array is in the block of the point numbered by the row divided by 1024. -/
theorem cover6 (i : S8192x32.Idx) :
    ∃ t : Fin cfg0.N, (cfg0.win 6).flush t = true ∧ i ∈ ((cfg0.win 6).blk t).view.set := by
  have hi0 : (i 0).val < 8192 := idx2_lt0 i
  have hi1 : (i 1).val < 32 := idx2_lt1 i
  obtain ⟨t, ht⟩ : ∃ t : Fin cfg0.N, t.val = (i 0).val / 1024 :=
    ⟨⟨(i 0).val / 1024, by show (i 0).val / 1024 < grid0.N; rw [N_0]; omega⟩, rfl⟩
  obtain ⟨e00, e01, e10, e11, e20, e30, e31, e40, e50, e51, e60, e61, e70, e71⟩ := idx_facts t
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 32 ≤ (i 1).val ∧ (i 1).val < win0_6.index t (1 : Fin 2) * 32 + 32
    omega

/-- What point t writes back through output window 6 is block t of `GX`. -/
theorem flushed6 (c : Dev nD) (t : Fin cfg0.N) :
    (dat0 (F := Ideal) V c).flushed 6 t = ((cfg0.win 6).blk t).view.read (Elt Ideal) (GX V c) := by
  show (cfg0.win 6).cut (grid0.coords t) ((dat0 (F := Ideal) V c).after 6 t) = _
  rw [after0_6]
  unfold out0_6
  rw [View.canon_unit_zero hz]
  simp only [View.ld_unit_zero (S := S1024x128) hz, View.ld_unit_zero (S := S128x32) hz,
    View.ld_unit_zero (S := S32) hz1, View.ld_unit_zero (S := S32x32) hz]
  obtain ⟨e00, e01, e10, e11, e20, e30, e31, e40, e50, e51, e60, e61, e70, e71⟩ := idx_facts t
  refine funext fun (y : S1024x32.Idx) => ?_
  obtain ⟨p, q, rfl⟩ : ∃ (p : Fin 1024) (q : Fin 32), y = ix2 p q := ⟨y 0, y 1, eq_ix2 y⟩
  refine (pay1_apply _ _ _ _ _ p q).trans ?_
  rw [iblk_We1 V c t, iblk_be1 V c t, iblk_We2 V c t, iblk_be2 V c t]
  refine GX_of V c (((cfg0.win 6).blk t).view.emb (ix2 p q)) _ p q (fun f => ?_) ?_
  · show V c main_arg0 (((cfg0.win 0).blk t).view.emb (ix2 p f)) = V c main_arg0 _
    refine congrArg _ (funext fun a => Fin.ext ?_)
    match a with
    | ⟨0, _⟩ =>
      show win0_0.index t (0 : Fin 2) * 1024 + 1 * p.val = win0_6.index t (0 : Fin 2) * 1024 + 1 * p.val
      omega
    | ⟨1, _⟩ =>
      show win0_0.index t (1 : Fin 2) * 128 + 1 * f.val = f.val
      omega
  · show win0_6.index t (1 : Fin 2) * 32 + 1 * q.val = q.val
    omega

/-- After the last point the array of output window 6 is `GX` everywhere. -/
theorem arr6 (c : Dev nD) : (dat0 (F := Ideal) V c).arrAt 6 cfg0.N = GX V c :=
  (dat0 (F := Ideal) V c).arrAt_eq_of_cover 6 (GX V c) (fun t _ => flushed6 V c t) cover6

/-! ## Output window 7: the encoder's output times the graph weights -/

/-- An index of the array lies in point t's block of output window 7 iff each coordinate lies in the block's range. -/
theorem mem_blk7 (t : Fin cfg0.N) (i : S8192x32.Idx) :
    i ∈ ((cfg0.win 7).blk t).view.set ↔ ∀ a : Fin 2, win0_7.index t a * S1024x32.size a ≤ (i a).val
      ∧ (i a).val < win0_7.index t a * S1024x32.size a + S1024x32.size a := by
  show i ∈ ((View.whole main_v0_1).slice (win0_7.rect t)).set ↔ _
  rw [View.set_slice_whole, Rect.mem_set_unit]
  exact Iff.rfl

/-- Every row of the array is in the block of the point numbered by the row divided by 1024. -/
theorem cover7 (i : S8192x32.Idx) :
    ∃ t : Fin cfg0.N, (cfg0.win 7).flush t = true ∧ i ∈ ((cfg0.win 7).blk t).view.set := by
  have hi0 : (i 0).val < 8192 := idx2_lt0 i
  have hi1 : (i 1).val < 32 := idx2_lt1 i
  obtain ⟨t, ht⟩ : ∃ t : Fin cfg0.N, t.val = (i 0).val / 1024 :=
    ⟨⟨(i 0).val / 1024, by show (i 0).val / 1024 < grid0.N; rw [N_0]; omega⟩, rfl⟩
  obtain ⟨e00, e01, e10, e11, e20, e30, e31, e40, e50, e51, e60, e61, e70, e71⟩ := idx_facts t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 32 ≤ (i 1).val ∧ (i 1).val < win0_7.index t (1 : Fin 2) * 32 + 32
    omega

/-- What point t writes back through output window 7 is block t of `GXW`. -/
theorem flushed7 (c : Dev nD) (t : Fin cfg0.N) :
    (dat0 (F := Ideal) V c).flushed 7 t = ((cfg0.win 7).blk t).view.read (Elt Ideal) (GXW V c) := by
  show (cfg0.win 7).cut (grid0.coords t) ((dat0 (F := Ideal) V c).after 7 t) = _
  rw [after0_7]
  unfold out0_7
  rw [View.canon_unit_zero hz]
  simp only [View.ld_unit_zero (S := S1024x128) hz, View.ld_unit_zero (S := S128x32) hz,
    View.ld_unit_zero (S := S32) hz1, View.ld_unit_zero (S := S32x32) hz]
  obtain ⟨e00, e01, e10, e11, e20, e30, e31, e40, e50, e51, e60, e61, e70, e71⟩ := idx_facts t
  refine funext fun (y : S1024x32.Idx) => ?_
  obtain ⟨p, q, rfl⟩ : ∃ (p : Fin 1024) (q : Fin 32), y = ix2 p q := ⟨y 0, y 1, eq_ix2 y⟩
  refine (pay2_apply _ _ _ _ _ _ p q).trans ?_
  rw [iblk_We1 V c t, iblk_be1 V c t, iblk_We2 V c t, iblk_be2 V c t, iblk_Wg V c t]
  refine GXW_of V c (((cfg0.win 7).blk t).view.emb (ix2 p q)) _ p q (fun f => ?_) ?_
  · show V c main_arg0 (((cfg0.win 0).blk t).view.emb (ix2 p f)) = V c main_arg0 _
    refine congrArg _ (funext fun a => Fin.ext ?_)
    match a with
    | ⟨0, _⟩ =>
      show win0_0.index t (0 : Fin 2) * 1024 + 1 * p.val = win0_7.index t (0 : Fin 2) * 1024 + 1 * p.val
      omega
    | ⟨1, _⟩ =>
      show win0_0.index t (1 : Fin 2) * 128 + 1 * f.val = f.val
      omega
  · show win0_7.index t (1 : Fin 2) * 32 + 1 * q.val = q.val
    omega

/-- After the last point the array of output window 7 is `GXW` everywhere. -/
theorem arr7 (c : Dev nD) : (dat0 (F := Ideal) V c).arrAt 7 cfg0.N = GXW V c :=
  (dat0 (F := Ideal) V c).arrAt_eq_of_cover 7 (GXW V c) (fun t _ => flushed7 V c t) cover7

/-! ## The two arrays at an entry -/

/-- After the region the first output array holds the encoder's output. -/
theorem final_X (c : Dev nD) (n : Fin 8192) (j : Fin 32) :
    ((dat0 (F := Ideal) V c).arrAt 6 cfg0.N) (ix2 n j)
      = Cert.Spec.encX (V c main_arg0) (V c main_arg3) (V c main_arg4) (V c main_arg5) (V c main_arg6) n j := by
  rw [arr6 V c]
  rfl

/-- After the region the second output array holds the encoder's output times the graph weights. -/
theorem final_XW (c : Dev nD) (n : Fin 8192) (j : Fin 32) :
    ((dat0 (F := Ideal) V c).arrAt 7 cfg0.N) (ix2 n j)
      = Cert.Spec.encXW (V c main_arg0) (V c main_arg3) (V c main_arg4) (V c main_arg5) (V c main_arg6) (V c main_arg7) n j := by
  rw [arr7 V c]
  rfl

end Cert.R0

end
-- ==== Proof.LibBlockedSum.lean ====
/-
  General lemmas for a contraction that a kernel accumulates block by block along the contracted axis.

  Arrays are read at NATURAL coordinates (their entry inside the extents, zero outside), so that a block's offset
  arithmetic is plain arithmetic on naturals: at2 for a matrix, at1 for a vector, and at2_of_idx / at1_of_idx to pass
  from an entry at an index to the reading at the index's coordinates.

  A sum over 0 .. B n - 1 is the sum, over the n consecutive blocks, of each block's B terms (sum_range_blocks over
  ranges, sum_fin_blocks with the inner and the whole sum over finite index types). Only associativity and
  commutativity of + are used, so the lemmas hold in any commutative additive monoid, in particular on the extended
  reals without any finiteness assumption. blocked_contraction is the form a matrix product with a bias takes:
  accumulated from zero over n blocks of B along the contracted axis, then the bias added, against the whole
  contraction plus the bias.
-/
import Idealize.ShloMosaic.Lib.ValueIdx
import Idealize.ShloMosaic.PureOps.Ideal.Laws

noncomputable section

namespace Cert.BlockedSum

open Idealize.ShloMosaic Idealize.ShloMosaic.ValueIdx

/-- A matrix read at natural coordinates: its entry inside the extents, zero outside. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

/-- A vector read at a natural coordinate: its entry inside the extent, zero outside. -/
def at1 {n : ℕ} (x : (⟨1, ![n]⟩ : Shape).Idx → EReal) (a : ℕ) : EReal :=
  if h : a < n then x (ix1 ⟨a, h⟩) else 0

/-- An entry of a matrix is its reading at the index's coordinates. -/
theorem at2_of_idx {n0 n1 : ℕ} (x : (⟨2, ![n0, n1]⟩ : Shape).Idx → EReal) (j : (⟨2, ![n0, n1]⟩ : Shape).Idx)
    (a b : ℕ) (ha : (j 0).val = a) (hb : (j 1).val = b) : x j = at2 x a b := by
  subst ha; subst hb
  unfold at2
  rw [dif_pos ⟨idx2_lt0 j, idx2_lt1 j⟩]
  exact congrArg x (eq_ix2 j)

/-- An entry of a vector is its reading at the index's coordinate. -/
theorem at1_of_idx {n : ℕ} (x : (⟨1, ![n]⟩ : Shape).Idx → EReal) (j : (⟨1, ![n]⟩ : Shape).Idx)
    (a : ℕ) (ha : (j 0).val = a) : x j = at1 x a := by
  subst ha
  unfold at1
  rw [dif_pos (show (j 0).val < n from (j 0).isLt)]
  exact congrArg x (eq_ix1 j)

/-- A sum over 0 .. B n - 1 is the sum over n consecutive blocks of B terms each. -/
theorem sum_range_blocks {β : Type*} [AddCommMonoid β] (f : ℕ → β) (B : ℕ) (n : ℕ) :
    ∑ s ∈ Finset.range n, ∑ k ∈ Finset.range B, f (B * s + k) = ∑ k ∈ Finset.range (B * n), f k := by
  induction n with
  | zero => simp
  | succ n ih => rw [Finset.sum_range_succ, ih, Nat.mul_succ, Finset.sum_range_add]

/-- The same with each block and the whole sum over finite index types: N = B n terms as n blocks of B. -/
theorem sum_fin_blocks {β : Type*} [AddCommMonoid β] (f : ℕ → β) (B n N : ℕ) (hN : N = B * n) :
    ∑ s ∈ Finset.range n, ∑ k : Fin B, f (B * s + k.val) = ∑ k : Fin N, f k.val := by
  subst hN
  rw [Fin.sum_univ_eq_sum_range (fun k => f k) (B * n), ← sum_range_blocks f B n]
  exact Finset.sum_congr rfl fun s _ => Fin.sum_univ_eq_sum_range (fun k => f (B * s + k)) B

/-- A contraction over N = B n terms, accumulated from zero in n blocks of B, then the bias added: the whole
    contraction plus the bias. -/
theorem blocked_contraction (X W : ℕ → ℕ → EReal) (b : ℕ → EReal) (p q : ℕ) (B n N : ℕ) (hN : N = B * n) :
    (0 + ∑ s ∈ Finset.range n, ∑ k : Fin B, X p (B * s + k.val) * W (B * s + k.val) q) + b q
      = (∑ k : Fin N, X p k.val * W k.val q) + b q := by
  rw [zero_add]
  exact congrArg (· + b q) (sum_fin_blocks (fun k => X p k * W k q) B n N hN)

end Cert.BlockedSum

end
-- ==== Proof.R1Body.lean ====
/-
  The degree region of the kernel program, read as values.

  The region runs over 2 x 16 points: point t works on column tile t / 16 (4096 columns) and row block t % 16
  (512 rows) of the adjacency matrix, and carries one block of 4096 numbers across the 16 row blocks of a column tile.
  At the first row block the carried block is set to zero and the block's column sums are added; at every later
  row block the column sums are added; at the last the block is then replaced by the inverse square root of itself
  plus 1.

  This file reads what each of the three kinds of point leaves in the carried block as a function of the block it
  found and of the matrix block it was given, reads those functions at a column over the extended reals, and reads an
  entry of the matrix block given at a point as an entry of the matrix at natural coordinates.
-/
import proofs.«159406_j42434276884964_2_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws
import proofs.«159406_j42434276884964_2_alg».proof.Proof.LibBlockedSum

noncomputable section

namespace Cert.R1

open Idealize.ShloMosaic Idealize.ShloMosaic.TcCoe Idealize.SL.Sem Idealize.ShloMosaic.ValueIdx
open Idealize.ShloMosaic.Pipeline (Dat)
open Cert.KernelIdeal Cert.KernelIdeal.Gen
open Cert.BlockedSum

section Pieces
variable {F : FTy → Type} [FloatOps F]

theorem hz : (![0, 0] : Fin 2 → Nat) = fun _ => 0 := funext fun a => by fin_cases a <;> rfl

/-- A point that is neither first nor last in its column tile leaves the block it found plus the column sums. -/
theorem piece_B (c : Dev nD) (i : grid1.Coords) (a2 : Memref sig .tc .vmem S512x4096 .f32) (h2 : a2.IsWhole)
    (a3 : Memref sig .tc .vmem S1x4096 .f32) (h3 : a3.IsWhole) (hc0 : ¬cond1_0 i) (hc1 : ¬cond1_1 i)
    (x0 : Vec F S512x4096 .f32) (xo : Vec F S1x4096 .f32) :
    out1_B_1 c i a2 h2 a3 h3 hc0 hc1 x0 xo = k1_pay2 xo x0 := by
  unfold out1_B_1
  rw [View.read_writes_eq_canon _ _ _ (cover1_B_1 c i a2 h2 a3 h3 hc0 hc1 x0 xo)]
  unfold kernelRun1_B
  dsimp only
  rw [View.canon_unit_zero hz]
  simp only [View.readAt_eq_ld, h2.read_unread, h3.read_unread, View.ld_unit_zero (S := S1x4096) hz,
    View.ld_unit_zero (S := S512x4096) hz]

/-- The first point of a column tile leaves the zero block plus the column sums. -/
theorem piece_A (c : Dev nD) (i : grid1.Coords) (a2 : Memref sig .tc .vmem S512x4096 .f32) (h2 : a2.IsWhole)
    (a3 : Memref sig .tc .vmem S1x4096 .f32) (h3 : a3.IsWhole) (hc0 : cond1_0 i) (hc1 : ¬cond1_1 i)
    (x0 : Vec F S512x4096 .f32) :
    out1_A_1 c i a2 h2 a3 h3 hc0 hc1 x0 = k1_pay2 (k1_pay1 (F := F)) x0 := by
  unfold out1_A_1
  rw [View.read_writes_eq_canon _ _ _ (cover1_A_1 c i a2 h2 a3 h3 hc0 hc1 x0)]
  unfold kernelRun1_A
  dsimp only
  sl_unfold_words
  rw [View.canon_cons_unit_zero (S := S1x4096) hz, View.readCov_unit_zero (S := S1x4096) _ hz]
  simp only [View.readAt_eq_ld, h2.read_unread, View.ld_unit_zero (S := S512x4096) hz]

/-- The last point of a column tile leaves the inverse square root of (the block it found plus the column sums) plus 1. -/
theorem piece_C (c : Dev nD) (i : grid1.Coords) (a2 : Memref sig .tc .vmem S512x4096 .f32) (h2 : a2.IsWhole)
    (a3 : Memref sig .tc .vmem S1x4096 .f32) (h3 : a3.IsWhole) (hc0 : ¬cond1_0 i) (hc1 : cond1_1 i)
    (x0 : Vec F S512x4096 .f32) (xo : Vec F S1x4096 .f32) :
    out1_C_1 c i a2 h2 a3 h3 hc0 hc1 x0 xo = k1_pay3 (k1_pay2 xo x0) := by
  unfold out1_C_1
  rw [View.read_writes_eq_canon _ _ _ (cover1_C_1 c i a2 h2 a3 h3 hc0 hc1 x0 xo)]
  unfold kernelRun1_C
  dsimp only
  sl_unfold_words
  rw [View.canon_cons_unit_zero (S := S1x4096) hz, View.readCov_unit_zero (S := S1x4096) _ hz]
  simp only [View.readAt_eq_ld, h2.read_unread, h3.read_unread, View.ld_unit_zero (S := S1x4096) hz,
    View.ld_unit_zero (S := S512x4096) hz]
end Pieces

section Payloads

/-- The column sums of a block of 512 rows, read at a column: a sum over the 512 rows. -/
theorem colsum_apply (x : FVec Ideal S512x4096 .f32) (h : S512x4096.Reduces [0] S4096) (hφ : FKind.Formats .f32)
    (hacc : (0x00000000#32 : BitVec 32) = 0x00000000#32) (q : Fin 4096) :
    multiReduction .add [0] S4096 x 0x00000000#32 h hφ hacc (ix1 q) = ∑ r : Fin 512, x (ix2 r q) := by
  refine (Ideal.multiReduction_add_single x 0x00000000#32 h hφ hacc (ix1 q)).trans ?_
  exact Finset.sum_congr rfl fun r _ => congrArg x (funext fun a => Fin.ext (by
    match a with
    | ⟨0, _⟩ => rfl
    | ⟨1, _⟩ => rfl))

/-- The zero block, read at a column. -/
theorem pay1_apply (q : Fin 4096) : k1_pay1 (F := Ideal) (ix2 (0 : Fin 1) q) = 0 := by
  unfold k1_pay1
  exact Ideal.ofBits_zero_f32

/-- The carried block plus the column sums, read at a column. -/
theorem pay2_apply (xo : Vec Ideal S1x4096 .f32) (x : Vec Ideal S512x4096 .f32) (q : Fin 4096) :
    k1_pay2 xo x (ix2 (0 : Fin 1) q) = xo (ix2 (0 : Fin 1) q) + ∑ r : Fin 512, x (ix2 r q) := by
  unfold k1_pay2
  show (shapeCast S1x4096 xo shapeCasts_S1x4096_S1x4096 (ix2 (0 : Fin 1) q) : EReal)
      + (shapeCast S1x4096 (multiReduction (F := Ideal) (φ := .f32) .add [0] S4096 x 0x00000000#32 reduces_S512x4096_S4096 (.inl rfl) rfl)
          shapeCasts_S4096_S1x4096 (ix2 (0 : Fin 1) q) : EReal) = _
  rw [shapeCast_self]
  refine congrArg (xo (ix2 (0 : Fin 1) q) + ·) ?_
  refine (shapeCast_addUnit_apply ![4096] _ shapeCasts_S4096_S1x4096 (ix2 (0 : Fin 1) q)).trans ?_
  refine Eq.trans (congrArg _ (funext fun a => ?_)) (colsum_apply x reduces_S512x4096_S4096 (.inl rfl) rfl q)
  match a with
  | ⟨0, _⟩ => rfl

/-- The inverse square root of the block plus the literal 1, read at a column. -/
theorem pay3_apply (v : Vec Ideal S1x4096 .f32) (q : Fin 4096) :
    k1_pay3 v (ix2 (0 : Fin 1) q) = Ideal.rsqrt (v (ix2 (0 : Fin 1) q) + Ideal.ofBits .f32 0x3F800000#32) := by
  unfold k1_pay3
  show Ideal.rsqrt (shapeCast S1x4096 v shapeCasts_S1x4096_S1x4096 (ix2 (0 : Fin 1) q) + Ideal.ofBits .f32 0x3F800000#32) = _
  rw [shapeCast_self]

end Payloads

section BlockRead

/-- The matrix window's block index at point t: row block t % 16, column tile t / 16 (decided over the 32 points). -/
theorem idx1_0 : ∀ t : Fin cfg1.N, win1_0.index t 0 = t.val % 16 ∧ win1_0.index t 1 = t.val / 16 :=
  (by decide +kernel : ∀ t : Fin grid1.N, win1_0.index t 0 = t.val % 16 ∧ win1_0.index t 1 = t.val / 16)

/-- An entry of the matrix block given at point t is the matrix entry 512 (t % 16) rows down and 4096 (t / 16)
    columns along. -/
theorem iblk_apply (V : (c : Dev nD) → (b : Ref sig .tc) → Buf (Elt Ideal) ((c : Thread nD τ).loc b)) (c : Dev nD)
    (t : Fin cfg1.N) (r : Fin 512) (q : Fin 4096) :
    iblk1 (F := Ideal) V c 0 t (ix2 r q)
      = at2 (V c main_arg1) (512 * (t.val % 16) + r.val) (4096 * (t.val / 16) + q.val) := by
  unfold iblk1
  rw [View.read_apply]
  show V c main_arg1 _ = _
  refine at2_of_idx (V c main_arg1) _ _ _ ?_ ?_
  · show win1_0.index t 0 * 512 + 1 * r.val = _
    rw [(idx1_0 t).1]; omega
  · show win1_0.index t 1 * 4096 + 1 * q.val = _
    rw [(idx1_0 t).2]; omega

end BlockRead

end Cert.R1

end
-- ==== Proof.R1Final.lean ====
/-
  The degree region of the kernel program: its result.

  Over the 16 row blocks of a column tile the carried block accumulates, column by column, the sums of the matrix
  blocks' columns, starting from zero: after row block k < 15 it holds at column q the sum of the matrix column over the
  rows below 512 (k + 1) (the invariant, by induction on the point; addition on the extended reals is associative, so
  no finiteness is needed). The last row block adds its sums and replaces the block by the inverse square root of itself
  plus the literal 1. Sixteen blocks of 512 rows are the 8192 rows of the column (the blocked-sum lemma), so what the
  last point of a column tile writes back is, at each column, the inverse square root of the whole column's sum plus 1.
  The two column tiles cover the result array, so every entry of it ends at that value.
-/
import proofs.«159406_j42434276884964_2_alg».proof.Proof.Gen.KernelIdeal.Frame
import proofs.«159406_j42434276884964_2_alg».proof.Proof.Spec
import proofs.«159406_j42434276884964_2_alg».proof.Proof.LibBlockedSum
import proofs.«159406_j42434276884964_2_alg».proof.Proof.R1Body
import Idealize.ShloMosaic.Lib.Pipeline.Value
import Idealize.ShloMosaic.Lib.Tactic
import Idealize.ShloMosaic.Lib.ValueIdx
import Idealize.ShloMosaic.PureOps.Ideal.Laws

noncomputable section

namespace Cert.R1

open Idealize.ShloMosaic Idealize.ShloMosaic.TcCoe Idealize.SL.Sem Idealize.ShloMosaic.ValueIdx
open Idealize.ShloMosaic.Pipeline (Dat)
open Cert.KernelIdeal Cert.KernelIdeal.Gen
open Cert.BlockedSum

section Steps

variable (V : (c : Dev nD) → (b : Ref sig .tc) → Buf (Elt Ideal) ((c : Thread nD τ).loc b)) (c : Dev nD)

/-- The sum of row block s (512 rows) of column j of a matrix read at natural coordinates. -/
def blk (A : Cert.Spec.Mat 8192 8192) (s j : ℕ) : EReal := ∑ r : Fin 512, at2 A (512 * s + r.val) j

/-- The sum of the first n row blocks of column j. -/
def psum (A : Cert.Spec.Mat 8192 8192) (n j : ℕ) : EReal := ∑ s ∈ Finset.range n, blk A s j

/-- The column sums of the matrix block given at point t, at column q of the tile. -/
theorem iblk_sum (t : Fin cfg1.N) (q : Fin 4096) (x : Vec Ideal S512x4096 .f32) (hx : x = iblk1 (F := Ideal) V c 0 t) :
    ∑ r : Fin 512, x (ix2 r q) = blk (V c main_arg1) (t.val % 16) (4096 * (t.val / 16) + q.val) := by
  subst hx
  exact Finset.sum_congr rfl fun r _ => iblk_apply V c t r q

/-- After the first point of a column tile the carried block holds zero plus the first row block's column sums. -/
theorem step_A (t : Fin cfg1.N) (h0 : t.val % 16 = 0) (q : Fin 4096) :
    outsAt1 (F := Ideal) V c t.val t.isLt (ix2 (0 : Fin 1) q)
      = 0 + blk (V c main_arg1) (t.val % 16) (4096 * (t.val / 16) + q.val) := by
  have h1 : ¬t.val % 16 = 15 := by omega
  refine (congrFun ((outsAt1_A V c t h0 h1).trans
    (piece_A c (grid1.coords t) (ms1_0 t) (hs1_0 t) (ms1_1 t) (hs1_1 t) ((hcond1_0 t).mpr h0)
      (fun h => h1 ((hcond1_1 t).mp h)) (iblk1 V c 0 t))) (ix2 (0 : Fin 1) q)).trans ?_
  refine (pay2_apply _ _ q).trans ?_
  exact congrArg₂ (· + ·) (pay1_apply q) (iblk_sum V c t q _ rfl)

/-- After a middle point the carried block holds what the point before left plus this row block's column sums. -/
theorem step_B (t : Fin cfg1.N) (h0 : ¬t.val % 16 = 0) (h1 : ¬t.val % 16 = 15) (q : Fin 4096) :
    outsAt1 (F := Ideal) V c t.val t.isLt (ix2 (0 : Fin 1) q)
      = outsAt1 (F := Ideal) V c (t.val - 1) (Nat.lt_of_le_of_lt (Nat.sub_le _ _) t.isLt) (ix2 (0 : Fin 1) q)
        + blk (V c main_arg1) (t.val % 16) (4096 * (t.val / 16) + q.val) := by
  refine (congrFun ((outsAt1_B V c t h0 h1).trans
    (piece_B c (grid1.coords t) (ms1_0 t) (hs1_0 t) (ms1_1 t) (hs1_1 t) (fun h => h0 ((hcond1_0 t).mp h))
      (fun h => h1 ((hcond1_1 t).mp h)) (iblk1 V c 0 t)
      (outsAt1 V c (t.val - 1) (Nat.lt_of_le_of_lt (Nat.sub_le _ _) t.isLt)))) (ix2 (0 : Fin 1) q)).trans ?_
  refine (pay2_apply _ _ q).trans ?_
  exact congrArg₂ (· + ·) rfl (iblk_sum V c t q _ rfl)

/-- After the last point of a column tile the carried block holds the inverse square root of (what the point before
    left plus this row block's column sums) plus the literal 1. -/
theorem step_C (t : Fin cfg1.N) (h0 : ¬t.val % 16 = 0) (h1 : t.val % 16 = 15) (q : Fin 4096) :
    outsAt1 (F := Ideal) V c t.val t.isLt (ix2 (0 : Fin 1) q)
      = Ideal.rsqrt ((outsAt1 (F := Ideal) V c (t.val - 1) (Nat.lt_of_le_of_lt (Nat.sub_le _ _) t.isLt) (ix2 (0 : Fin 1) q)
          + blk (V c main_arg1) (t.val % 16) (4096 * (t.val / 16) + q.val)) + Ideal.ofBits .f32 0x3F800000#32) := by
  refine (congrFun ((outsAt1_C V c t h0 h1).trans
    (piece_C c (grid1.coords t) (ms1_0 t) (hs1_0 t) (ms1_1 t) (hs1_1 t) (fun h => h0 ((hcond1_0 t).mp h))
      ((hcond1_1 t).mpr h1) (iblk1 V c 0 t)
      (outsAt1 V c (t.val - 1) (Nat.lt_of_le_of_lt (Nat.sub_le _ _) t.isLt)))) (ix2 (0 : Fin 1) q)).trans ?_
  refine (pay3_apply _ q).trans ?_
  exact congrArg (fun z : EReal => Ideal.rsqrt (z + Ideal.ofBits .f32 0x3F800000#32))
    ((pay2_apply _ _ q).trans (congrArg₂ (· + ·) rfl (iblk_sum V c t q _ rfl)))

/-- The invariant: after a point that is not the last of its column tile, the carried block holds at column q the sum of
    the matrix column over the row blocks met so far. -/
theorem inv : ∀ (n : ℕ) (h : n < cfg1.N) (q : Fin 4096), ¬n % 16 = 15 →
    outsAt1 (F := Ideal) V c n h (ix2 (0 : Fin 1) q) = psum (V c main_arg1) (n % 16 + 1) (4096 * (n / 16) + q.val)
  | 0, h, q, _ => by
    refine (step_A V c ⟨0, h⟩ rfl q).trans ?_
    show 0 + blk (V c main_arg1) (0 % 16) (4096 * (0 / 16) + q.val) = psum (V c main_arg1) (0 % 16 + 1) (4096 * (0 / 16) + q.val)
    unfold psum
    rw [zero_add, Finset.sum_range_one]
  | n + 1, h, q, h1 => by
    by_cases h0 : (n + 1) % 16 = 0
    · refine (step_A V c ⟨n + 1, h⟩ h0 q).trans ?_
      show 0 + blk (V c main_arg1) ((n + 1) % 16) (4096 * ((n + 1) / 16) + q.val)
        = psum (V c main_arg1) ((n + 1) % 16 + 1) (4096 * ((n + 1) / 16) + q.val)
      unfold psum
      rw [h0, zero_add, Finset.sum_range_one]
    · refine (step_B V c ⟨n + 1, h⟩ h0 h1 q).trans ?_
      have hn : ¬n % 16 = 15 := by omega
      have e1 : (n + 1) / 16 = n / 16 := by omega
      have e2 : (n + 1) % 16 = n % 16 + 1 := by omega
      show outsAt1 (F := Ideal) V c n _ (ix2 (0 : Fin 1) q) + blk (V c main_arg1) ((n + 1) % 16) (4096 * ((n + 1) / 16) + q.val)
        = psum (V c main_arg1) ((n + 1) % 16 + 1) (4096 * ((n + 1) / 16) + q.val)
      rw [inv n (Nat.lt_of_succ_lt h) q hn, e1, e2]
      unfold psum
      exact (Finset.sum_range_succ _ _).symm

end Steps

section Final

variable (V : (c : Dev nD) → (b : Ref sig .tc) → Buf (Elt Ideal) ((c : Thread nD τ).loc b)) (c : Dev nD)

/-- The sixteen row blocks of a column make up the whole column. -/
theorem psum16 (A : Cert.Spec.Mat 8192 8192) (j : ℕ) (hj : j < 8192) :
    psum A 16 j = ∑ r : Fin 8192, A (ix2 r ⟨j, hj⟩) := by
  unfold psum blk
  refine (sum_fin_blocks (fun k => at2 A k j) 512 16 8192 rfl).trans ?_
  exact Finset.sum_congr rfl fun r _ => by
    unfold at2
    rw [dif_pos ⟨r.isLt, hj⟩]

/-- After the last point of a column tile the carried block holds, at column q of the tile, the inverse square root of
    the matrix column's sum plus 1. -/
theorem last_apply (t : Fin cfg1.N) (h1 : t.val % 16 = 15) (q : Fin 4096) (hj : 4096 * (t.val / 16) + q.val < 8192) :
    outsAt1 (F := Ideal) V c t.val t.isLt (ix2 (0 : Fin 1) q)
      = Cert.Spec.dinvK (V c main_arg1) ⟨4096 * (t.val / 16) + q.val, hj⟩ := by
  have h0 : ¬t.val % 16 = 0 := by omega
  refine (step_C V c t h0 h1 q).trans ?_
  have hp : ¬(t.val - 1) % 16 = 15 := by omega
  have e1 : (t.val - 1) / 16 = t.val / 16 := by omega
  have e2 : (t.val - 1) % 16 + 1 = 15 := by omega
  rw [inv V c (t.val - 1) _ q hp, e1, e2, h1]
  have e3 : psum (V c main_arg1) 15 (4096 * (t.val / 16) + q.val) + blk (V c main_arg1) 15 (4096 * (t.val / 16) + q.val)
      = psum (V c main_arg1) 16 (4096 * (t.val / 16) + q.val) := by
    unfold psum
    exact (Finset.sum_range_succ _ 15).symm
  rw [e3, psum16 _ _ hj]
  rfl

/-- The result array's contents after the region: at column j the inverse square root of the column's sum plus 1. -/
def G (A : Cert.Spec.Mat 8192 8192) : (⟨2, ![1, 8192]⟩ : Shape).Idx → EReal :=
  fun i => Cert.Spec.dinvK A ⟨(i 1).val, idx2_lt1 i⟩

/-- The result window's block index at point t: row 0, column tile t / 16 (decided over the 32 points). -/
theorem idx1_1 : ∀ t : Fin cfg1.N, win1_1.index t 0 = 0 ∧ win1_1.index t 1 = t.val / 16 :=
  (by decide +kernel : ∀ t : Fin grid1.N, win1_1.index t 0 = 0 ∧ win1_1.index t 1 = t.val / 16)

/-- What a point that writes the carried block back writes is its block of those contents. -/
theorem flushed_eq (t : Fin cfg1.N) (hf : (cfg1.win 1).flush t = true) :
    (dat1 (F := Ideal) V c).flushed 1 t = ((cfg1.win 1).blk t).view.read (Elt Ideal) (G (V c main_arg1)) := by
  have h15 : t.val % 16 = 15 := (flush1_1 t).mp hf
  have hN : t.val < 32 := lt_of_lt_of_eq t.isLt (show cfg1.N = 32 from N_1)
  show (cfg1.win 1).cut (grid1.coords t) ((dat1 V c).after 1 t) = _
  rw [after1_1]
  funext y
  have hq : (y 1).val < 4096 := (y 1).isLt
  have hy0 : (y 0).val = 0 := by
    have h : (y 0).val < 1 := (y 0).isLt
    omega
  rw [View.read_apply]
  show outsAt1 (F := Ideal) V c t.val t.isLt ((cfg1.win 1).xinj (grid1.coords t) y)
    = G (V c main_arg1) (((cfg1.win 1).blk t).view.emb y)
  have e : (cfg1.win 1).xinj (grid1.coords t) y = ix2 (0 : Fin 1) (⟨(y 1).val, hq⟩ : Fin 4096) :=
    funext fun a => Fin.ext (by
      match a with
      | ⟨0, _⟩ => exact hy0
      | ⟨1, _⟩ => rfl)
  refine (congrArg (outsAt1 (F := Ideal) V c t.val t.isLt) e).trans ?_
  refine (last_apply V c t h15 ⟨(y 1).val, hq⟩ (by show 4096 * (t.val / 16) + (y 1).val < 8192; omega)).trans ?_
  unfold G
  refine congrArg (Cert.Spec.dinvK (V c main_arg1)) (Fin.ext ?_)
  show 4096 * (t.val / 16) + (y 1).val = win1_1.index t 1 * 4096 + 1 * (y 1).val
  rw [(idx1_1 t).2]; omega

/-- Every entry of the result array is written back by the last point of its column tile. -/
theorem cover (i : (⟨2, ![1, 8192]⟩ : Shape).Idx) :
    ∃ t : Fin cfg1.N, (cfg1.win 1).flush t = true ∧ i ∈ ((cfg1.win 1).blk t).view.set := by
  have hi0 : (i 0).val < 1 := (i 0).isLt
  have hi1 : (i 1).val < 8192 := (i 1).isLt
  have hN : cfg1.N = 32 := N_1
  obtain ⟨t, ht⟩ : ∃ t : Fin cfg1.N, t.val = 16 * ((i 1).val / 4096) + 15 :=
    ⟨⟨16 * ((i 1).val / 4096) + 15, by rw [hN]; omega⟩, rfl⟩
  refine ⟨t, (flush1_1 t).mpr (by omega), ?_⟩
  show i ∈ ((View.whole main_v1).slice (win1_1.rect t)).set
  rw [View.set_slice_whole, Rect.mem_set_unit]
  intro a
  match a with
  | ⟨0, _⟩ =>
    show win1_1.index t 0 * 1 ≤ (i 0 : Nat) ∧ (i 0 : Nat) < win1_1.index t 0 * 1 + 1
    rw [(idx1_1 t).1]; omega
  | ⟨1, _⟩ =>
    show win1_1.index t 1 * 4096 ≤ (i 1 : Nat) ∧ (i 1 : Nat) < win1_1.index t 1 * 4096 + 4096
    rw [(idx1_1 t).2, ht]; omega

/-- The degree region's result: entry (0, col) of the result array after the region is the inverse square root of
    column col's sum over all 8192 rows plus the literal 1. -/
theorem final_dinv (col : Fin 8192) :
    ((dat1 (F := Ideal) V c).arrAt 1 cfg1.N) (ix2 (0 : Fin 1) col) = Cert.Spec.dinvK (V c main_arg1) col :=
  congrFun ((dat1 (F := Ideal) V c).arrAt_eq_of_cover 1 (G (V c main_arg1)) (flushed_eq V c) cover) (ix2 (0 : Fin 1) col)

end Final

end Cert.R1

end
-- ==== Proof.R2Agg.lean ====
/-
  The aggregate product Z = Aᵀ Y of the graph convolution, read off the generated frame of the region that computes it.

  The region walks a grid of 2 column tiles by 32 row blocks. At point t the column tile is t / 32 (4096 columns of
  the adjacency matrix A, which are 4096 rows of the output Z) and the row block is t % 32 (256 rows of A and of the
  scaled features Y). The output block of 4096 by 32 entries is carried over the 32 row blocks of one tile: at the
  first row block it is set to zero and this block's products are added, at every later row block the products are
  added to what the block before left, and after the last row block it is written back.

  The body's arithmetic at entry (q, j) of the block is the carried entry plus the sum over the 256 rows r of the
  block of A (r, q) * Y (r, j): both operands of the product are contracted over their rows. So after row block k of
  tile p the carried entry is the sum over rows r < 256 (k + 1) of A (r, 4096 p + q) * Y (r, j) — an induction over
  the grid's points — and after row block 31 it is the sum over all 8192 rows, which is the aggregate of the
  specification. Only associativity and commutativity of + on the extended reals and 0 + x = x are used.
-/
import proofs.«159406_j42434276884964_2_alg».proof.Proof.Gen.KernelIdeal.Frame
import proofs.«159406_j42434276884964_2_alg».proof.Proof.Spec
import proofs.«159406_j42434276884964_2_alg».proof.Proof.LibBlockedSum
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.R2

open Cert.KernelIdeal Cert.KernelIdeal.Gen
open Idealize.ShloMosaic Idealize.ShloMosaic.TcCoe Idealize.ShloMosaic.ValueIdx Idealize.SL.Sem
open Idealize.ShloMosaic.Pipeline (Dat)
open Cert.BlockedSum

/-! ## What the body leaves in the carried block, case by case -/

section Pieces

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- At a point that is not the first row block of its column tile the body leaves, in the carried block holding `xo`,
    the payload of the two input blocks and `xo`: its one covering store's value, whose loads read whole buffers. -/
theorem out_B (c : Dev nD) (i : grid2.Coords) (a2 : Memref sig .tc .vmem S256x4096 .f32) (h2 : a2.IsWhole)
    (a3 : Memref sig .tc .vmem S256x32 .f32) (h3 : a3.IsWhole) (a4 : Memref sig .tc .vmem S4096x32 .f32) (h4 : a4.IsWhole)
    (hc : ¬cond2_0 i) (x0 : Vec F S256x4096 .f32) (x1 : Vec F S256x32 .f32) (xo : Vec F S4096x32 .f32) :
    out2_B_2 c i a2 h2 a3 h3 a4 h4 hc x0 x1 xo = k2_pay2 x0 x1 xo := by
  unfold out2_B_2
  rw [View.read_writes_eq_canon _ _ _ (cover2_B_2 c i a2 h2 a3 h3 a4 h4 hc x0 x1 xo)]
  unfold kernelRun2_B
  dsimp only
  rw [View.canon_unit_zero hz]
  simp only [View.readAt_eq_ld, h2.read_unread, h3.read_unread, h4.read_unread, View.ld_unit_zero (S := S256x4096) hz,
    View.ld_unit_zero (S := S256x32) hz, View.ld_unit_zero (S := S4096x32) hz]

/-- At the first row block of a column tile the body stores the zero block, reads it back, and leaves the payload of the
    two input blocks and the zero block. -/
theorem out_A (c : Dev nD) (i : grid2.Coords) (a2 : Memref sig .tc .vmem S256x4096 .f32) (h2 : a2.IsWhole)
    (a3 : Memref sig .tc .vmem S256x32 .f32) (h3 : a3.IsWhole) (a4 : Memref sig .tc .vmem S4096x32 .f32) (h4 : a4.IsWhole)
    (hc : cond2_0 i) (x0 : Vec F S256x4096 .f32) (x1 : Vec F S256x32 .f32) :
    out2_A_2 c i a2 h2 a3 h3 a4 h4 hc x0 x1 = k2_pay2 x0 x1 (k2_pay1 (F := F)) := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S4096x32) hz, View.readCov_unit_zero (S := S4096x32) _ hz]
  simp only [View.readAt_eq_ld, h2.read_unread, h3.read_unread, View.ld_unit_zero (S := S256x4096) hz,
    View.ld_unit_zero (S := S256x32) hz]

/-- The carried block after a point that starts a column tile: the payload over the zero block. -/
theorem outs_A (c : Dev nD) (t : Fin cfg2.N) (h0 : t.val % 32 = 0) :
    outsAt2 V c t.val t.isLt = k2_pay2 (iblk2 V c 0 t) (iblk2 V c 1 t) (k2_pay1 (F := F)) :=
  (outsAt2_A V c t h0).trans
    (out_A c (grid2.coords t) (ms2_0 t) (hs2_0 t) (ms2_1 t) (hs2_1 t) (ms2_2 t) (hs2_2 t) ((hcond2_0 t).mpr h0)
      (iblk2 V c 0 t) (iblk2 V c 1 t))

/-- The carried block after any other point: the payload over what the point before left. -/
theorem outs_B (c : Dev nD) (t : Fin cfg2.N) (h0 : ¬t.val % 32 = 0) :
    outsAt2 V c t.val t.isLt
      = k2_pay2 (iblk2 V c 0 t) (iblk2 V c 1 t) (outsAt2 V c (t.val - 1) (Nat.lt_of_le_of_lt (Nat.sub_le _ _) t.isLt)) :=
  (outsAt2_B V c t h0).trans
    (out_B c (grid2.coords t) (ms2_0 t) (hs2_0 t) (ms2_1 t) (hs2_1 t) (ms2_2 t) (hs2_2 t) (fun h => h0 ((hcond2_0 t).mp h))
      (iblk2 V c 0 t) (iblk2 V c 1 t) (outsAt2 V c (t.val - 1) (Nat.lt_of_le_of_lt (Nat.sub_le _ _) t.isLt)))

end Pieces

/-! ## The payload at an entry, over the extended reals -/

section Payload

/-- The zero block reads 0 everywhere. -/
theorem pay1_apply (i : S4096x32.Idx) : k2_pay1 (F := Ideal) i = 0 := Ideal.ofBits_zero_f32

theorem lhs_0 (i : S4096x32.Idx) (k : dot_S256x4096_S256x32_S4096x32_0_0_1_1_n_n.contr.Idx) :
    (dot_S256x4096_S256x32_S4096x32_0_0_1_1_n_n.lhsIdx i k 0).val = (k ⟨0, by decide⟩).val :=
  dot_S256x4096_S256x32_S4096x32_0_0_1_1_n_n.lhsIdx_val_of_single rfl i k
theorem lhs_1 (i : S4096x32.Idx) (k : dot_S256x4096_S256x32_S4096x32_0_0_1_1_n_n.contr.Idx) :
    (dot_S256x4096_S256x32_S4096x32_0_0_1_1_n_n.lhsIdx i k 1).val = (i 0).val := by
  unfold DotDims.lhsIdx
  rw [dif_neg (show ¬(1 : Fin S256x4096.rank) ∈ dot_S256x4096_S256x32_S4096x32_0_0_1_1_n_n.lhsBatch by decide),
    dif_pos (show (1 : Fin S256x4096.rank) ∈ dot_S256x4096_S256x32_S4096x32_0_0_1_1_n_n.lhsNonContracting by decide)]
  rfl
theorem rhs_0 (i : S4096x32.Idx) (k : dot_S256x4096_S256x32_S4096x32_0_0_1_1_n_n.contr.Idx) :
    (dot_S256x4096_S256x32_S4096x32_0_0_1_1_n_n.rhsIdx i k 0).val = (k ⟨0, by decide⟩).val :=
  dot_S256x4096_S256x32_S4096x32_0_0_1_1_n_n.rhsIdx_val_of_single rfl i k
theorem rhs_1 (i : S4096x32.Idx) (k : dot_S256x4096_S256x32_S4096x32_0_0_1_1_n_n.contr.Idx) :
    (dot_S256x4096_S256x32_S4096x32_0_0_1_1_n_n.rhsIdx i k 1).val = (i 1).val := by
  unfold DotDims.rhsIdx
  rw [dif_neg (show ¬(1 : Fin S256x32.rank) ∈ dot_S256x4096_S256x32_S4096x32_0_0_1_1_n_n.rhsBatch by decide),
    dif_pos (show (1 : Fin S256x32.rank) ∈ dot_S256x4096_S256x32_S4096x32_0_0_1_1_n_n.rhsNonContracting by decide)]
  rfl

/-- The product of the transposed first block with the second, read at an entry: both operands are contracted over
    their rows, so entry (q, j) is the sum over the 256 rows r of `a (r, q) * y (r, j)`. -/
theorem matmul_apply (a : FVec Ideal S256x4096 .bf16) (y : FVec Ideal S256x32 .bf16) (q : Fin 4096) (j : Fin 32) :
    FloatOps.matmul dot_S256x4096_S256x32_S4096x32_0_0_1_1_n_n none a y (constant (F := Ideal) S4096x32 .f32 0x00000000#32) (ix2 q j)
      = ∑ r : Fin 256, a (ix2 r q) * y (ix2 r j) := by
  refine (Ideal.matmul_constant_zero_apply dot_S256x4096_S256x32_S4096x32_0_0_1_1_n_n none a y (ix2 q j)).trans ?_
  refine (Equiv.sum_comp (contrEquiv1 dot_S256x4096_S256x32_S4096x32_0_0_1_1_n_n 256 rfl rfl).symm _).symm.trans ?_
  refine Finset.sum_congr rfl fun k _ => ?_
  have hk := contrEquiv1_symm_val dot_S256x4096_S256x32_S4096x32_0_0_1_1_n_n 256 rfl rfl k
  have el : dot_S256x4096_S256x32_S4096x32_0_0_1_1_n_n.lhsIdx (ix2 q j)
      ((contrEquiv1 dot_S256x4096_S256x32_S4096x32_0_0_1_1_n_n 256 rfl rfl).symm k) = ix2 k q :=
    funext fun b => Fin.ext (by
      match b with
      | ⟨0, _⟩ => exact (lhs_0 _ _).trans hk
      | ⟨1, _⟩ => exact lhs_1 _ _)
  have er : dot_S256x4096_S256x32_S4096x32_0_0_1_1_n_n.rhsIdx (ix2 q j)
      ((contrEquiv1 dot_S256x4096_S256x32_S4096x32_0_0_1_1_n_n 256 rfl rfl).symm k) = ix2 k j :=
    funext fun b => Fin.ext (by
      match b with
      | ⟨0, _⟩ => exact (rhs_0 _ _).trans hk
      | ⟨1, _⟩ => exact rhs_1 _ _)
  rw [el, er]

/-- The body's arithmetic at an entry: the carried block's entry plus this row block's 256 products. -/
theorem pay2_apply (v3 : Vec Ideal S256x4096 .f32) (v5 : Vec Ideal S256x32 .f32) (v8 : Vec Ideal S4096x32 .f32)
    (q : Fin 4096) (j : Fin 32) :
    k2_pay2 (F := Ideal) v3 v5 v8 (ix2 q j) = v8 (ix2 q j) + ∑ r : Fin 256, v3 (ix2 r q) * v5 (ix2 r j) := by
  unfold k2_pay2
  refine (addf_apply _ _ (ix2 q j)).trans ?_
  refine congrArg₂ (· + ·) (congrFun (shapeCast_self v8 shapeCasts_S4096x32_S4096x32) (ix2 q j)) ?_
  refine (matmul_apply _ _ q j).trans ?_
  refine Finset.sum_congr rfl fun r _ => ?_
  exact congrArg (v3 (ix2 r q) * ·) (congrFun (shapeCast_self v5 shapeCasts_S256x32_S256x32) (ix2 r j))

end Payload

/-! ## The blocks the body reads, and the accumulation over one column tile -/

section Aggregate

variable (V : (c : Dev nD) → (b : Ref sig .tc) → Buf (Elt Ideal) ((c : Thread nD τ).loc b))

/-- The adjacency matrix and the scaled features as the region finds them. -/
abbrev matA (c : Dev nD) : Spec.Mat 8192 8192 := V c main_arg1
abbrev matY (c : Dev nD) : Spec.Mat 8192 32 := V c main_v5

/-- The printed index maps over the grid: point `t` reads row block `t % 32` of both inputs and column tile `t / 32`
    of the matrix, and writes output row tile `t / 32`. -/
theorem idx_facts : ∀ t : Fin cfg2.N,
    win2_0.index t (0 : Fin 2) = t.val % 32 ∧ win2_0.index t (1 : Fin 2) = t.val / 32
    ∧ win2_1.index t (0 : Fin 2) = t.val % 32 ∧ win2_1.index t (1 : Fin 2) = 0
    ∧ win2_2.index t (0 : Fin 2) = t.val / 32 ∧ win2_2.index t (1 : Fin 2) = 0 :=
  (by decide +kernel : ∀ t : Fin grid2.N, _)

/-- The two input blocks at point `t`, at their block shapes. -/
abbrev inA (c : Dev nD) (t : Fin cfg2.N) : Vec Ideal S256x4096 .f32 := iblk2 V c 0 t
abbrev inY (c : Dev nD) (t : Fin cfg2.N) : Vec Ideal S256x32 .f32 := iblk2 V c 1 t

/-- The matrix block at point `t`: rows `256 (t % 32) + r`, columns `4096 (t / 32) + q`. -/
theorem blkA (c : Dev nD) (t : Fin cfg2.N) (r : Fin 256) (q : Fin 4096) :
    inA V c t (ix2 r q) = at2 (matA V c) (256 * (t.val % 32) + r.val) (4096 * (t.val / 32) + q.val) := by
  obtain ⟨e0, e1, -, -, -, -⟩ := idx_facts t
  unfold inA iblk2
  rw [View.read_apply]
  show matA V c _ = _
  refine at2_of_idx (matA V c) _ _ _ ?_ ?_
  · show win2_0.index t (0 : Fin 2) * 256 + 1 * r.val = _
    rw [e0]; omega
  · show win2_0.index t (1 : Fin 2) * 4096 + 1 * q.val = _
    rw [e1]; omega

/-- The feature block at point `t`: rows `256 (t % 32) + r`, all 32 columns. -/
theorem blkY (c : Dev nD) (t : Fin cfg2.N) (r : Fin 256) (j : Fin 32) :
    inY V c t (ix2 r j) = at2 (matY V c) (256 * (t.val % 32) + r.val) j.val := by
  obtain ⟨-, -, e2, e3, -, -⟩ := idx_facts t
  unfold inY iblk2
  rw [View.read_apply]
  show matY V c _ = _
  refine at2_of_idx (matY V c) _ _ _ ?_ ?_
  · show win2_1.index t (0 : Fin 2) * 256 + 1 * r.val = _
    rw [e2]; omega
  · show win2_1.index t (1 : Fin 2) * 32 + 1 * j.val = _
    rw [e3]; omega

/-- Row block `s`'s share of entry (q, j) of output row tile `p`: the 256 products of its rows. -/
def term (c : Dev nD) (s p : ℕ) (q : Fin 4096) (j : Fin 32) : EReal :=
  ∑ r : Fin 256, at2 (matA V c) (256 * s + r.val) (4096 * p + q.val) * at2 (matY V c) (256 * s + r.val) j.val

/-- The running aggregate after point `n`: the shares of row blocks 0 … n % 32 of tile n / 32. -/
def part (c : Dev nD) (n : ℕ) (q : Fin 4096) (j : Fin 32) : EReal :=
  ∑ s ∈ Finset.range (n % 32 + 1), term V c s (n / 32) q j

theorem part_first (c : Dev nD) (n : ℕ) (h0 : n % 32 = 0) (q : Fin 4096) (j : Fin 32) :
    part V c n q j = term V c (n % 32) (n / 32) q j := by
  unfold part
  rw [h0, Nat.zero_add, Finset.sum_range_one]

theorem part_succ (c : Dev nD) (n : ℕ) (h0 : ¬(n + 1) % 32 = 0) (q : Fin 4096) (j : Fin 32) :
    part V c (n + 1) q j = part V c n q j + term V c ((n + 1) % 32) ((n + 1) / 32) q j := by
  have e1 : (n + 1) % 32 = n % 32 + 1 := by omega
  have e2 : (n + 1) / 32 = n / 32 := by omega
  unfold part
  rw [e1, e2, Finset.sum_range_succ]

/-- This point's 256 products are its row block's share. -/
theorem prod_eq (c : Dev nD) (t : Fin cfg2.N) (q : Fin 4096) (j : Fin 32) :
    ∑ r : Fin 256, inA V c t (ix2 r q) * inY V c t (ix2 r j)
      = term V c (t.val % 32) (t.val / 32) q j :=
  Finset.sum_congr rfl fun r _ => congrArg₂ (· * ·) (blkA V c t r q) (blkY V c t r j)

/-- At the first row block of a tile the carried block's entry is that block's share (zero plus it). -/
theorem step_A (c : Dev nD) (t : Fin cfg2.N) (h0 : t.val % 32 = 0) (q : Fin 4096) (j : Fin 32) :
    outsAt2 V c t.val t.isLt (ix2 q j) = term V c (t.val % 32) (t.val / 32) q j := by
  rw [outs_A V c t h0]
  refine (pay2_apply (inA V c t) (inY V c t) _ q j).trans ?_
  rw [pay1_apply, zero_add]
  exact prod_eq V c t q j

/-- At every other row block it is the entry the point before left plus this block's share. -/
theorem step_B (c : Dev nD) (t : Fin cfg2.N) (h0 : ¬t.val % 32 = 0) (q : Fin 4096) (j : Fin 32) :
    outsAt2 V c t.val t.isLt (ix2 q j)
      = outsAt2 V c (t.val - 1) (Nat.lt_of_le_of_lt (Nat.sub_le _ _) t.isLt) (ix2 q j) + term V c (t.val % 32) (t.val / 32) q j := by
  rw [outs_B V c t h0]
  refine (pay2_apply (inA V c t) (inY V c t) _ q j).trans ?_
  rw [prod_eq V c t q j]

/-- The invariant: after point `n` the carried block holds the running aggregate — by induction on the point. -/
theorem acc_inv (c : Dev nD) : ∀ (n : ℕ) (h : n < cfg2.N) (q : Fin 4096) (j : Fin 32),
    outsAt2 V c n h (ix2 q j) = part V c n q j
  | 0, h, q, j => (step_A V c ⟨0, h⟩ rfl q j).trans (part_first V c 0 rfl q j).symm
  | n + 1, h, q, j => by
    by_cases h0 : (n + 1) % 32 = 0
    · exact (step_A V c ⟨n + 1, h⟩ h0 q j).trans (part_first V c (n + 1) h0 q j).symm
    · refine (step_B V c ⟨n + 1, h⟩ h0 q j).trans ?_
      rw [part_succ V c n h0 q j]
      exact congrArg (· + term V c ((n + 1) % 32) ((n + 1) / 32) q j) (acc_inv c n (Nat.lt_of_succ_lt h) q j)

/-- After the last row block of tile `p` the running aggregate is the whole contraction over the 8192 rows. -/
theorem part_last (c : Dev nD) (n : ℕ) (h31 : n % 32 = 31) (q : Fin 4096) (j : Fin 32) :
    part V c n q j = ∑ k : Fin 8192, at2 (matA V c) k.val (4096 * (n / 32) + q.val) * at2 (matY V c) k.val j.val := by
  unfold part term
  rw [h31]
  exact sum_fin_blocks (fun k => at2 (matA V c) k (4096 * (n / 32) + q.val) * at2 (matY V c) k j.val) 256 32 8192 rfl

/-- The aggregate of the specification, over the same readings. -/
theorem gcnZ_eq (c : Dev nD) (cc : Fin 8192) (j : Fin 32) :
    Spec.gcnZ (matA V c) (fun r j => matY V c (ix2 r j)) cc j
      = ∑ k : Fin 8192, at2 (matA V c) k.val cc.val * at2 (matY V c) k.val j.val := by
  unfold Spec.gcnZ
  exact Finset.sum_congr rfl fun k _ => congrArg₂ (· * ·)
    (at2_of_idx (matA V c) (ix2 k cc) k.val cc.val rfl rfl) (at2_of_idx (matY V c) (ix2 k j) k.val j.val rfl rfl)

/-! ## From the carried block to the output array -/

/-- The aggregate as contents of the output array. -/
abbrev Zfun (c : Dev nD) : S8192x32.Idx → EReal :=
  fun i => Spec.gcnZ (matA V c) (fun r j => matY V c (ix2 r j)) ⟨(i 0).val, idx2_lt0 i⟩ ⟨(i 1).val, idx2_lt1 i⟩

/-- What a writing-back point writes is its row tile of the aggregate: the point is the last row block of its tile. -/
theorem flushed_eq (c : Dev nD) (t : Fin cfg2.N) (hf : (cfg2.win 2).flush t = true) :
    (dat2 V c).flushed 2 t = ((cfg2.win 2).blk t).view.read (Elt Ideal) (Zfun V c) := by
  have h31 : t.val % 32 = 31 := (flush2_2 t).mp hf
  obtain ⟨-, -, -, -, e4, e5⟩ := idx_facts t
  show (cfg2.win 2).cut (grid2.coords t) ((dat2 V c).after 2 t) = _
  rw [after2_2]
  funext y
  obtain ⟨q, j, rfl⟩ : ∃ (q : Fin 4096) (j : Fin 32), y = ix2 q j := ⟨y 0, y 1, eq_ix2 y⟩
  rw [View.read_apply]
  show outsAt2 V c t.val t.isLt (ix2 q j) = Zfun V c _
  rw [acc_inv V c t.val t.isLt q j, part_last V c t.val h31 q j]
  show _ = Spec.gcnZ (matA V c) (fun r j => matY V c (ix2 r j)) _ _
  rw [gcnZ_eq]
  refine Finset.sum_congr rfl fun k _ => ?_
  have a0 : win2_2.index t (0 : Fin 2) * 4096 + 1 * q.val = 4096 * (t.val / 32) + q.val := by rw [e4]; omega
  have a1 : win2_2.index t (1 : Fin 2) * 32 + 1 * j.val = j.val := by rw [e5]; omega
  exact congrArg₂ (· * ·) (congrArg (at2 (matA V c) k.val) a0.symm) (congrArg (at2 (matY V c) k.val) a1.symm)

/-- Every entry of the output array is in the block of the last row block of its row tile. -/
theorem cover (i : S8192x32.Idx) :
    ∃ t : Fin cfg2.N, (cfg2.win 2).flush t = true ∧ i ∈ ((cfg2.win 2).blk t).view.set := by
  have hN : cfg2.N = 64 := N_2
  have hi0 : (i 0).val < 8192 := idx2_lt0 i
  have hi1 : (i 1).val < 32 := idx2_lt1 i
  let t : Fin cfg2.N := ⟨32 * ((i 0).val / 4096) + 31, by rw [hN]; omega⟩
  have ht : t.val = 32 * ((i 0).val / 4096) + 31 := rfl
  obtain ⟨-, -, -, -, e4, e5⟩ := idx_facts t
  refine ⟨t, (flush2_2 t).mpr (by rw [ht]; omega), ?_⟩
  show i ∈ ((View.whole main_v6).slice (win2_2.rect t)).set
  rw [View.set_slice_whole, Rect.mem_set_unit]
  intro a
  match a with
  | ⟨0, _⟩ =>
    show win2_2.index t (0 : Fin 2) * 4096 ≤ (i 0).val ∧ (i 0).val < win2_2.index t (0 : Fin 2) * 4096 + 4096
    rw [e4, ht]; omega
  | ⟨1, _⟩ =>
    show win2_2.index t (1 : Fin 2) * 32 ≤ (i 1).val ∧ (i 1).val < win2_2.index t (1 : Fin 2) * 32 + 32
    rw [e5]; omega

/-- The output array after the region: the aggregate of the specification, entry by entry. -/
theorem final_Z (c : Dev nD) (cc : Fin 8192) (j : Fin 32) :
    ((dat2 (F := Ideal) V c).arrAt 2 cfg2.N) (ix2 cc j)
      = Cert.Spec.gcnZ (V c main_arg1) (fun r j => V c main_v5 (ix2 r j)) cc j :=
  congrFun ((dat2 V c).arrAt_eq_of_cover 2 (Zfun V c) (flushed_eq V c) (cover)) (ix2 cc j)

end Aggregate

end Cert.R2

end
-- ==== Proof.R3Row.lean ====
/-
  The last stage of the first program, one row at a time.

  The body of the stage works on a block of 1024 rows, and every operation in it is row-wise: the two feature blocks are
  added and scaled by the row's scale, a bias row is added and the result clipped at 0 (the convolution's output); three
  dense layers follow (a matrix product `[1024, 32] × [32, 32]`, a bias row, clipping at 0), the first of them taking the
  convolution's features against one half of its weight matrix and the encoder's features against the other half; the
  logits are scaled by the row's mask; and a softmax is taken along each row: the row's maximum, folded from −∞, is
  subtracted, the exponentials are divided by their sum over the row.

  So entry `(p, q)` of the block the body stores depends only on row `p` of the four row-blocked operands and on the
  weights. This module reads each operation at an index given by coordinates, defines the network on ONE row
  (`policyRow`), shows that the specification's `policyK` at row `n` is `policyRow` of row `n`, and shows that the
  body's stored value at `(p, q)` is `policyRow` of row `p` of its loaded blocks.
-/
import proofs.«159406_j42434276884964_2_alg».proof.Proof.Gen.KernelIdeal.Skeleton
import proofs.«159406_j42434276884964_2_alg».proof.Proof.Spec
import Idealize.ShloMosaic.Lib.ValueLayout
import Idealize.ShloMosaic.PureOps.Ideal.Laws

noncomputable section

open scoped BigOperators

namespace Cert.R3

open Idealize.ShloMosaic Idealize.ShloMosaic.ValueIdx
open Cert.KernelIdeal Cert.KernelIdeal.Gen
open Cert.Spec (Mat Row)

variable {α : Type}

/-! ## The column forms -/

/-- A vector `[a]` cast to a column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is
    kept (when `a = 1` it is `0` either way) and the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## A plain matrix product into the zero accumulator -/

/-- The left operand's row coordinate is the result's. -/
theorem plain_lhs_0 {a k b : ℕ} (i : (⟨2, ![a, b]⟩ : Shape).Idx) (q : (DotDims.plain a k b).contr.Idx) :
    ((DotDims.plain a k b).lhsIdx i q 0).val = (i 0).val := by
  unfold DotDims.lhsIdx
  rw [dif_neg (show ¬(0 : Fin (⟨2, ![a, k]⟩ : Shape).rank) ∈ (DotDims.plain a k b).lhsBatch from List.not_mem_nil),
    dif_pos (show (0 : Fin (⟨2, ![a, k]⟩ : Shape).rank) ∈ (DotDims.plain a k b).lhsNonContracting from
      List.mem_singleton.mpr rfl)]
  rfl

/-- The right operand's column coordinate is the result's. -/
theorem plain_rhs_1 {a k b : ℕ} (i : (⟨2, ![a, b]⟩ : Shape).Idx) (q : (DotDims.plain a k b).contr.Idx) :
    ((DotDims.plain a k b).rhsIdx i q 1).val = (i 1).val := by
  unfold DotDims.rhsIdx
  rw [dif_neg (show ¬(1 : Fin (⟨2, ![k, b]⟩ : Shape).rank) ∈ (DotDims.plain a k b).rhsBatch from List.not_mem_nil),
    dif_pos (show (1 : Fin (⟨2, ![k, b]⟩ : Shape).rank) ∈ (DotDims.plain a k b).rhsNonContracting from
      List.mem_singleton.mpr rfl)]
  rfl

/-- Entry `(p, q)` of the product is `∑ j, lhs (p, j) * rhs (j, q)`: the contraction index has one coordinate, the sum
    is re-indexed through it, and the operands' indices are read coordinate by coordinate. -/
theorem matmul_plain_apply {a k b : ℕ} {φ₁ φ₂ : FTy} (prec : Option ContractPrecision)
    (lhs : FVec Ideal ⟨2, ![a, k]⟩ φ₁) (rhs : FVec Ideal ⟨2, ![k, b]⟩ φ₂) (p : Fin a) (q : Fin b) :
    FloatOps.matmul (DotDims.plain a k b) prec lhs rhs (constant (F := Ideal) ⟨2, ![a, b]⟩ .f32 0x00000000#32) (ix2 p q)
      = ∑ j : Fin k, lhs (ix2 p j) * rhs (ix2 j q) := by
  rw [Ideal.matmul_constant_zero_apply, ← Equiv.sum_comp (contrEquiv1 (DotDims.plain a k b) k rfl rfl).symm]
  refine Finset.sum_congr rfl fun j _ => ?_
  have hk := contrEquiv1_symm_val (DotDims.plain a k b) k rfl rfl j
  have el : (DotDims.plain a k b).lhsIdx (ix2 p q) ((contrEquiv1 (DotDims.plain a k b) k rfl rfl).symm j) = ix2 p j :=
    funext fun ax => Fin.ext (by
      match ax with
      | ⟨0, _⟩ => exact plain_lhs_0 _ _
      | ⟨1, _⟩ => exact ((DotDims.plain a k b).lhsIdx_val_of_single rfl _ _).trans hk)
  have er : (DotDims.plain a k b).rhsIdx (ix2 p q) ((contrEquiv1 (DotDims.plain a k b) k rfl rfl).symm j) = ix2 j q :=
    funext fun ax => Fin.ext (by
      match ax with
      | ⟨0, _⟩ => exact ((DotDims.plain a k b).rhsIdx_val_of_single rfl _ _).trans hk
      | ⟨1, _⟩ => exact plain_rhs_1 _ _)
  rw [el, er]

/-! ## The reductions along a row -/

/-- The source index over row `p` with lane `k` inserted is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by
    match ax with
    | ⟨0, _⟩ => rfl
    | ⟨1, _⟩ => rfl)

/-- A row's maximum: the fold of `max` from the accumulator's value over the row's lanes. -/
theorem rowMax_apply {a b : ℕ} (src : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_row h p k)
  exact congrArg ((Finset.univ : Finset (Fin b)).fold max (Ideal.ofBits .f32 acc)) e

/-- A row's sum over its lanes. -/
theorem rowSum_apply {a b : ℕ} (src : FVec Ideal ⟨2, ![a, b]⟩ .f32) (acc : BitVec 32)
    (h : Shape.Reduces ⟨2, ![a, b]⟩ [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_row h p k)

/-! ## The pointwise operations not read elsewhere -/

/-- The exponential of a vector, at an index. -/
theorem exp_apply {s : Shape} {φ : FTy} (x : FVec Ideal s φ) (i : s.Idx) : (exp x : FVec Ideal s φ) i = Ideal.exp (x i) := rfl

/-! ## The body's matrix products -/

/-- The body's products carry the plain dimension numbers: contract the left operand's axis 1 with the right's axis 0. -/
theorem dot_eq_plain : dot_S1024x32_S32x32_S1024x32_1_0_0_1_n_n = DotDims.plain 1024 32 32 := rfl

/-- Entry `(p, q)` of a product of the body, into the zero accumulator: `∑ j, lhs (p, j) * rhs (j, q)`. -/
theorem matmul_body_apply {φ₁ φ₂ : FTy} (lhs : FVec Ideal S1024x32 φ₁) (rhs : FVec Ideal S32x32 φ₂) (p : Fin 1024) (q : Fin 32) :
    matmul dot_S1024x32_S32x32_S1024x32_1_0_0_1_n_n none lhs rhs (constant (F := Ideal) S1024x32 .f32 0x00000000#32) (ix2 p q)
      = ∑ j : Fin 32, lhs (ix2 p j) * rhs (ix2 j q) := by
  rw [dot_eq_plain]
  exact matmul_plain_apply none lhs rhs p q

/-! ## The network on one row -/

/-- A row against a weight matrix: entry `j` is `∑ k, x k * w (k, j)`. -/
def mmRow {K J : ℕ} (x : Fin K → EReal) (w : Mat K J) (j : Fin J) : EReal := ∑ k : Fin K, x k * w (ix2 k j)

/-- One dense layer on a row: the product, plus the bias, clipped below at 0. -/
def layerRow {K J : ℕ} (x : Fin K → EReal) (w : Mat K J) (b : Row J) (j : Fin J) : EReal := max (mmRow x w j + b (ix1 j)) 0

/-- The convolution's output on a row: the aggregate scaled by the row's scale, plus the bias, clipped at 0. -/
def convRow (d : EReal) (s : Fin 32 → EReal) (bg : Row 32) (j : Fin 32) : EReal := max (d * s j + bg (ix1 j)) 0

/-- The policy's first layer before clipping, on a row: the two feature rows against the two halves of the weights. -/
def pre1Row (g x : Fin 32 → EReal) (Wa Wb : Mat 32 32) (b : Row 32) (j : Fin 32) : EReal :=
  (mmRow g Wa j + mmRow x Wb j) + b (ix1 j)

/-- The masked logits of a row from its first-layer pre-activation. -/
def logitsRow (p : Fin 32 → EReal) (Wp2 : Mat 32 32) (bp2 : Row 32) (Wpi : Mat 32 32) (bpi : Row 32) (rl : EReal)
    (a : Fin 32) : EReal :=
  (mmRow (layerRow (fun j => max (p j) 0) Wp2 bp2) Wpi a + bpi (ix1 a)) * rl

/-- The whole stage on one row: from the row's aggregate `z`, scaled features `y`, scale `d`, encoder features `x` and
    mask `rl` to the row's probabilities. -/
def policyRow (z y : Fin 32 → EReal) (d : EReal) (x : Fin 32 → EReal) (bg : Row 32) (Wgd : Mat 32 32) (bgd : Row 32)
    (Wa Wb : Mat 32 32) (bp1 : Row 32) (Wp2 : Mat 32 32) (bp2 : Row 32) (Wpi : Mat 32 32) (bpi : Row 32) (rl : EReal)
    (a : Fin 32) : EReal :=
  Spec.softmaxAt
    (logitsRow (pre1Row (layerRow (convRow d (fun j => z j + y j) bg) Wgd bgd) x Wa Wb bp1) Wp2 bp2 Wpi bpi rl)
    (Spec.rowMax (logitsRow (pre1Row (layerRow (convRow d (fun j => z j + y j) bg) Wgd bgd) x Wa Wb bp1) Wp2 bp2 Wpi bpi rl))
    a

/-- The specification at row `n` is the one-row network on row `n` of its operands: every sum in it runs over the
    features of that row alone. -/
theorem policyK_row (Z Y : Fin 8192 → Fin 32 → EReal) (d : Fin 8192 → EReal) (X : Fin 8192 → Fin 32 → EReal)
    (bg : Row 32) (Wgd : Mat 32 32) (bgd : Row 32) (Wa Wb : Mat 32 32) (bp1 : Row 32) (Wp2 : Mat 32 32) (bp2 : Row 32)
    (Wpi : Mat 32 32) (bpi : Row 32) (rl : Fin 8192 → EReal) (n : Fin 8192) (a : Fin 32) :
    Spec.policyK Z Y d X bg Wgd bgd Wa Wb bp1 Wp2 bp2 Wpi bpi rl n a
      = policyRow (Z n) (Y n) (d n) (X n) bg Wgd bgd Wa Wb bp1 Wp2 bp2 Wpi bpi (rl n) a := rfl

/-! ## The body's stored value at an index -/

/-- The encoder's features against the second half of the first layer's weights. -/
theorem pay3_row (x3 : Vec Ideal S1024x32 .f32) (x8 : Vec Ideal S32x32 .f32) (p : Fin 1024) (q : Fin 32) :
    k3_pay3 x3 x8 (ix2 p q) = mmRow (fun j => x3 (ix2 p j)) x8 q := by
  unfold k3_pay3 mmRow
  simp only [shapeCast_self, matmul_body_apply, truncf_apply]

/-- The convolution's output through its dense layer, against the first half of the first layer's weights: the scale
    column broadcast over the lanes reads the row's scale, each bias row broadcast over the rows reads its lane, and
    the literal the clippings compare with is 0. -/
theorem pay2_row (x0 x1 : Vec Ideal S1024x32 .f32) (x2 : Vec Ideal S1024x1 .f32) (x4 : Vec Ideal S32 .f32)
    (x5 : Vec Ideal S32x32 .f32) (x6 : Vec Ideal S32 .f32) (x7 : Vec Ideal S32x32 .f32) (p : Fin 1024) (q : Fin 32) :
    k3_pay2 x0 x1 x2 x4 x5 x6 x7 (ix2 p q)
      = mmRow (layerRow (convRow (x2 (ix2 p (0 : Fin 1))) (fun j => x0 (ix2 p j) + x1 (ix2 p j)) x4) x5 x6) x7 q := by
  unfold k3_pay2 mmRow layerRow convRow mmRow
  simp only [shapeCast_self, matmul_body_apply, truncf_apply, maximumf_apply, addf_apply, mulf_apply, broadcast_apply,
    broadcastTo_1b_ab_apply, shapeCast_a_1a_apply, broadcastTo_a1_ab_apply, Ideal.ofBits_def, Ideal.ofBits_zero_f32]

/-- THE SOFTMAX ALONG A ROW, for any block of logits `L` whose row `p` is `l`: the row's maximum is taken by a fold
    from −∞, kept as a column and broadcast back over the lanes; it is subtracted; the exponentials are summed along the
    row, the sum kept as a column and broadcast back; and the exponentials are divided by it. Entry `(p, q)` is the
    softmax of `l` against its maximum, at `q`. (The format fact and the two accumulator facts are hypotheses, so that
    the statement is about whatever proofs the body carries.) -/
theorem softmax_block_apply (L : FVec Ideal S1024x32 .f32) (l : Fin 32 → EReal) (hφ : FKind.Formats .f32)
    (hmax : (0xFF800000#32 : BitVec 32) = FKind.maximumf.neutral .f32 hφ)
    (hadd : (0x00000000#32 : BitVec 32) = FKind.add.neutral .f32 hφ)
    (p : Fin 1024) (q : Fin 32) (hL : ∀ k, L (ix2 p k) = l k) :
    divf
      (exp (subf L (broadcastTo S1024x32 (shapeCast S1024x1
        (multiReduction .maximumf [1] S1024 L 0xFF800000#32 reduces_S1024x32_S1024 hφ hmax)
        shapeCasts_S1024_S1024x1) broadcasts_S1024x1_S1024x32)))
      (broadcastTo S1024x32 (shapeCast S1024x1
        (multiReduction .add [1] S1024
          (exp (subf L (broadcastTo S1024x32 (shapeCast S1024x1
            (multiReduction .maximumf [1] S1024 L 0xFF800000#32 reduces_S1024x32_S1024 hφ hmax)
            shapeCasts_S1024_S1024x1) broadcasts_S1024x1_S1024x32)))
          0x00000000#32 reduces_S1024x32_S1024 hφ hadd)
        shapeCasts_S1024_S1024x1) broadcasts_S1024x1_S1024x32)
      (ix2 p q)
      = Spec.softmaxAt l (Spec.rowMax l) q := by
  have hm : ∀ q' : Fin 32,
      broadcastTo S1024x32 (shapeCast S1024x1
        (multiReduction .maximumf [1] S1024 L 0xFF800000#32 reduces_S1024x32_S1024 hφ hmax)
        shapeCasts_S1024_S1024x1) broadcasts_S1024x1_S1024x32 (ix2 p q') = Spec.rowMax l := fun q' => by
    rw [broadcastTo_a1_ab_apply, shapeCast_a_a1_apply]
    refine (rowMax_apply L _ _ hφ hmax p).trans ?_
    unfold Spec.rowMax
    exact congrArg (fun f => (Finset.univ : Finset (Fin 32)).fold max Spec.NEG f) (funext hL)
  unfold Spec.softmaxAt
  rw [divf_apply, exp_apply, subf_apply, hm q, hL q, broadcastTo_a1_ab_apply, shapeCast_a_a1_apply]
  refine congrArg (Ideal.div _) ?_
  refine (rowSum_apply _ _ _ hφ hadd p).trans ?_
  refine Finset.sum_congr rfl fun k _ => ?_
  rw [exp_apply, subf_apply, hm k, hL k]

/-- From the first layer's two products to the probabilities: bias and clipping, two dense layers, the mask column
    broadcast over the lanes, then the softmax along the row — the row's maximum is kept as a column and broadcast back
    over the lanes, and so is the sum of the exponentials. -/
theorem pay1_row (v35 v37 : FVec Ideal S1024x32 .f32) (x9 : Vec Ideal S32 .f32) (x10 : Vec Ideal S32x32 .f32)
    (x11 : Vec Ideal S32 .f32) (x12 : Vec Ideal S32x32 .f32) (x13 : Vec Ideal S32 .f32) (x14 : Vec Ideal S1024x1 .f32)
    (p : Fin 1024) (q : Fin 32) :
    k3_pay1 v35 v37 x9 x10 x11 x12 x13 x14 (ix2 p q)
      = Spec.softmaxAt
          (logitsRow (fun j => (v35 (ix2 p j) + v37 (ix2 p j)) + x9 (ix1 j)) x10 x11 x12 x13 (x14 (ix2 p (0 : Fin 1))))
          (Spec.rowMax
            (logitsRow (fun j => (v35 (ix2 p j) + v37 (ix2 p j)) + x9 (ix1 j)) x10 x11 x12 x13 (x14 (ix2 p (0 : Fin 1)))))
          q := by
  unfold k3_pay1
  refine softmax_block_apply _ _ _ _ _ p q (fun k => ?_)
  unfold logitsRow layerRow mmRow
  simp only [shapeCast_self, matmul_body_apply, truncf_apply, maximumf_apply, addf_apply, mulf_apply, broadcast_apply,
    broadcastTo_1b_ab_apply, shapeCast_a_1a_apply, broadcastTo_a1_ab_apply, Ideal.ofBits_def, Ideal.ofBits_zero_f32]

/-- THE ROW FUNCTION: entry `(p, q)` of the block the body stores is the one-row network on row `p` of the loaded
    blocks. -/
theorem pay_row (x0 x1 : Vec Ideal S1024x32 .f32) (x2 : Vec Ideal S1024x1 .f32) (x3 : Vec Ideal S1024x32 .f32)
    (x4 : Vec Ideal S32 .f32) (x5 : Vec Ideal S32x32 .f32) (x6 : Vec Ideal S32 .f32) (x7 x8 : Vec Ideal S32x32 .f32)
    (x9 : Vec Ideal S32 .f32) (x10 : Vec Ideal S32x32 .f32) (x11 : Vec Ideal S32 .f32) (x12 : Vec Ideal S32x32 .f32)
    (x13 : Vec Ideal S32 .f32) (x14 : Vec Ideal S1024x1 .f32) (p : Fin 1024) (q : Fin 32) :
    k3_pay1 (k3_pay2 x0 x1 x2 x4 x5 x6 x7) (k3_pay3 x3 x8) x9 x10 x11 x12 x13 x14 (ix2 p q)
      = policyRow (fun j => x0 (ix2 p j)) (fun j => x1 (ix2 p j)) (x2 (ix2 p (0 : Fin 1))) (fun j => x3 (ix2 p j))
          x4 x5 x6 x7 x8 x9 x10 x11 x12 x13 (x14 (ix2 p (0 : Fin 1))) q := by
  rw [pay1_row]
  simp only [pay2_row, pay3_row]
  rfl

end Cert.R3

end
-- ==== Proof.R3Final.lean ====
/-
  From the blocks to the array: the last stage's output array after the region.

  The region runs the body at 8 points. At point `t` the four row-blocked operands' blocks are rows
  `1024 * t … 1024 * t + 1023` of their arrays (the scale and the mask as columns), the weights' and biases' blocks are
  their whole arrays, and the body's result is written back to the same rows of the output. Since entry `(p, q)` of the
  body's result is the one-row network on row `p` of the blocks, what point `t` writes back is the block at `t` of ONE
  function `G` of the arrays: the specification at every row. The 8 blocks cover the output's 8192 rows (row `r` is
  in the block of point `r / 1024`), so the array ends holding `G`.
-/
import proofs.«159406_j42434276884964_2_alg».proof.Proof.Gen.KernelIdeal.Frame
import proofs.«159406_j42434276884964_2_alg».proof.Proof.R3Row
import Idealize.ShloMosaic.Lib.Pipeline.Value

noncomputable section

namespace Cert.R3

open Idealize.ShloMosaic Idealize.ShloMosaic.ValueIdx Idealize.ShloMosaic.TcCoe
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The region has 8 points. -/
theorem point_lt (t : Fin cfg3.N) : t.val < 8 := lt_of_lt_of_eq t.isLt N_3

/-- The printed index maps, decided over the 8 points: the four row-blocked operands, the two columns and the output
    move with the point on axis 0 and stay at 0 on axis 1; every weight and bias stays at block 0. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0
    ∧ win3_4.index t (0 : Fin 1) = 0
    ∧ win3_5.index t (0 : Fin 2) = 0
    ∧ win3_5.index t (1 : Fin 2) = 0
    ∧ win3_6.index t (0 : Fin 1) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 1) = 0
    ∧ win3_10.index t (0 : Fin 2) = 0
    ∧ win3_10.index t (1 : Fin 2) = 0
    ∧ win3_11.index t (0 : Fin 1) = 0
    ∧ win3_12.index t (0 : Fin 2) = 0
    ∧ win3_12.index t (1 : Fin 2) = 0
    ∧ win3_13.index t (0 : Fin 1) = 0
    ∧ win3_14.index t (0 : Fin 2) = t.val
    ∧ win3_14.index t (1 : Fin 2) = 0
    ∧ win3_15.index t (0 : Fin 2) = t.val
    ∧ win3_15.index t (1 : Fin 2) = 0 :=
  (by decide +kernel : ∀ t : Fin grid3.N, _)

/-! ## Each input block read where the output's block says -/

/-- Row `p` of window 0's block at point `t` is row `1024 * t + p` of its array. -/
theorem blk0 (c : Dev nD) (t : Fin cfg3.N) (p : Fin 1024) (j : Fin 32) (n : Fin 8192) (hn : n.val = t.val * 1024 + p.val) :
    iblk3 V c 0 t (ix2 p j) = V c main_v6 (ix2 n j) := by
  show V c main_v6 (((cfg3.win 0).blk t).view.emb (ix2 p j)) = V c main_v6 (ix2 n j)
  refine congrArg (V c main_v6) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_0.index t (0 : Fin 2) * 1024 + 1 * p.val = n.val; omega
  | ⟨1, _⟩ => show win3_0.index t (1 : Fin 2) * 32 + 1 * j.val = j.val; omega

/-- Row `p` of window 1's block at point `t` is row `1024 * t + p` of its array. -/
theorem blk1 (c : Dev nD) (t : Fin cfg3.N) (p : Fin 1024) (j : Fin 32) (n : Fin 8192) (hn : n.val = t.val * 1024 + p.val) :
    iblk3 V c 1 t (ix2 p j) = V c main_v5 (ix2 n j) := by
  show V c main_v5 (((cfg3.win 1).blk t).view.emb (ix2 p j)) = V c main_v5 (ix2 n j)
  refine congrArg (V c main_v5) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_1.index t (0 : Fin 2) * 1024 + 1 * p.val = n.val; omega
  | ⟨1, _⟩ => show win3_1.index t (1 : Fin 2) * 32 + 1 * j.val = j.val; omega

/-- Entry `p` of window 2's column block at point `t` is entry `1024 * t + p` of its column. -/
theorem blk2 (c : Dev nD) (t : Fin cfg3.N) (p : Fin 1024) (n : Fin 8192) (hn : n.val = t.val * 1024 + p.val) :
    iblk3 V c 2 t (ix2 p (0 : Fin 1)) = V c main_v3 (ix2 n (0 : Fin 1)) := by
  show V c main_v3 (((cfg3.win 2).blk t).view.emb (ix2 p (0 : Fin 1))) = V c main_v3 (ix2 n (0 : Fin 1))
  refine congrArg (V c main_v3) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_2.index t (0 : Fin 2) * 1024 + 1 * p.val = n.val; omega
  | ⟨1, _⟩ => show win3_2.index t (1 : Fin 2) * 1 + 1 * 0 = 0; omega

/-- Row `p` of window 3's block at point `t` is row `1024 * t + p` of its array. -/
theorem blk3 (c : Dev nD) (t : Fin cfg3.N) (p : Fin 1024) (j : Fin 32) (n : Fin 8192) (hn : n.val = t.val * 1024 + p.val) :
    iblk3 V c 3 t (ix2 p j) = V c main_v0_0 (ix2 n j) := by
  show V c main_v0_0 (((cfg3.win 3).blk t).view.emb (ix2 p j)) = V c main_v0_0 (ix2 n j)
  refine congrArg (V c main_v0_0) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_3.index t (0 : Fin 2) * 1024 + 1 * p.val = n.val; omega
  | ⟨1, _⟩ => show win3_3.index t (1 : Fin 2) * 32 + 1 * j.val = j.val; omega

/-- Window 4's block is its whole array at every point. -/
theorem blk4 (c : Dev nD) (t : Fin cfg3.N) : iblk3 V c 4 t = V c main_arg8 := by
  funext y
  show V c main_arg8 (((cfg3.win 4).blk t).view.emb y) = V c main_arg8 y
  refine congrArg (V c main_arg8) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_4.index t (0 : Fin 1) * 32 + 1 * (y 0).val = (y 0).val; omega

/-- Window 5's block is its whole array at every point. -/
theorem blk5 (c : Dev nD) (t : Fin cfg3.N) : iblk3 V c 5 t = V c main_arg9 := by
  funext y
  show V c main_arg9 (((cfg3.win 5).blk t).view.emb y) = V c main_arg9 y
  refine congrArg (V c main_arg9) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_5.index t (0 : Fin 2) * 32 + 1 * (y 0).val = (y 0).val; omega
  | ⟨1, _⟩ => show win3_5.index t (1 : Fin 2) * 32 + 1 * (y 1).val = (y 1).val; omega

/-- Window 6's block is its whole array at every point. -/
theorem blk6 (c : Dev nD) (t : Fin cfg3.N) : iblk3 V c 6 t = V c main_arg10 := by
  funext y
  show V c main_arg10 (((cfg3.win 6).blk t).view.emb y) = V c main_arg10 y
  refine congrArg (V c main_arg10) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_6.index t (0 : Fin 1) * 32 + 1 * (y 0).val = (y 0).val; omega

/-- Window 7's block is its whole array at every point. -/
theorem blk7 (c : Dev nD) (t : Fin cfg3.N) : iblk3 V c 7 t = V c main_v8 := by
  funext y
  show V c main_v8 (((cfg3.win 7).blk t).view.emb y) = V c main_v8 y
  refine congrArg (V c main_v8) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_7.index t (0 : Fin 2) * 32 + 1 * (y 0).val = (y 0).val; omega
  | ⟨1, _⟩ => show win3_7.index t (1 : Fin 2) * 32 + 1 * (y 1).val = (y 1).val; omega

/-- Window 8's block is its whole array at every point. -/
theorem blk8 (c : Dev nD) (t : Fin cfg3.N) : iblk3 V c 8 t = V c main_v9 := by
  funext y
  show V c main_v9 (((cfg3.win 8).blk t).view.emb y) = V c main_v9 y
  refine congrArg (V c main_v9) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_8.index t (0 : Fin 2) * 32 + 1 * (y 0).val = (y 0).val; omega
  | ⟨1, _⟩ => show win3_8.index t (1 : Fin 2) * 32 + 1 * (y 1).val = (y 1).val; omega

/-- Window 9's block is its whole array at every point. -/
theorem blk9 (c : Dev nD) (t : Fin cfg3.N) : iblk3 V c 9 t = V c main_arg12 := by
  funext y
  show V c main_arg12 (((cfg3.win 9).blk t).view.emb y) = V c main_arg12 y
  refine congrArg (V c main_arg12) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_9.index t (0 : Fin 1) * 32 + 1 * (y 0).val = (y 0).val; omega

/-- Window 10's block is its whole array at every point. -/
theorem blk10 (c : Dev nD) (t : Fin cfg3.N) : iblk3 V c 10 t = V c main_arg13 := by
  funext y
  show V c main_arg13 (((cfg3.win 10).blk t).view.emb y) = V c main_arg13 y
  refine congrArg (V c main_arg13) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_10.index t (0 : Fin 2) * 32 + 1 * (y 0).val = (y 0).val; omega
  | ⟨1, _⟩ => show win3_10.index t (1 : Fin 2) * 32 + 1 * (y 1).val = (y 1).val; omega

/-- Window 11's block is its whole array at every point. -/
theorem blk11 (c : Dev nD) (t : Fin cfg3.N) : iblk3 V c 11 t = V c main_arg14 := by
  funext y
  show V c main_arg14 (((cfg3.win 11).blk t).view.emb y) = V c main_arg14 y
  refine congrArg (V c main_arg14) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_11.index t (0 : Fin 1) * 32 + 1 * (y 0).val = (y 0).val; omega

/-- Window 12's block is its whole array at every point. -/
theorem blk12 (c : Dev nD) (t : Fin cfg3.N) : iblk3 V c 12 t = V c main_arg15 := by
  funext y
  show V c main_arg15 (((cfg3.win 12).blk t).view.emb y) = V c main_arg15 y
  refine congrArg (V c main_arg15) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_12.index t (0 : Fin 2) * 32 + 1 * (y 0).val = (y 0).val; omega
  | ⟨1, _⟩ => show win3_12.index t (1 : Fin 2) * 32 + 1 * (y 1).val = (y 1).val; omega

/-- Window 13's block is its whole array at every point. -/
theorem blk13 (c : Dev nD) (t : Fin cfg3.N) : iblk3 V c 13 t = V c main_arg16 := by
  funext y
  show V c main_arg16 (((cfg3.win 13).blk t).view.emb y) = V c main_arg16 y
  refine congrArg (V c main_arg16) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_13.index t (0 : Fin 1) * 32 + 1 * (y 0).val = (y 0).val; omega

/-- Entry `p` of window 14's column block at point `t` is entry `1024 * t + p` of its column. -/
theorem blk14 (c : Dev nD) (t : Fin cfg3.N) (p : Fin 1024) (n : Fin 8192) (hn : n.val = t.val * 1024 + p.val) :
    iblk3 V c 14 t (ix2 p (0 : Fin 1)) = V c main_v7 (ix2 n (0 : Fin 1)) := by
  show V c main_v7 (((cfg3.win 14).blk t).view.emb (ix2 p (0 : Fin 1))) = V c main_v7 (ix2 n (0 : Fin 1))
  refine congrArg (V c main_v7) (funext fun a => Fin.ext ?_)
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  match a with
  | ⟨0, _⟩ => show win3_14.index t (0 : Fin 2) * 1024 + 1 * p.val = n.val; omega
  | ⟨1, _⟩ => show win3_14.index t (1 : Fin 2) * 1 + 1 * 0 = 0; omega

/-! ## The output array as one function of the arrays the region finds -/

/-- The specification at every index of the output: row `i 0`, lane `i 1`. -/
def G (c : Dev nD) : S8192x32.Idx → EReal := fun i =>
  Spec.policyK (fun n j => V c main_v6 (ix2 n j)) (fun n j => V c main_v5 (ix2 n j))
    (fun n => V c main_v3 (ix2 n (0 : Fin 1))) (fun n j => V c main_v0_0 (ix2 n j))
    (V c main_arg8) (V c main_arg9) (V c main_arg10) (V c main_v8) (V c main_v9) (V c main_arg12)
    (V c main_arg13) (V c main_arg14) (V c main_arg15) (V c main_arg16)
    (fun n => V c main_v7 (ix2 n (0 : Fin 1)))
    ⟨(i 0).val, (i 0).isLt⟩ ⟨(i 1).val, (i 1).isLt⟩

/-- At an index given by coordinates `G` is the specification at that row and lane. -/
theorem G_apply (c : Dev nD) (n : Fin 8192) (a : Fin 32) :
    G V c (ix2 n a) = Spec.policyK (fun n j => V c main_v6 (ix2 n j)) (fun n j => V c main_v5 (ix2 n j))
    (fun n => V c main_v3 (ix2 n (0 : Fin 1))) (fun n j => V c main_v0_0 (ix2 n j))
    (V c main_arg8) (V c main_arg9) (V c main_arg10) (V c main_v8) (V c main_v9) (V c main_arg12)
    (V c main_arg13) (V c main_arg14) (V c main_arg15) (V c main_arg16)
    (fun n => V c main_v7 (ix2 n (0 : Fin 1))) n a := rfl

/-- WHAT POINT `t` WRITES BACK is block `t` of `G`: the body's stored value at `(p, q)` is the one-row network on row
    `p` of the blocks, the output's block puts `(p, q)` at `(1024 * t + p, q)`, and there the specification is the
    one-row network on that row of the arrays, which the blocks' rows are. -/
theorem flushed_eq (c : Dev nD) (t : Fin cfg3.N) :
    (dat3 (F := Ideal) V c).flushed 15 t = ((cfg3.win 15).blk t).view.read (Elt Ideal) (G V c) := by
  show (cfg3.win 15).cut (grid3.coords t) ((dat3 (F := Ideal) V c).after 15 t) = _
  rw [after3_15]
  unfold out3_15
  rw [View.canon_unit_zero hz2]
  simp only [View.ld_unit_zero (S := S1024x32) hz2, View.ld_unit_zero (S := S1024x1) hz2, View.ld_unit_zero (S := S32) hz1,
    View.ld_unit_zero (S := S32x32) hz2]
  funext j
  obtain ⟨p, q, rfl⟩ : ∃ (p : Fin 1024) (q : Fin 32), j = ix2 p q := ⟨j 0, j 1, eq_ix2 j⟩
  have hp : p.val < 1024 := p.isLt
  have ht : t.val < 8 := point_lt t
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  show k3_pay1 (k3_pay2 (iblk3 V c 0 t) (iblk3 V c 1 t) (iblk3 V c 2 t) (iblk3 V c 4 t) (iblk3 V c 5 t) (iblk3 V c 6 t) (iblk3 V c 7 t))
      (k3_pay3 (iblk3 V c 3 t) (iblk3 V c 8 t)) (iblk3 V c 9 t) (iblk3 V c 10 t) (iblk3 V c 11 t) (iblk3 V c 12 t)
      (iblk3 V c 13 t) (iblk3 V c 14 t) (ix2 p q)
    = G V c (((cfg3.win 15).blk t).view.emb (ix2 p q))
  refine (pay_row (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) p q).trans ?_
  obtain ⟨n, hn⟩ : ∃ n : Fin 8192, n.val = t.val * 1024 + p.val := ⟨⟨t.val * 1024 + p.val, by omega⟩, rfl⟩
  have he : ((cfg3.win 15).blk t).view.emb (ix2 p q) = (ix2 n q : S8192x32.Idx) :=
    funext fun a => Fin.ext (by
      match a with
      | ⟨0, _⟩ => show win3_15.index t (0 : Fin 2) * 1024 + 1 * p.val = n.val; omega
      | ⟨1, _⟩ => show win3_15.index t (1 : Fin 2) * 32 + 1 * q.val = q.val; omega)
  rw [he, G_apply, policyK_row]
  simp only [blk0 V c t p _ n hn, blk1 V c t p _ n hn, blk2 V c t p n hn, blk3 V c t p _ n hn, blk4 V c t, blk5 V c t, blk6 V c t, blk7 V c t, blk8 V c t, blk9 V c t, blk10 V c t, blk11 V c t, blk12 V c t, blk13 V c t, blk14 V c t p n hn]

/-! ## The blocks cover the output -/

/-- An index of the output is in point `t`'s block iff each coordinate is in the block's range on its axis. -/
theorem mem_blk (t : Fin cfg3.N) (i : S8192x32.Idx) :
    i ∈ ((cfg3.win 15).blk t).view.set ↔ ∀ a : Fin 2, win3_15.index t a * S1024x32.size a ≤ (i a).val
      ∧ (i a).val < win3_15.index t a * S1024x32.size a + S1024x32.size a := by
  show i ∈ ((View.whole main_v10).slice (win3_15.rect t)).set ↔ _
  rw [View.set_slice_whole, Rect.mem_set_unit]
  exact Iff.rfl

/-- Row `r` of the output is in the block of point `r / 1024`, and every point writes its block back. -/
theorem cover (i : S8192x32.Idx) :
    ∃ t : Fin cfg3.N, (cfg3.win 15).flush t = true ∧ i ∈ ((cfg3.win 15).blk t).view.set := by
  have hi0 : (i 0).val < 8192 := (i 0).isLt
  have hi1 : (i 1).val < 32 := (i 1).isLt
  have hN : cfg3.N = 8 := N_3
  obtain ⟨t, ht⟩ : ∃ t : Fin cfg3.N, t.val = (i 0).val / 1024 := ⟨⟨(i 0).val / 1024, by rw [hN]; omega⟩, rfl⟩
  obtain ⟨e0_0, e0_1, e1_0, e1_1, e2_0, e2_1, e3_0, e3_1, e4_0, e5_0, e5_1, e6_0, e7_0, e7_1, e8_0, e8_1, e9_0, e10_0, e10_1, e11_0, e12_0, e12_1, e13_0, e14_0, e14_1, e15_0, e15_1⟩ := idx_facts t
  refine ⟨t, flush3_15 t, ?_⟩
  rw [mem_blk]
  intro a
  match a with
  | ⟨0, _⟩ =>
    show win3_15.index t (0 : Fin 2) * 1024 ≤ (i 0).val ∧ (i 0).val < win3_15.index t (0 : Fin 2) * 1024 + 1024
    omega
  | ⟨1, _⟩ =>
    show win3_15.index t (1 : Fin 2) * 32 ≤ (i 1).val ∧ (i 1).val < win3_15.index t (1 : Fin 2) * 32 + 32
    omega

/-! ## The array after the region -/

/-- The output array ends holding `G`: every point's write-back is its block of `G`, and the blocks cover the array. -/
theorem final_arr (c : Dev nD) : (dat3 (F := Ideal) V c).arrAt 15 cfg3.N = G V c :=
  (dat3 (F := Ideal) V c).arrAt_eq_of_cover 15 (G V c) (fun t _ => flushed_eq V c t) cover

/-- THE LAST STAGE'S OUTPUT, entry by entry: the specification's `policyK` of the arrays the region finds. -/
theorem final_out (c : Dev nD) (n : Fin 8192) (a : Fin 32) :
    ((dat3 (F := Ideal) V c).arrAt 15 cfg3.N) (ix2 n a) =
      Cert.Spec.policyK (fun n j => V c main_v6 (ix2 n j)) (fun n j => V c main_v5 (ix2 n j))
    (fun n => V c main_v3 (ix2 n (0 : Fin 1))) (fun n j => V c main_v0_0 (ix2 n j))
    (V c main_arg8) (V c main_arg9) (V c main_arg10) (V c main_v8) (V c main_v9) (V c main_arg12)
    (V c main_arg13) (V c main_arg14) (V c main_arg15) (V c main_arg16)
    (fun n => V c main_v7 (ix2 n (0 : Fin 1))) n a :=
  (congrFun (final_arr V c) (ix2 n a)).trans (G_apply V c n a)

end Cert.R3

end
-- ==== Proof.KernelValue.lean ====
/-
  The idealized kernel program's result as one function of the argument arrays: the last region's output, with each of its
  operands read back — the aggregate over the adjacency matrix of the scaled features, the scaled features (the degree
  region's inverse square root times the encoder's second output), the scale as a column, the encoder's first output, the
  mask as a column, the two halves of the first policy matrix, and the other weights as launched.
-/
import proofs.«159406_j42434276884964_2_alg».proof.Proof.HostVals
import proofs.«159406_j42434276884964_2_alg».proof.Proof.Spec
import proofs.«159406_j42434276884964_2_alg».proof.Proof.R0
import proofs.«159406_j42434276884964_2_alg».proof.Proof.R1Final
import proofs.«159406_j42434276884964_2_alg».proof.Proof.R2Agg
import proofs.«159406_j42434276884964_2_alg».proof.Proof.R3Final

set_option maxRecDepth 16384

noncomputable section

namespace Cert.KernelIdeal.Chain

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The degree region's row holds the inverse square roots of the adjacency matrix's column sums plus one. -/
theorem dinv_row (n : Fin 8192) :
    (W2 m ρ c (Proc.devRef .tc main_v1) : S1x8192.Idx → EReal) (ix2 (0 : Fin 1) n) = Cert.Spec.dinvK (m ((c : Thread nD τ).loc main_arg1)) n := by
  rw [W2_v1, Cert.R1.final_dinv (V1 m ρ) c n, V1_arg1]

/-- The encoder's second output as the first host stretch finds it. -/
theorem xw_mat (n : Fin 8192) (j : Fin 32) :
    (W2 m ρ c (Proc.devRef .tc main_v0_1) : S8192x32.Idx → EReal) (ix2 n j)
      = Cert.Spec.encXW (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) n j := by
  rw [W2_v0_1]; exact Cert.R0.final_XW (V0 m ρ) c n j

/-- The scaled features. -/
theorem y_mat (n : Fin 8192) (j : Fin 32) :
    (V3 m ρ c main_v5 : S8192x32.Idx → EReal) (ix2 n j)
      = Cert.Spec.dinvK (m ((c : Thread nD τ).loc main_arg1)) n * Cert.Spec.encXW (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) n j := by
  exact V3_v5_apply m ρ c (Cert.Spec.dinvK (m ((c : Thread nD τ).loc main_arg1))) (Cert.Spec.encXW (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (dinv_row m ρ c) (xw_mat m ρ c) n j

/-- The result array, entry by entry. -/
theorem kernel_value (n : Fin 8192) (a : Fin 32) :
    (W6 m ρ c (Proc.devRef .tc main_v10) : S8192x32.Idx → EReal) (ix2 n a)
      = Cert.Spec.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
          (V5 m ρ c main_v8) (V5 m ρ c main_v9) (m ((c : Thread nD τ).loc main_arg12)) (m ((c : Thread nD τ).loc main_arg13)) (m ((c : Thread nD τ).loc main_arg14)) (m ((c : Thread nD τ).loc main_arg15)) (m ((c : Thread nD τ).loc main_arg16)) n a := by
  rw [W6_v10, Cert.R3.final_out (V5 m ρ) c n a]
  have hX : (fun n j => (V5 m ρ c main_v0_0 : S8192x32.Idx → EReal) (ix2 n j)) = Cert.Spec.encX (m ((c : Thread nD τ).loc main_arg0)) (m ((c : Thread nD τ).loc main_arg3)) (m ((c : Thread nD τ).loc main_arg4)) (m ((c : Thread nD τ).loc main_arg5)) (m ((c : Thread nD τ).loc main_arg6)) := by
    funext n j; rw [V5_v0_0]; exact Cert.R0.final_X (V0 m ρ) c n j
  have hY : (fun n j => (V5 m ρ c main_v5 : S8192x32.Idx → EReal) (ix2 n j))
      = fun n j => Cert.Spec.dinvK (m ((c : Thread nD τ).loc main_arg1)) n * Cert.Spec.encXW (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) n j := by
    funext n j; rw [V5_v5, y_mat]
  have hd : (fun n => (V5 m ρ c main_v3 : S8192x1.Idx → EReal) (ix2 n (0 : Fin 1))) = Cert.Spec.dinvK (m ((c : Thread nD τ).loc main_arg1)) := by
    funext n; rw [V5_v3, V3_v3_apply, dinv_row]
  have hZ : (fun n j => (V5 m ρ c main_v6 : S8192x32.Idx → EReal) (ix2 n j))
      = Cert.Spec.gcnZ (m ((c : Thread nD τ).loc main_arg1)) (fun n j => Cert.Spec.dinvK (m ((c : Thread nD τ).loc main_arg1)) n * Cert.Spec.encXW (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) n j) := by
    funext n j
    rw [V5_v6, Cert.R2.final_Z (V3 m ρ) c n j, V3_arg1]
    refine congrArg (fun Y => Cert.Spec.gcnZ (m ((c : Thread nD τ).loc main_arg1)) Y n j) ?_
    funext r k; exact y_mat m ρ c r k
  have hrl : (fun n => (V5 m ρ c main_v7 : S8192x1.Idx → EReal) (ix2 n (0 : Fin 1))) = fun n => (m ((c : Thread nD τ).loc main_arg2)) (ix1 n) := by
    funext n; rw [V5_v7_apply]
  rw [hX, hY, hd, hZ, hrl, V5_arg8, V5_arg9, V5_arg10, V5_arg12, V5_arg13, V5_arg14, V5_arg15, V5_arg16]
  rfl

end Cert.KernelIdeal.Chain

end
-- ==== Proof.RefRead.lean ====
import proofs.«159406_j42434276884964_2_alg».proof.Proof.Gen.ReferenceIdeal.Read
import proofs.«159406_j42434276884964_2_alg».proof.Proof.Spec

/-!
  The reference program read at an index, one named intermediate at a time, against the shared specification:
  encoder, graph weights, the identity matrix, degrees, guarded inverse square roots, the aggregate over the
  adjacency matrix with the identity added, the convolution, the three policy layers over the joined features,
  the masked logits, the row maximum and the softmax.
-/

noncomputable section

open scoped BigOperators

namespace Cert.Ref

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## Words: the identity matrix's entry, and the zero literal -/

/-- Two row numbers below 8192 with the same 32-bit word are equal. -/
theorem ofNat32_inj (r c : Fin 8192) (h : BitVec.ofNat 32 r.val = BitVec.ofNat 32 c.val) : r = c := by
  have h2 := congrArg BitVec.toNat h
  simp only [BitVec.toNat_ofNat] at h2
  have hr := r.isLt
  have hc := c.isLt
  exact Fin.ext (by omega)

/-- The comparison "row + 0 = column" as a bit. -/
theorem cmpi_eq_word (r c : Fin 8192) :
    IntOp.cmpi .eq (IntOp.addi (BitVec.ofNat 32 r.val) 0#32) (BitVec.ofNat 32 c.val) = if r = c then 1#1 else 0#1 := by
  show BitVec.ofBool (BitVec.ofNat 32 r.val + 0#32 == BitVec.ofNat 32 c.val) = _
  rw [BitVec.add_zero]
  by_cases h : r = c
  · subst h; rw [if_pos rfl, beq_self_eq_true]; rfl
  · rw [if_neg h, beq_false_of_ne (fun e => h (ofNat32_inj r c e))]; rfl

/-- The bit 1 read as a float is 1 … -/
theorem uitofp_one : (FloatOps.uitofp (F := Ideal) .f32 (1#1) : EReal) = 1 := by
  show (((1#1 : BitVec 1).toNat : ℝ) : EReal) = 1
  simp
/-- … and the bit 0 is 0. -/
theorem uitofp_zero : (FloatOps.uitofp (F := Ideal) .f32 (0#1) : EReal) = 0 := by
  show (((0#1 : BitVec 1).toNat : ℝ) : EReal) = 0
  simp

/-! ## Index equations: the generated index functions at explicit coordinates -/

theorem lidx0 (n : Fin 8192) (j : Fin 32) (k : Fin 128) : lidx_main_v0 (ix2 n j) k = ix2 n k :=
  funext fun a => Fin.ext (by match a with | ⟨0, _⟩ => rfl | ⟨1, _⟩ => rfl)
theorem ridx0 (n : Fin 8192) (j : Fin 32) (k : Fin 128) : ridx_main_v0 (ix2 n j) k = ix2 k j :=
  funext fun a => Fin.ext (by match a with | ⟨0, _⟩ => rfl | ⟨1, _⟩ => rfl)
theorem lidx5 (n : Fin 8192) (j : Fin 32) (k : Fin 32) : lidx_main_v5 (ix2 n j) k = ix2 n k :=
  funext fun a => Fin.ext (by match a with | ⟨0, _⟩ => rfl | ⟨1, _⟩ => rfl)
theorem ridx5 (n : Fin 8192) (j : Fin 32) (k : Fin 32) : ridx_main_v5 (ix2 n j) k = ix2 k j :=
  funext fun a => Fin.ext (by match a with | ⟨0, _⟩ => rfl | ⟨1, _⟩ => rfl)
theorem lidx22 (n : Fin 8192) (j : Fin 32) (k : Fin 32) : lidx_main_v22 (ix2 n j) k = ix2 n k :=
  funext fun a => Fin.ext (by match a with | ⟨0, _⟩ => rfl | ⟨1, _⟩ => rfl)
theorem ridx22 (n : Fin 8192) (j : Fin 32) (k : Fin 32) : ridx_main_v22 (ix2 n j) k = ix2 k j :=
  funext fun a => Fin.ext (by match a with | ⟨0, _⟩ => rfl | ⟨1, _⟩ => rfl)
theorem lidx35 (n : Fin 8192) (j : Fin 32) (k : Fin 32) : lidx_main_v35 (ix2 n j) k = ix2 n k :=
  funext fun a => Fin.ext (by match a with | ⟨0, _⟩ => rfl | ⟨1, _⟩ => rfl)
theorem ridx35 (n : Fin 8192) (j : Fin 32) (k : Fin 32) : ridx_main_v35 (ix2 n j) k = ix2 k j :=
  funext fun a => Fin.ext (by match a with | ⟨0, _⟩ => rfl | ⟨1, _⟩ => rfl)
theorem lidx46 (n : Fin 8192) (j : Fin 32) (k : Fin 32) : lidx_main_v46 (ix2 n j) k = ix2 n k :=
  funext fun a => Fin.ext (by match a with | ⟨0, _⟩ => rfl | ⟨1, _⟩ => rfl)
theorem ridx46 (n : Fin 8192) (j : Fin 32) (k : Fin 32) : ridx_main_v46 (ix2 n j) k = ix2 k j :=
  funext fun a => Fin.ext (by match a with | ⟨0, _⟩ => rfl | ⟨1, _⟩ => rfl)
theorem lidx51 (n : Fin 8192) (j : Fin 32) (k : Fin 32) : lidx_main_v51 (ix2 n j) k = ix2 n k :=
  funext fun a => Fin.ext (by match a with | ⟨0, _⟩ => rfl | ⟨1, _⟩ => rfl)
theorem ridx51 (n : Fin 8192) (j : Fin 32) (k : Fin 32) : ridx_main_v51 (ix2 n j) k = ix2 k j :=
  funext fun a => Fin.ext (by match a with | ⟨0, _⟩ => rfl | ⟨1, _⟩ => rfl)
theorem lidx28 (n : Fin 8192) (j : Fin 32) (k : Fin 8192) : lidx_main_v28 (ix2 n j) k = ix2 n k :=
  funext fun a => Fin.ext (by match a with | ⟨0, _⟩ => rfl | ⟨1, _⟩ => rfl)
theorem ridx28 (n : Fin 8192) (j : Fin 32) (k : Fin 8192) : ridx_main_v28 (ix2 n j) k = ix2 k j :=
  funext fun a => Fin.ext (by match a with | ⟨0, _⟩ => rfl | ⟨1, _⟩ => rfl)
theorem lidx41 (n : Fin 8192) (j : Fin 32) (k : Fin 64) : lidx_main_v41 (ix2 n j) k = ix2 n k :=
  funext fun a => Fin.ext (by match a with | ⟨0, _⟩ => rfl | ⟨1, _⟩ => rfl)
theorem ridx41 (n : Fin 8192) (j : Fin 32) (k : Fin 64) : ridx_main_v41 (ix2 n j) k = ix2 k j :=
  funext fun a => Fin.ext (by match a with | ⟨0, _⟩ => rfl | ⟨1, _⟩ => rfl)
theorem bias1_2 (n : Fin 8192) (j : Fin 32) : idx_main_v1 (idx_main_v2 (ix2 n j)) = ix1 j :=
  funext fun a => Fin.ext (by match a with | ⟨0, _⟩ => rfl)
theorem bias6_7 (n : Fin 8192) (j : Fin 32) : idx_main_v6 (idx_main_v7 (ix2 n j)) = ix1 j :=
  funext fun a => Fin.ext (by match a with | ⟨0, _⟩ => rfl)
theorem bias31_32 (n : Fin 8192) (j : Fin 32) : idx_main_v31 (idx_main_v32 (ix2 n j)) = ix1 j :=
  funext fun a => Fin.ext (by match a with | ⟨0, _⟩ => rfl)
theorem bias36_37 (n : Fin 8192) (j : Fin 32) : idx_main_v36 (idx_main_v37 (ix2 n j)) = ix1 j :=
  funext fun a => Fin.ext (by match a with | ⟨0, _⟩ => rfl)
theorem bias42_43 (n : Fin 8192) (j : Fin 32) : idx_main_v42 (idx_main_v43 (ix2 n j)) = ix1 j :=
  funext fun a => Fin.ext (by match a with | ⟨0, _⟩ => rfl)
theorem bias47_48 (n : Fin 8192) (j : Fin 32) : idx_main_v47 (idx_main_v48 (ix2 n j)) = ix1 j :=
  funext fun a => Fin.ext (by match a with | ⟨0, _⟩ => rfl)
theorem bias52_53 (n : Fin 8192) (j : Fin 32) : idx_main_v52 (idx_main_v53 (ix2 n j)) = ix1 j :=
  funext fun a => Fin.ext (by match a with | ⟨0, _⟩ => rfl)
theorem col25_26 (n : Fin 8192) (j : Fin 32) : idx_main_v25 (idx_main_v26 (ix2 n j)) = ix1 n :=
  funext fun a => Fin.ext (by match a with | ⟨0, _⟩ => rfl)
theorem col23_29 (n : Fin 8192) (j : Fin 32) : idx_main_v23 (idx_main_v29 (ix2 n j)) = ix1 n :=
  funext fun a => Fin.ext (by match a with | ⟨0, _⟩ => rfl)
theorem col55_56 (n : Fin 8192) (j : Fin 32) : idx_main_v55 (idx_main_v56 (ix2 n j)) = ix1 n :=
  funext fun a => Fin.ext (by match a with | ⟨0, _⟩ => rfl)
theorem col61_62 (n : Fin 8192) (j : Fin 32) : idx_main_v61 (idx_main_v62 (ix2 n j)) = ix1 n :=
  funext fun a => Fin.ext (by match a with | ⟨0, _⟩ => rfl)
theorem col66_67 (n : Fin 8192) (j : Fin 32) : idx_main_v66 (idx_main_v67 (ix2 n j)) = ix1 n :=
  funext fun a => Fin.ext (by match a with | ⟨0, _⟩ => rfl)
theorem idx24 (c k : Fin 8192) : idx_main_v24 (ix2 c k) = ix2 k c :=
  funext fun a => Fin.ext (by match a with | ⟨0, _⟩ => rfl | ⟨1, _⟩ => rfl)
theorem idx17 (c k : Fin 8192) : idx_main_v17 (ix1 c) k = ix2 k c :=
  funext fun a => Fin.ext (by match a with | ⟨0, _⟩ => rfl | ⟨1, _⟩ => rfl)
theorem idx65 (n : Fin 8192) (k : Fin 32) : idx_main_v65 (ix1 n) k = ix2 n k :=
  funext fun a => Fin.ext (by match a with | ⟨0, _⟩ => rfl | ⟨1, _⟩ => rfl)

/-! ## The clipping constant of each relu call is 0 -/

theorem zero_call0 (i : S8192x32.Idx) : (val_main_call0_v0 (F := Ideal) i : EReal) = 0 := by
  rw [val_main_call0_v0_apply, val_main_call0_cst_apply]; exact Ideal.ofBits_zero_f32
theorem zero_call1 (i : S8192x32.Idx) : (val_main_call1_v0 (F := Ideal) i : EReal) = 0 := by
  rw [val_main_call1_v0_apply, val_main_call1_cst_apply]; exact Ideal.ofBits_zero_f32
theorem zero_call3 (i : S8192x32.Idx) : (val_main_call3_v0 (F := Ideal) i : EReal) = 0 := by
  rw [val_main_call3_v0_apply, val_main_call3_cst_apply]; exact Ideal.ofBits_zero_f32
theorem zero_call4 (i : S8192x32.Idx) : (val_main_call4_v0 (F := Ideal) i : EReal) = 0 := by
  rw [val_main_call4_v0_apply, val_main_call4_cst_apply]; exact Ideal.ofBits_zero_f32
theorem zero_call5 (i : S8192x32.Idx) : (val_main_call5_v0 (F := Ideal) i : EReal) = 0 := by
  rw [val_main_call5_v0_apply, val_main_call5_cst_apply]; exact Ideal.ofBits_zero_f32
theorem zero_call6 (i : S8192x32.Idx) : (val_main_call6_v0 (F := Ideal) i : EReal) = 0 := by
  rw [val_main_call6_v0_apply, val_main_call6_cst_apply]; exact Ideal.ofBits_zero_f32

/-! ## The stages -/

variable (x0 : (⟨S8192x128, .f32⟩ : BufTy).Contents (Elt Ideal)) (x1 : (⟨S8192x8192, .f32⟩ : BufTy).Contents (Elt Ideal)) (x2 : (⟨S8192, .f32⟩ : BufTy).Contents (Elt Ideal)) (x3 : (⟨S128x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal)) (x11 : (⟨S64x32, .f32⟩ : BufTy).Contents (Elt Ideal)) (x12 : (⟨S32, .f32⟩ : BufTy).Contents (Elt Ideal)) (x13 : (⟨S32x32, .f32⟩ : BufTy).Contents (Elt Ideal)) (x14 : (⟨S32, .f32⟩ : BufTy).Contents (Elt Ideal)) (x15 : (⟨S32x32, .f32⟩ : BufTy).Contents (Elt Ideal)) (x16 : (⟨S32, .f32⟩ : BufTy).Contents (Elt Ideal))

/-- The encoder's first layer. -/
theorem v4_at (n : Fin 8192) (j : Fin 32) :
    (val_main_v4 (F := Ideal) x0 x3 x4 (ix2 n j) : EReal) = Spec.layer (fun n f => x0 (ix2 n f)) x3 x4 n j := by
  rw [val_main_v4_apply, val_main_v3_apply, val_main_v0_apply, val_main_v2_apply, val_main_v1_apply, zero_call0]
  simp only [Ideal.maximumf_def, Ideal.addf_def, lidx0, ridx0, bias1_2]
  rfl

/-- The encoder's output. -/
theorem v9_at (n : Fin 8192) (j : Fin 32) :
    (val_main_v9 (F := Ideal) x0 x3 x4 x5 x6 (ix2 n j) : EReal) = Spec.encX x0 x3 x4 x5 x6 n j := by
  rw [val_main_v9_apply, val_main_v8_apply, val_main_v5_apply, val_main_v7_apply, val_main_v6_apply, zero_call1]
  simp only [Ideal.maximumf_def, Ideal.addf_def, lidx5, ridx5, bias6_7, v4_at]
  rfl

/-- The encoder's output times the graph weights. -/
theorem v22_at (n : Fin 8192) (j : Fin 32) :
    (val_main_v22 (F := Ideal) x0 x3 x4 x5 x6 x7 (ix2 n j) : EReal) = Spec.encXW x0 x3 x4 x5 x6 x7 n j := by
  rw [val_main_v22_apply]
  simp only [lidx22, ridx22, v9_at]
  rfl

/-- The identity matrix: "row number = column number" as a 0/1 float. -/
theorem v15_at (r c : Fin 8192) : (val_main_v15 (F := Ideal) (ix2 r c) : EReal) = Spec.eye r c := by
  rw [val_main_v15_apply, val_main_v14_apply, val_main_v13_apply, val_main_v10_apply, val_main_v11_apply, val_main_v12_apply,
    val_main_c_apply]
  show FloatOps.uitofp (F := Ideal) .f32
    (IntOp.cmpi .eq (IntOp.addi (BitVec.ofNat 32 r.val) 0#32) (BitVec.ofNat 32 c.val)) = _
  rw [cmpi_eq_word]
  unfold Spec.eye
  by_cases h : r = c
  · rw [if_pos h, if_pos h]; exact uitofp_one
  · rw [if_neg h, if_neg h]; exact uitofp_zero

/-- The adjacency matrix with the identity added. -/
theorem v16_at (r c : Fin 8192) : (val_main_v16 (F := Ideal) x1 (ix2 r c) : EReal) = x1 (ix2 r c) + Spec.eye r c := by
  rw [val_main_v16_apply, v15_at]
  rfl

/-- Its column sums: the degrees. -/
theorem v17_at (c : Fin 8192) : (val_main_v17 (F := Ideal) x1 (ix1 c) : EReal) = Spec.degR x1 c := by
  rw [val_main_v17_apply, val_main_cst_apply]
  simp only [idx17, v16_at]
  unfold Spec.degR
  rw [Ideal.ofBits_def, Ideal.ofBits_zero_f32, zero_add]

/-- The guarded inverse square root of a degree. -/
theorem v21_at (c : Fin 8192) : (val_main_v21 (F := Ideal) x1 (ix1 c) : EReal) = Spec.dinvR x1 c := by
  rw [val_main_v21_apply, val_main_v19_apply, val_main_v20_apply, val_main_v18_apply, val_main_cst_0_apply,
    val_main_call2_v1_apply, val_main_call2_v0_apply, val_main_cst_1_apply, v17_at]
  rw [Ideal.ofBits_def, Ideal.ofBits_zero_f32, Ideal.hostUnary_rsqrt_def, Ideal.cmpf_def]
  have hc : Ideal.cmp .ogt (Spec.degR x1 c) 0 = BitVec.ofBool (decide (0 < Spec.degR x1 c)) := rfl
  rw [hc]
  unfold Spec.dinvR
  by_cases h : 0 < Spec.degR x1 c
  · rw [if_pos h, decide_eq_true h]; exact select_one _ _
  · rw [if_neg h, decide_eq_false h]; exact select_zero _ _

/-- The scaled features: the guarded scale times the encoder's image under the graph weights. -/
theorem v27_at (n : Fin 8192) (j : Fin 32) :
    (val_main_v27 (F := Ideal) x0 x1 x3 x4 x5 x6 x7 (ix2 n j) : EReal) = Spec.dinvR x1 n * Spec.encXW x0 x3 x4 x5 x6 x7 n j := by
  rw [val_main_v27_apply, val_main_v26_apply, val_main_v25_apply, col25_26, v21_at, v22_at]
  rfl

/-- The transposed matrix with the identity added. -/
theorem v24_at (c k : Fin 8192) : (val_main_v24 (F := Ideal) x1 (ix2 c k) : EReal) = x1 (ix2 k c) + Spec.eye k c := by
  rw [val_main_v24_apply, idx24, v16_at]

/-- The aggregate over the matrix with the identity added. -/
theorem v28_at (c : Fin 8192) (j : Fin 32) :
    (val_main_v28 (F := Ideal) x0 x1 x3 x4 x5 x6 x7 (ix2 c j) : EReal) = Spec.aggR x1 (fun n j => Spec.dinvR x1 n * Spec.encXW x0 x3 x4 x5 x6 x7 n j) c j := by
  rw [val_main_v28_apply]
  simp only [lidx28, ridx28, v24_at, v27_at]
  rfl

/-- The convolution's output. -/
theorem v34_at (n : Fin 8192) (j : Fin 32) :
    (val_main_v34 (F := Ideal) x0 x1 x3 x4 x5 x6 x7 x8 (ix2 n j) : EReal) = Spec.conv (Spec.dinvR x1) (Spec.aggR x1 (fun n j => Spec.dinvR x1 n * Spec.encXW x0 x3 x4 x5 x6 x7 n j)) x8 n j := by
  rw [val_main_v34_apply, val_main_v33_apply, val_main_v30_apply, val_main_v29_apply, val_main_v23_apply, col23_29, v21_at,
    v28_at, val_main_v32_apply, val_main_v31_apply, bias31_32, zero_call3]
  rfl

/-- The dense layer on the convolution's output. -/
theorem v39_at (n : Fin 8192) (j : Fin 32) :
    (val_main_v39 (F := Ideal) x0 x1 x3 x4 x5 x6 x7 x8 x9 x10 (ix2 n j) : EReal) = Spec.layer (Spec.conv (Spec.dinvR x1) (Spec.aggR x1 (fun n j => Spec.dinvR x1 n * Spec.encXW x0 x3 x4 x5 x6 x7 n j)) x8) x9 x10 n j := by
  rw [val_main_v39_apply, val_main_v38_apply, val_main_v35_apply, val_main_v37_apply, val_main_v36_apply, bias36_37, zero_call4]
  simp only [Ideal.maximumf_def, Ideal.addf_def, lidx35, ridx35, v34_at]
  rfl

/-- Two [8192, 32] blocks joined along axis 1, read at (n, k): the first block where k < 32, the second at k − 32 elsewhere. -/
theorem cat_at (g x : S8192x32.Idx → EReal) (h : Shape.Concatenates [S8192x32, S8192x32] S8192x64 1) (n : Fin 8192) (k : Fin 64) :
    concatenate S8192x64 1 [⟨S8192x32, g⟩, ⟨S8192x32, x⟩] h (ix2 n k)
      = Spec.cat (fun n j => g (ix2 n j)) (fun n j => x (ix2 n j)) n k := by
  unfold Spec.cat
  by_cases hk : k.val < 32
  · rw [dif_pos hk]
    exact concatenate_pair_apply_left 1 g x h (ix2 n k) rfl (ix2 n (⟨k.val, hk⟩ : Fin 32))
      (fun b => by match b with | ⟨0, _⟩ => rfl | ⟨1, _⟩ => rfl)
  · rw [dif_neg hk]
    exact concatenate_pair_apply_right 1 g x h (ix2 n k) rfl rfl (ix2 n (⟨k.val - 32, by omega⟩ : Fin 32))
      (fun b hb => by match b with | ⟨0, _⟩ => rfl | ⟨1, _⟩ => exact absurd rfl hb)
      (by show (k.val - 32) + 32 = k.val; omega)

/-- The joined features. -/
theorem v40_at (n : Fin 8192) (k : Fin 64) :
    (val_main_v40 (F := Ideal) x0 x1 x3 x4 x5 x6 x7 x8 x9 x10 (ix2 n k) : EReal) = Spec.cat (Spec.layer (Spec.conv (Spec.dinvR x1) (Spec.aggR x1 (fun n j => Spec.dinvR x1 n * Spec.encXW x0 x3 x4 x5 x6 x7 n j)) x8) x9 x10) (Spec.encX x0 x3 x4 x5 x6) n k := by
  unfold val_main_v40
  rw [cat_at]
  have e1 : (fun n j => (val_main_v39 (F := Ideal) x0 x1 x3 x4 x5 x6 x7 x8 x9 x10 (ix2 n j) : EReal)) = (Spec.layer (Spec.conv (Spec.dinvR x1) (Spec.aggR x1 (fun n j => Spec.dinvR x1 n * Spec.encXW x0 x3 x4 x5 x6 x7 n j)) x8) x9 x10) :=
    funext fun n => funext fun j => v39_at x0 x1 x3 x4 x5 x6 x7 x8 x9 x10 n j
  have e2 : (fun n j => (val_main_v9 (F := Ideal) x0 x3 x4 x5 x6 (ix2 n j) : EReal)) = (Spec.encX x0 x3 x4 x5 x6) :=
    funext fun n => funext fun j => v9_at x0 x3 x4 x5 x6 n j
  rw [e1, e2]

/-- The policy's first layer before clipping. -/
theorem v44_at (n : Fin 8192) (j : Fin 32) :
    (val_main_v44 (F := Ideal) x0 x1 x3 x4 x5 x6 x7 x8 x9 x10 x11 x12 (ix2 n j) : EReal) = Spec.pre1R (Spec.layer (Spec.conv (Spec.dinvR x1) (Spec.aggR x1 (fun n j => Spec.dinvR x1 n * Spec.encXW x0 x3 x4 x5 x6 x7 n j)) x8) x9 x10) (Spec.encX x0 x3 x4 x5 x6) x11 x12 n j := by
  rw [val_main_v44_apply, val_main_v41_apply, val_main_v43_apply, val_main_v42_apply, bias42_43]
  simp only [Ideal.addf_def, lidx41, ridx41, v40_at]
  rfl

/-- … and clipped. -/
theorem v45_at (n : Fin 8192) (j : Fin 32) :
    (val_main_v45 (F := Ideal) x0 x1 x3 x4 x5 x6 x7 x8 x9 x10 x11 x12 (ix2 n j) : EReal) = max (Spec.pre1R (Spec.layer (Spec.conv (Spec.dinvR x1) (Spec.aggR x1 (fun n j => Spec.dinvR x1 n * Spec.encXW x0 x3 x4 x5 x6 x7 n j)) x8) x9 x10) (Spec.encX x0 x3 x4 x5 x6) x11 x12 n j) 0 := by
  rw [val_main_v45_apply, v44_at, zero_call5]
  rfl

/-- The policy's second layer. -/
theorem v50_at (n : Fin 8192) (j : Fin 32) :
    (val_main_v50 (F := Ideal) x0 x1 x3 x4 x5 x6 x7 x8 x9 x10 x11 x12 x13 x14 (ix2 n j) : EReal) = Spec.layer (fun n j => max ((Spec.pre1R (Spec.layer (Spec.conv (Spec.dinvR x1) (Spec.aggR x1 (fun n j => Spec.dinvR x1 n * Spec.encXW x0 x3 x4 x5 x6 x7 n j)) x8) x9 x10) (Spec.encX x0 x3 x4 x5 x6) x11 x12) n j) 0) x13 x14 n j := by
  rw [val_main_v50_apply, val_main_v49_apply, val_main_v46_apply, val_main_v48_apply, val_main_v47_apply, bias47_48, zero_call6]
  simp only [Ideal.maximumf_def, Ideal.addf_def, lidx46, ridx46, v45_at]
  rfl

/-- The masked logits. -/
theorem v57_at (n : Fin 8192) (a : Fin 32) :
    (val_main_v57 (F := Ideal) x0 x1 x2 x3 x4 x5 x6 x7 x8 x9 x10 x11 x12 x13 x14 x15 x16 (ix2 n a) : EReal) = Spec.logits (Spec.pre1R (Spec.layer (Spec.conv (Spec.dinvR x1) (Spec.aggR x1 (fun n j => Spec.dinvR x1 n * Spec.encXW x0 x3 x4 x5 x6 x7 n j)) x8) x9 x10) (Spec.encX x0 x3 x4 x5 x6) x11 x12) x13 x14 x15 x16 (fun n => x2 (ix1 n)) n a := by
  rw [val_main_v57_apply, val_main_v54_apply, val_main_v51_apply, val_main_v53_apply, val_main_v52_apply, bias52_53,
    val_main_v56_apply, val_main_v55_apply, col55_56]
  simp only [Ideal.mulf_def, Ideal.addf_def, lidx51, ridx51, v50_at]
  rfl

/-- The reduced index n with the column k put back is (n, k). -/
theorem lift_row (h : S8192x32.Reduces [1] S8192) (n : Fin 8192) (k : Fin (S8192x32.size 1)) :
    h.lift (ix1 n) k = ix2 n (⟨k.val, k.isLt⟩ : Fin 32) := by
  funext c; apply Fin.ext
  match c with
  | ⟨0, _⟩ => rfl
  | ⟨1, _⟩ => rfl

/-- A reduce with a maximum body along axis 1, read at row n: the fold of max over the row from the initial value. -/
theorem rowmax_at (x : S8192x32.Idx → EReal) (init : S_.Idx → EReal) (h' : S8192x32.ReducesTo [1] S8192) (hu : 0 < S_.numel)
    (n : Fin 8192) :
    Host.reduce (FloatOps.maximumf (F := Ideal) (φ := .f32)) x init h' hu (ix1 n)
      = (Finset.univ : Finset (Fin 32)).fold max (init (Shape.Idx.first hu)) (fun a => x (ix2 n a)) := by
  have h : S8192x32.Reduces [1] S8192 := by decide
  rw [Host.reduce_eq_fold_single (FloatOps.maximumf (F := Ideal) (φ := .f32)) x init h' h hu]
  have hf : (x ∘ h.lift (ix1 n)) = fun k : Fin 32 => x (ix2 n k) := funext fun k => congrArg x (lift_row h n k)
  exact congrArg (fun f => Finset.fold max (init (Shape.Idx.first hu)) f (Finset.univ : Finset (Fin 32))) hf

/-- The row maximum of the logits, folded from −∞. -/
theorem v58_at (n : Fin 8192) :
    (val_main_v58 (F := Ideal) x0 x1 x2 x3 x4 x5 x6 x7 x8 x9 x10 x11 x12 x13 x14 x15 x16 (ix1 n) : EReal) = Spec.rowMax (Spec.logits (Spec.pre1R (Spec.layer (Spec.conv (Spec.dinvR x1) (Spec.aggR x1 (fun n j => Spec.dinvR x1 n * Spec.encXW x0 x3 x4 x5 x6 x7 n j)) x8) x9 x10) (Spec.encX x0 x3 x4 x5 x6) x11 x12) x13 x14 x15 x16 (fun n => x2 (ix1 n)) n) := by
  unfold val_main_v58
  rw [rowmax_at, val_main_cst_2_apply, Ideal.ofBits_def]
  have e : (fun a => (val_main_v57 (F := Ideal) x0 x1 x2 x3 x4 x5 x6 x7 x8 x9 x10 x11 x12 x13 x14 x15 x16 (ix2 n a) : EReal)) = Spec.logits (Spec.pre1R (Spec.layer (Spec.conv (Spec.dinvR x1) (Spec.aggR x1 (fun n j => Spec.dinvR x1 n * Spec.encXW x0 x3 x4 x5 x6 x7 n j)) x8) x9 x10) (Spec.encX x0 x3 x4 x5 x6) x11 x12) x13 x14 x15 x16 (fun n => x2 (ix1 n)) n :=
    funext fun a => v57_at x0 x1 x2 x3 x4 x5 x6 x7 x8 x9 x10 x11 x12 x13 x14 x15 x16 n a
  rw [e]
  rfl

/-- The shift: the maximum of −∞ and the row maximum. -/
theorem v60_at (n : Fin 8192) :
    (val_main_v60 (F := Ideal) x0 x1 x2 x3 x4 x5 x6 x7 x8 x9 x10 x11 x12 x13 x14 x15 x16 (ix1 n) : EReal) = max Spec.NEG (Spec.rowMax (Spec.logits (Spec.pre1R (Spec.layer (Spec.conv (Spec.dinvR x1) (Spec.aggR x1 (fun n j => Spec.dinvR x1 n * Spec.encXW x0 x3 x4 x5 x6 x7 n j)) x8) x9 x10) (Spec.encX x0 x3 x4 x5 x6) x11 x12) x13 x14 x15 x16 (fun n => x2 (ix1 n)) n)) := by
  rw [val_main_v60_apply, val_main_v59_apply, val_main_cst_3_apply, v58_at]
  rfl

/-- The exponential of a shifted logit. -/
theorem v64_at (n : Fin 8192) (a : Fin 32) :
    (val_main_v64 (F := Ideal) x0 x1 x2 x3 x4 x5 x6 x7 x8 x9 x10 x11 x12 x13 x14 x15 x16 (ix2 n a) : EReal) = Ideal.exp (Spec.logits (Spec.pre1R (Spec.layer (Spec.conv (Spec.dinvR x1) (Spec.aggR x1 (fun n j => Spec.dinvR x1 n * Spec.encXW x0 x3 x4 x5 x6 x7 n j)) x8) x9 x10) (Spec.encX x0 x3 x4 x5 x6) x11 x12) x13 x14 x15 x16 (fun n => x2 (ix1 n)) n a - (max Spec.NEG (Spec.rowMax (Spec.logits (Spec.pre1R (Spec.layer (Spec.conv (Spec.dinvR x1) (Spec.aggR x1 (fun n j => Spec.dinvR x1 n * Spec.encXW x0 x3 x4 x5 x6 x7 n j)) x8) x9 x10) (Spec.encX x0 x3 x4 x5 x6) x11 x12) x13 x14 x15 x16 (fun n => x2 (ix1 n)) n)))) := by
  rw [val_main_v64_apply, val_main_v63_apply, v57_at, val_main_v62_apply, val_main_v61_apply, col61_62, v60_at]
  rfl

/-- The row's sum of exponentials. -/
theorem v65_at (n : Fin 8192) :
    (val_main_v65 (F := Ideal) x0 x1 x2 x3 x4 x5 x6 x7 x8 x9 x10 x11 x12 x13 x14 x15 x16 (ix1 n) : EReal) = ∑ a' : Fin 32, Ideal.exp (Spec.logits (Spec.pre1R (Spec.layer (Spec.conv (Spec.dinvR x1) (Spec.aggR x1 (fun n j => Spec.dinvR x1 n * Spec.encXW x0 x3 x4 x5 x6 x7 n j)) x8) x9 x10) (Spec.encX x0 x3 x4 x5 x6) x11 x12) x13 x14 x15 x16 (fun n => x2 (ix1 n)) n a' - (max Spec.NEG (Spec.rowMax (Spec.logits (Spec.pre1R (Spec.layer (Spec.conv (Spec.dinvR x1) (Spec.aggR x1 (fun n j => Spec.dinvR x1 n * Spec.encXW x0 x3 x4 x5 x6 x7 n j)) x8) x9 x10) (Spec.encX x0 x3 x4 x5 x6) x11 x12) x13 x14 x15 x16 (fun n => x2 (ix1 n)) n)))) := by
  rw [val_main_v65_apply, val_main_cst_4_apply]
  simp only [idx65, v64_at]
  rw [Ideal.ofBits_def, Ideal.ofBits_zero_f32, zero_add]

/-- The reference program's result at (n, a) is the specification's second arrangement. -/
theorem ref_out (n : Fin 8192) (a : Fin 32) :
    val_main_v68 (F := Ideal) x0 x1 x2 x3 x4 x5 x6 x7 x8 x9 x10 x11 x12 x13 x14 x15 x16 (ix2 n a) = Spec.outR x0 x1 x2 x3 x4 x5 x6 x7 x8 x9 x10 x11 x12 x13 x14 x15 x16 n a := by
  rw [val_main_v68_apply, v64_at, val_main_v67_apply, val_main_v66_apply, col66_67, v65_at]
  rfl

end Cert.Ref

end
-- ==== Proof.Consts.lean ====
/-
  The one float literal whose value the proof needs: the f32 word of 1.0 denotes the extended real 1.
  (The word of 0.0 is the library's `Ideal.ofBits_zero_f32`; the word of −∞ is never evaluated.)
-/
import Idealize.ShloMosaic.PureOps.Ideal

noncomputable section

namespace Cert.Consts

open Idealize.ShloMosaic

/-- Sign 0, biased exponent 127, fraction 0: the value is 2^23 · 2^(127 − 127 − 23) = 1. -/
theorem ofBits_one : Ideal.ofBits .f32 0x3F800000#32 = 1 := by
  simp [Ideal.ofBits, Ideal.ieee, -EReal.coe_mul]; norm_num

end Cert.Consts

end
-- ==== Proof.PreA.lean ====
/-
  The precondition read back at the extended reals: its last conjunct says every entry of the adjacency matrix
  equals 0 or equals 1.

  The printed predicate is a conjunction (a chain of `and` on one-bit words) whose last member is
  `all((A == 0) | (A == 1))`: two element-wise comparisons against broadcast constants, an element-wise `or`, and a
  reduction by `and` over both axes from the constant 1. If the whole conjunction is 1 then so is its last member;
  a reduction by `and` that is 1 met only 1s; an `or` that is 1 has a member that is 1; and an equality test on the
  extended reals that answers 1 is an equality. The seventeen finiteness tests that come before are never opened:
  they stay one unnamed one-bit word, the left operand of the last `and`.
-/
import proofs.«159406_j42434276884964_2_alg».proof.Pre_finite_inputs
import proofs.«159406_j42434276884964_2_alg».proof.Proof.Consts
import Idealize.ShloMosaic.Lib.ReduceAll
import Idealize.ShloMosaic.Lib.ValueIdx
import Idealize.ShloMosaic.PureOps.Ideal.Laws

noncomputable section

namespace Cert.PreA

open Idealize.ShloMosaic Idealize.ShloMosaic.ValueIdx
open Cert.Pre_finite_inputs

/-- The rank-0 shape has one index. -/
instance : Subsingleton S_.Idx := ⟨fun a b => funext fun d => d.elim0⟩

/-- An equality test on the extended reals that answers 1 is an equality. -/
theorem eq_of_cmp_oeq (x y : EReal) (h : Ideal.cmp .oeq x y = 1#1) : x = y := by
  unfold Ideal.cmp at h
  by_contra hne
  simp [hne] at h

/-- The last stage of the predicate, on its own: if it answers 1 at the one index of its result, and the array it is
    handed for the constant 0 is 0 everywhere, then every entry of the matrix is 0 or 1. -/
theorem binary_of_part5 [Facts] (A : FVec Ideal S8192x8192 .f32) (v83 : IVec S_ 1) (v84 : FVec Ideal S8192x8192 .f32)
    (hz : ∀ i, v84 i = 0) (h : fn_part5 (F := Ideal) A v83 v84 ix0 = 1#1) (i : S8192x8192.Idx) :
    A i = 0 ∨ A i = 1 := by
  unfold fn_part5 at h
  dsimp only at h
  -- the last `and`: its right operand, the reduction, is 1
  have h2 := (IntOp.andi_eq_one.1 h).2
  -- a reduction by `and` over every axis that is 1 met a 1 at every index
  have h3 := Host.reduce_andi_all _ _ _ _ _ h2 i
  -- the `or` of the two equality tests at index i
  rcases IntOp.ori_eq_one.1 h3 with h4 | h4
  · left
    rw [eq_of_cmp_oeq _ _ h4]; exact hz i
  · right
    rw [eq_of_cmp_oeq _ _ h4]; exact Cert.Consts.ofBits_one

/-- THE PRECONDITION DECODED: every entry of the adjacency matrix is 0 or 1. -/
theorem binary_of_pre [Facts]
    {a0 : FVec Ideal S8192x128 .f32} {a1 : FVec Ideal S8192x8192 .f32} {a2 : FVec Ideal S8192 .f32}
    {a3 : FVec Ideal S128x32 .f32} {a4 : FVec Ideal S32 .f32} {a5 : FVec Ideal S32x32 .f32} {a6 : FVec Ideal S32 .f32}
    {a7 : FVec Ideal S32x32 .f32} {a8 : FVec Ideal S32 .f32} {a9 : FVec Ideal S32x32 .f32} {a10 : FVec Ideal S32 .f32}
    {a11 : FVec Ideal S64x32 .f32} {a12 : FVec Ideal S32 .f32} {a13 : FVec Ideal S32x32 .f32} {a14 : FVec Ideal S32 .f32}
    {a15 : FVec Ideal S32x32 .f32} {a16 : FVec Ideal S32 .f32}
    (h : fn (F := Ideal) a0 a1 a2 a3 a4 a5 a6 a7 a8 a9 a10 a11 a12 a13 a14 a15 a16 = fun _ => 1#1)
    (r c : Fin 8192) : a1 (ix2 r c) = 0 ∨ a1 (ix2 r c) = 1 := by
  -- the predicate is a chain of five parts, each ending in the call of the next: open the first four, leaving the
  -- last part applied to the matrix, the conjunction so far, and the broadcast constant 0
  have e := congrFun h ix0
  dsimp only [fn, fn_part1, fn_part2, fn_part3, fn_part4] at e
  exact binary_of_part5 a1 _ _ (fun _ => Ideal.ofBits_zero_f32) e (ix2 r c)

end Cert.PreA

end
-- ==== Proof.Algebra.lean ====
/-
  The two arrangements of the network agree on an adjacency matrix with nonnegative entries.

  * Degrees. `∑ r, (A r c + [r = c]) = (∑ r, A r c) + 1`: a sum of sums splits (addition on the extended reals is
    commutative and associative), and the identity matrix's column sums to 1.
  * Scale. With `A ≥ 0` every degree is at least 1, so the guard `deg > 0` always holds and both scales are `deg^(-1/2)`.
  * Aggregate. `(a + e) · y = a · y + e · y` holds on the extended reals when `a, e ≥ 0`; summed over the rows,
    the identity's part picks out row `c`: `∑ r, (A r c + [r = c]) · Y r = (∑ r, A r c · Y r) + Y c`.
  * First policy layer. A sum over 64 joined features is the sum over the first 32 plus the sum over the last 32.
  * Softmax shift. A maximum folded from −∞ is at least −∞, so taking its maximum with −∞ again changes nothing.
-/
import proofs.«159406_j42434276884964_2_alg».proof.Proof.Spec
import Mathlib.Data.EReal.Operations
import Mathlib.Data.Finset.Fold

noncomputable section

open scoped BigOperators

namespace Cert.Spec

open Idealize.ShloMosaic Idealize.ShloMosaic.ValueIdx

/-- A column of the identity matrix sums to 1. -/
theorem sum_eye (c : Fin 8192) : ∑ r : Fin 8192, eye r c = 1 := by
  unfold eye
  rw [Finset.sum_ite_eq' Finset.univ c (fun _ => (1 : EReal))]
  simp

theorem degR_eq (A : Mat 8192 8192) (hONE : ONE = 1) (c : Fin 8192) : degR A c = degK A c := by
  unfold degR degK
  rw [Finset.sum_add_distrib, sum_eye, hONE]

theorem degK_pos (A : Mat 8192 8192) (hA : ∀ r c, 0 ≤ A (ix2 r c)) (hONE : ONE = 1) (c : Fin 8192) : 0 < degK A c := by
  unfold degK
  rw [hONE]
  have hs : (0 : EReal) ≤ ∑ r : Fin 8192, A (ix2 r c) := Finset.sum_nonneg fun r _ => hA r c
  exact lt_of_lt_of_le zero_lt_one (le_add_of_nonneg_left hs)

theorem dinvR_eq (A : Mat 8192 8192) (hA : ∀ r c, 0 ≤ A (ix2 r c)) (hONE : ONE = 1) : dinvR A = dinvK A := by
  funext c
  unfold dinvR dinvK
  rw [degR_eq A hONE c, if_pos (degK_pos A hA hONE c)]

theorem eye_nonneg (r c : Fin 8192) : 0 ≤ eye r c := by
  unfold eye; split <;> simp

/-- The identity's part of the aggregate is row `c`. -/
theorem sum_eye_mul (Y : Fin 8192 → Fin 32 → EReal) (c : Fin 8192) (j : Fin 32) :
    ∑ r : Fin 8192, eye r c * Y r j = Y c j := by
  rw [Finset.sum_eq_single c]
  · unfold eye; rw [if_pos rfl, one_mul]
  · intro r _ hr; unfold eye; rw [if_neg hr, zero_mul]
  · intro h; exact absurd (Finset.mem_univ c) h

theorem aggR_eq (A : Mat 8192 8192) (hA : ∀ r c, 0 ≤ A (ix2 r c)) (Y : Fin 8192 → Fin 32 → EReal) (c : Fin 8192) (j : Fin 32) :
    aggR A Y c j = gcnZ A Y c j + Y c j := by
  unfold aggR gcnZ
  rw [← sum_eye_mul Y c j, ← Finset.sum_add_distrib]
  exact Finset.sum_congr rfl fun r _ => EReal.right_distrib_of_nonneg (hA r c) (eye_nonneg r c)

/-- The sum over the 64 joined features splits at 32. -/
theorem pre1R_eq (g x : Fin 8192 → Fin 32 → EReal) (W : Mat 64 32) (Wa Wb : Mat 32 32) (b : Row 32)
    (hWa : ∀ (k j : Fin 32), Wa (ix2 k j) = W (ix2 (Fin.castAdd 32 k : Fin (32 + 32)) j))
    (hWb : ∀ (k j : Fin 32), Wb (ix2 k j) = W (ix2 (Fin.natAdd 32 k : Fin (32 + 32)) j)) :
    pre1R g x W b = pre1K g x Wa Wb b := by
  funext n j
  unfold pre1R pre1K mm
  have h : (∑ k : Fin (32 + 32), cat g x n k * W (ix2 k j))
      = (∑ k : Fin 32, g n k * Wa (ix2 k j)) + ∑ k : Fin 32, x n k * Wb (ix2 k j) := by
    rw [Fin.sum_univ_add]
    refine congrArg₂ (· + ·) (Finset.sum_congr rfl fun k _ => ?_) (Finset.sum_congr rfl fun k _ => ?_)
    · rw [hWa k j]; unfold cat
      rw [dif_pos (show (Fin.castAdd 32 k : Fin (32 + 32)).val < 32 from k.isLt)]
      rfl
    · rw [hWb k j]; unfold cat
      rw [dif_neg (show ¬ (Fin.natAdd 32 k : Fin (32 + 32)).val < 32 by simp [Fin.natAdd])]
      congr 2
      exact Fin.ext (by simp [Fin.natAdd])
  exact congrArg (· + b (ix1 j)) h

/-- The maximum with −∞ of a maximum folded from −∞ is that maximum. -/
theorem max_NEG_rowMax (l : Fin 32 → EReal) : max NEG (rowMax l) = rowMax l :=
  max_eq_right ((Finset.le_fold_max _).mpr (Or.inl le_rfl))

/-- The two programs' results agree, entry by entry, on a nonnegative adjacency matrix. -/
theorem outR_eq_outK (Xin : Mat 8192 128) (A : Mat 8192 8192) (rl : Row 8192) (We1 : Mat 128 32) (be1 : Row 32) (We2 : Mat 32 32)
    (be2 : Row 32) (Wg : Mat 32 32) (bg : Row 32) (Wgd : Mat 32 32) (bgd : Row 32) (Wp1 : Mat 64 32) (Wa Wb : Mat 32 32) (bp1 : Row 32)
    (Wp2 : Mat 32 32) (bp2 : Row 32) (Wpi : Mat 32 32) (bpi : Row 32)
    (hWa : ∀ (k j : Fin 32), Wa (ix2 k j) = Wp1 (ix2 (Fin.castAdd 32 k : Fin (32 + 32)) j))
    (hWb : ∀ (k j : Fin 32), Wb (ix2 k j) = Wp1 (ix2 (Fin.natAdd 32 k : Fin (32 + 32)) j))
    (hA : ∀ r c, 0 ≤ A (ix2 r c)) (hONE : ONE = 1) (n : Fin 8192) (a : Fin 32) :
    outR Xin A rl We1 be1 We2 be2 Wg bg Wgd bgd Wp1 bp1 Wp2 bp2 Wpi bpi n a
      = outK Xin A rl We1 be1 We2 be2 Wg bg Wgd bgd Wa Wb bp1 Wp2 bp2 Wpi bpi n a := by
  unfold outR outK policyK
  dsimp only
  rw [max_NEG_rowMax, dinvR_eq A hA hONE, pre1R_eq _ _ Wp1 Wa Wb bp1 hWa hWb]
  have hagg : aggR A (fun n j => dinvK A n * encXW Xin We1 be1 We2 be2 Wg n j)
      = fun n j => gcnZ A (fun n j => dinvK A n * encXW Xin We1 be1 We2 be2 Wg n j) n j
          + dinvK A n * encXW Xin We1 be1 We2 be2 Wg n j := by
    funext c j; exact aggR_eq A hA _ c j
  rw [hagg]

end Cert.Spec

end
-- ==== Proof.Claims.lean ====
/-
  The five claims.

  The three frames: the two kernel programs terminate without fault and leave their arguments alone (the regions' and the host
  stretches' segments in sequence); the reference is a straight line of host operations, and its run with the result dropped
  is its frame. The ideal pass rewrote nothing, so nothing is to be preserved.

  The value claim. The idealized kernel program ends with the network in its first arrangement — inverse square roots of the
  adjacency matrix's column sums plus one, features scaled by them, the aggregate over the adjacency matrix plus the scaled
  features themselves — at the argument arrays; the reference ends with the second arrangement — the identity added to the
  matrix first, a guard on the degree's sign. The precondition says every entry of the adjacency matrix is 0 or 1, hence
  nonnegative, and on such a matrix the two arrangements are one function.
-/
import proofs.«159406_j42434276884964_2_alg».proof.Defs
import proofs.«159406_j42434276884964_2_alg».proof.Proof.Gen.Kernel.Frame
import proofs.«159406_j42434276884964_2_alg».proof.Proof.Gen.KernelIdeal.Frame
import proofs.«159406_j42434276884964_2_alg».proof.Proof.Gen.ReferenceIdeal.Read
import proofs.«159406_j42434276884964_2_alg».proof.Proof.Gen.Pre_finite_inputs
import proofs.«159406_j42434276884964_2_alg».proof.Proof.RunValue
import proofs.«159406_j42434276884964_2_alg».proof.Proof.KernelValue
import proofs.«159406_j42434276884964_2_alg».proof.Proof.RefRead
import proofs.«159406_j42434276884964_2_alg».proof.Proof.PreA
import proofs.«159406_j42434276884964_2_alg».proof.Proof.Algebra
import proofs.«159406_j42434276884964_2_alg».proof.Proof.Consts

noncomputable section

namespace Cert.Proof.Claims

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both programs end with the same array: the kernel program's result is the first arrangement of the network at the
    argument arrays, the reference's the second, and on a 0/1 adjacency matrix the two arrangements agree. -/
theorem algebraic : Cert.algebraic_KernelIdeal_ReferenceIdeal := by
  intro m ρ m' ρ' hpre hagree
  refine ⟨fun c => Cert.KernelIdeal.Gen.W6 m ρ c (Proc.devRef .tc Cert.KernelIdeal.main_v10),
    Cert.KernelIdeal.RunV.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v68_eq, h0, h1, h2, h3, h4, h5, h6, h7, h8, h9, h10, h11, h12, h13, h14, h15, h16]
  funext i
  obtain ⟨n, a, rfl⟩ : ∃ (n : Fin 8192) (a : Fin 32), i = ix2 n a := ⟨i 0, i 1, eq_ix2 i⟩
  have hA : ∀ r cc : Fin 8192, (0 : EReal) ≤ (m ((c.tc : Thread Cert.KernelIdeal.nD Cert.KernelIdeal.τ).loc Cert.KernelIdeal.main_arg1) : Cert.Spec.Mat 8192 8192) (ix2 r cc) := by
    intro r cc
    rcases Cert.PreA.binary_of_pre (hpre c) r cc with h | h
    · exact le_of_eq h.symm
    · exact le_of_lt (lt_of_lt_of_eq zero_lt_one h.symm)
  rw [Cert.Ref.ref_out,
    Cert.Spec.outR_eq_outK _ _ _ _ _ _ _ _ _ _ _ _
      (Cert.KernelIdeal.Gen.V5 m ρ c Cert.KernelIdeal.main_v8) (Cert.KernelIdeal.Gen.V5 m ρ c Cert.KernelIdeal.main_v9) _ _ _ _ _
      (Cert.KernelIdeal.Chain.V5_v8_apply m ρ c) (Cert.KernelIdeal.Chain.V5_v9_apply m ρ c) hA Cert.Consts.ofBits_one]
  exact (Cert.KernelIdeal.Chain.kernel_value m ρ c n a).symm

end Cert.Proof.Claims

end
-- ==== Proof.lean ====
/- Two programs for one small graph network — an encoder, one graph convolution with symmetric degree normalisation, a policy
   head and a row softmax — are shown to compute the same probabilities on the extended reals whenever the adjacency matrix
   has entries 0 or 1: the kernel program (four pipelined regions among host operations) and the plain reference. The frames
   are the regions' and host stretches' runs in sequence; the value claim reads each region's output as a function of the
   arguments, reads the reference one operation at a time, and joins the two by the algebra of the convolution's two
   arrangements (Proof/Algebra.lean). -/
import proofs.«159406_j42434276884964_2_alg».proof.Defs
import proofs.«159406_j42434276884964_2_alg».proof.Proof.Gen.Kernel
import proofs.«159406_j42434276884964_2_alg».proof.Proof.Gen.Kernel.Skeleton
import proofs.«159406_j42434276884964_2_alg».proof.Proof.Gen.Kernel.Launch
import proofs.«159406_j42434276884964_2_alg».proof.Proof.Gen.Kernel.Points
import proofs.«159406_j42434276884964_2_alg».proof.Proof.Gen.Kernel.Frame
import proofs.«159406_j42434276884964_2_alg».proof.Proof.Gen.KernelIdeal
import proofs.«159406_j42434276884964_2_alg».proof.Proof.Gen.KernelIdeal.Skeleton
import proofs.«159406_j42434276884964_2_alg».proof.Proof.Gen.KernelIdeal.Launch
import proofs.«159406_j42434276884964_2_alg».proof.Proof.Gen.KernelIdeal.Points
import proofs.«159406_j42434276884964_2_alg».proof.Proof.Gen.KernelIdeal.Frame
import proofs.«159406_j42434276884964_2_alg».proof.Proof.Gen.ReferenceIdeal
import proofs.«159406_j42434276884964_2_alg».proof.Proof.Gen.Pre_finite_inputs
import proofs.«159406_j42434276884964_2_alg».proof.Proof.Gen.ReferenceIdeal.Run
import proofs.«159406_j42434276884964_2_alg».proof.Proof.Gen.ReferenceIdeal.Read
import proofs.«159406_j42434276884964_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
